-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S64 .f32) (main_arg9 : FVec F S128 .f32) (main_arg10 : FVec F S128 .f32) (main_arg11 : FVec F S128 .f32) (main_arg12 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S128x128 .f32) (main_arg6 : FVec F S128 .f32) (main_arg7 : FVec F S128x64 .f32) (main_arg8 : FVec F S64 .f32) (main_arg9 : FVec F S128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S128 .f32) (main_arg10 : FVec F S128 .f32) (main_arg11 : FVec F S128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 141
  | .vmem => 39
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128, .f32⟩
  | 10 => ⟨S128, .f32⟩
  | 11 => ⟨S128, .f32⟩
  | 12 => ⟨S128, .f32⟩
  | 13 => ⟨S1x1600000, .i32⟩
  | 14 => ⟨S1600000, .i32⟩
  | 15 => ⟨S1x1600000, .i32⟩
  | 16 => ⟨S1600000, .i32⟩
  | 17 => ⟨S100000, .i32⟩
  | 18 => ⟨S1700000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S1x128, .f32⟩
  | 87 => ⟨S100000x128, .f32⟩
  | 88 => ⟨S100000x128, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000x128, .f32⟩
  | 98 => ⟨S1700000x1, .f32⟩
  | 99 => ⟨S1700000x128, .f32⟩
  | 100 => ⟨S1700000x128, .f32⟩
  | 101 => ⟨S_, .f32⟩
  | 102 => ⟨S100000x128, .f32⟩
  | 103 => ⟨S1700000x1, .i32⟩
  | 104 => ⟨S100000x128, .f32⟩
  | 105 => ⟨S1x128, .f32⟩
  | 106 => ⟨S100000x128, .f32⟩
  | 107 => ⟨S100000x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S100000x128, .f32⟩
  | 121 => ⟨S100000x64, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x128, .f32⟩

abbrev hbmTy0_1 (i : Nat) : BufTy := match i % 128 with
  | 0 => ⟨S1700000, .i32⟩
  | 1 => ⟨S1700000x1, .i32⟩
  | 2 => ⟨S1700000x64, .f32⟩
  | 3 => ⟨S1700000x1, .f32⟩
  | 4 => ⟨S1700000x64, .f32⟩
  | 5 => ⟨S1700000x64, .f32⟩
  | 6 => ⟨S_, .f32⟩
  | 7 => ⟨S100000x64, .f32⟩
  | 8 => ⟨S1700000x1, .i32⟩
  | 9 => ⟨S100000x64, .f32⟩
  | 10 => ⟨S1x64, .f32⟩
  | 11 => ⟨S100000x64, .f32⟩
  | 12 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x64, .f32⟩
  | .local _ .vmem, ⟨37, _⟩ => ⟨S5000x64, .f32⟩
  | .local _ .vmem, ⟨38, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49_0 : Ref sig .tc := ⟨.hbm, 75, rfl⟩
abbrev main_v49_1 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76_0 : Ref sig .tc := ⟨.hbm, 108, rfl⟩
abbrev main_v76_1 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_16 : Ref sig .tc := ⟨.hbm, 122, rfl⟩
abbrev main_v87 : Ref sig .tc := ⟨.hbm, 123, rfl⟩
abbrev main_v88 : Ref sig .tc := ⟨.hbm, 124, rfl⟩
abbrev main_c_17 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v85) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 257
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128, .f32⟩
  | 10 => ⟨S128, .f32⟩
  | 11 => ⟨S128, .f32⟩
  | 12 => ⟨S128, .f32⟩
  | 13 => ⟨S1x1600000, .i32⟩
  | 14 => ⟨S1600000, .i32⟩
  | 15 => ⟨S1x1600000, .i32⟩
  | 16 => ⟨S1600000, .i32⟩
  | 17 => ⟨S100000x128, .f32⟩
  | 18 => ⟨S100000, .i32⟩
  | 19 => ⟨S1700000, .i32⟩
  | 20 => ⟨S1700000, .i32⟩
  | 21 => ⟨S_, .f32⟩
  | 22 => ⟨S100000, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S100000, .i32⟩
  | 110 => ⟨S1700000, .i32⟩
  | 111 => ⟨S1700000, .i32⟩
  | 112 => ⟨S_, .f32⟩
  | 113 => ⟨S100000, .f32⟩
  | 114 => ⟨S1700000, .f32⟩
  | 115 => ⟨S_, .f32⟩
  | 116 => ⟨S100000, .f32⟩
  | 117 => ⟨S1700000x1, .i32⟩
  | 118 => ⟨S100000, .f32⟩
  | 119 => ⟨S_, .f32⟩
  | 120 => ⟨S100000, .f32⟩
  | 121 => ⟨S100000, .i1⟩
  | 122 => ⟨S100000, .f32⟩
  | 123 => ⟨S_, .f32⟩
  | 124 => ⟨S_, .f32⟩
  | 125 => ⟨S100000, .f32⟩
  | 126 => ⟨S100000, .f32⟩
  | 127 => ⟨S_, .i32⟩
  | _ => ⟨S100000x128, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000, .f32⟩
  | 8 => ⟨S1700000, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000, .f32⟩
  | 18 => ⟨S1700000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000x128, .f32⟩
  | 28 => ⟨S1700000x1, .f32⟩
  | 29 => ⟨S1700000x128, .f32⟩
  | 30 => ⟨S1700000x128, .f32⟩
  | 31 => ⟨S_, .f32⟩
  | 32 => ⟨S100000x128, .f32⟩
  | 33 => ⟨S1700000x1, .i32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S_, .f32⟩
  | 56 => ⟨S128, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x64, .f32⟩
  | 72 => ⟨S100000, .i32⟩
  | 73 => ⟨S1700000, .i32⟩
  | 74 => ⟨S1700000, .i32⟩
  | 75 => ⟨S_, .f32⟩
  | 76 => ⟨S100000, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x128, .f32⟩

abbrev hbmTy0_2 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_cst_15 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_16 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_call2_v0 : Ref sig .tc := ⟨.hbm, 124, rfl⟩
abbrev main_call2_v1 : Ref sig .tc := ⟨.hbm, 125, rfl⟩
abbrev main_v87 : Ref sig .tc := ⟨.hbm, 126, rfl⟩
abbrev main_c_18 : Ref sig .tc := ⟨.hbm, 127, rfl⟩
abbrev main_v88 : Ref sig .tc := ⟨.hbm, 128, rfl⟩
abbrev main_v89 : Ref sig .tc := ⟨.hbm, 129, rfl⟩
abbrev main_c_19 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_20 : Ref sig .tc := ⟨.hbm, 137, rfl⟩
abbrev main_v96 : Ref sig .tc := ⟨.hbm, 138, rfl⟩
abbrev main_v97 : Ref sig .tc := ⟨.hbm, 139, rfl⟩
abbrev main_c_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_22 : Ref sig .tc := ⟨.hbm, 147, rfl⟩
abbrev main_v104 : Ref sig .tc := ⟨.hbm, 148, rfl⟩
abbrev main_v105 : Ref sig .tc := ⟨.hbm, 149, rfl⟩
abbrev main_c_23 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_24 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_25 : Ref sig .tc := ⟨.hbm, 166, rfl⟩
abbrev main_v120 : Ref sig .tc := ⟨.hbm, 167, rfl⟩
abbrev main_cst_26 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_27 : Ref sig .tc := ⟨.hbm, 175, rfl⟩
abbrev main_v127 : Ref sig .tc := ⟨.hbm, 176, rfl⟩
abbrev main_cst_28 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_29 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_call3_cst : Ref sig .tc := ⟨.hbm, 196, rfl⟩
abbrev main_call3_v0 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_30 : Ref sig .tc := ⟨.hbm, 203, rfl⟩
abbrev main_v150 : Ref sig .tc := ⟨.hbm, 204, rfl⟩
abbrev main_v151 : Ref sig .tc := ⟨.hbm, 205, rfl⟩
abbrev main_cst_31 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_32 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_cst_33 : Ref sig .tc := ⟨.hbm, 214, rfl⟩
abbrev main_call4_v0 : Ref sig .tc := ⟨.hbm, 215, rfl⟩
abbrev main_call4_v1 : Ref sig .tc := ⟨.hbm, 216, rfl⟩
abbrev main_v158 : Ref sig .tc := ⟨.hbm, 217, rfl⟩
abbrev main_c_34 : Ref sig .tc := ⟨.hbm, 218, rfl⟩
abbrev main_v159 : Ref sig .tc := ⟨.hbm, 219, rfl⟩
abbrev main_v160 : Ref sig .tc := ⟨.hbm, 220, rfl⟩
abbrev main_c_35 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_c_36 : Ref sig .tc := ⟨.hbm, 228, rfl⟩
abbrev main_v167 : Ref sig .tc := ⟨.hbm, 229, rfl⟩
abbrev main_v168 : Ref sig .tc := ⟨.hbm, 230, rfl⟩
abbrev main_c_37 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_c_38 : Ref sig .tc := ⟨.hbm, 238, rfl⟩
abbrev main_v175 : Ref sig .tc := ⟨.hbm, 239, rfl⟩
abbrev main_v176 : Ref sig .tc := ⟨.hbm, 240, rfl⟩
abbrev main_c_39 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_cst_40 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Stages0.lean ====
/-
  The graph precomputation. Before the first pallas_call the kernel's host operations build, from the edge list
  and the edge weights alone, the source and target index vectors with one self-loop per node appended, the
  weighted in-degree of every node, its inverse square root where positive (zero elsewhere), and the symmetric
  normalisation  dinv[s] · w · dinv[d]  of every edge. The reference builds the same three arrays by the same
  operations (once per layer); here each of the kernel's is identified with the reference's stage, as a function
  of the two argument arrays: the two programs spell the same operations in the same order, so once the fold of
  the host stretches is opened the two terms are one.
-/
import proofs.«161928_j20289425506400_1_alg».proof.Proof.Gen.KernelIdeal.Frame
import proofs.«161928_j20289425506400_1_alg».proof.Proof.Gen.ReferenceIdeal.Read
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The source index vector (edges, then one self-loop per node), after the first two host stretches. -/
theorem src_at2 (c : Dev nD) :
    W2 m ρ c (Proc.devRef .tc main_v5) = Cert.ReferenceIdeal.Read.val_main_v6 (F := Ideal) (m ((c : Thread nD τ).loc main_arg1)) := by
  show StableHlo.after hostOps0_1 (StableHlo.after hostOps0 (W0 m ρ c)) (Proc.devRef .tc main_v5) = _
  after_results
  rfl

/-- The target index vector. -/
theorem dst_at2 (c : Dev nD) :
    W2 m ρ c (Proc.devRef .tc main_v6) = Cert.ReferenceIdeal.Read.val_main_v7 (F := Ideal) (m ((c : Thread nD τ).loc main_arg1)) := by
  show StableHlo.after hostOps0_1 (StableHlo.after hostOps0 (W0 m ρ c)) (Proc.devRef .tc main_v6) = _
  after_results
  rfl

/-- The edge weights with a unit weight per self-loop appended. -/
theorem wts_at2 (c : Dev nD) :
    W2 m ρ c (Proc.devRef .tc main_v8) = Cert.ReferenceIdeal.Read.val_main_v9 (F := Ideal) (m ((c : Thread nD τ).loc main_arg2)) := by
  show StableHlo.after hostOps0_1 (StableHlo.after hostOps0 (W0 m ρ c)) (Proc.devRef .tc main_v8) = _
  after_results
  rfl

set_option maxHeartbeats 1000000 in
/-- Whether a node's weighted in-degree is positive, after the first host stretch. -/
theorem degpos_at1 (c : Dev nD) :
    W1 m ρ c (Proc.devRef .tc main_v13) = Cert.ReferenceIdeal.Read.val_main_v14 (F := Ideal) (m ((c : Thread nD τ).loc main_arg1)) (m ((c : Thread nD τ).loc main_arg2)) := by
  show StableHlo.after hostOps0 (W0 m ρ c) (Proc.devRef .tc main_v13) = _
  after_results
  rfl

set_option maxHeartbeats 1000000 in
/-- The inverse square root of the weighted in-degree, after the first host stretch. -/
theorem degrsqrt_at1 (c : Dev nD) :
    W1 m ρ c (Proc.devRef .tc main_v14) = Cert.ReferenceIdeal.Read.val_main_v15 (F := Ideal) (m ((c : Thread nD τ).loc main_arg1)) (m ((c : Thread nD τ).loc main_arg2)) := by
  show StableHlo.after hostOps0 (W0 m ρ c) (Proc.devRef .tc main_v14) = _
  after_results
  rfl

/-- The zero the selection falls back to. -/
theorem zero_at1 (c : Dev nD) :
    W1 m ρ c (Proc.devRef .tc main_cst_2) = Cert.ReferenceIdeal.Read.val_main_cst_2 (F := Ideal) := by
  show StableHlo.after hostOps0 (W0 m ρ c) (Proc.devRef .tc main_cst_2) = _
  after_results
  rfl

end Cert.KernelIdeal.Stages

end
-- ==== Proof.Spec.lean ====
/-
  The network as pure functions of arrays over the extended reals, spelled with the reference's own operations:
    • `wrap`: a negative index is taken from the end (the node count is added);
    • `conv128` / `conv64`: one graph convolution after the dense product P = X·W — every edge e carries
      P[s(e), :] · norm(e) to node d(e), the contributions summed per node (scatter-add into zeros), plus the bias;
    • `colMean`, `colVar`, `bnRelu`: batch normalisation over the node axis with the biased variance taken as the
      mean of the squared deviations, then the affine map and the rectifier;
    • `dot128` / `dot64`: the dense products.
  `network` composes three layers. Both programs are shown equal to it: the reference stage by stage (its stages
  are these functions of the arguments, by unfolding), the kernel region by region.
-/
import proofs.«161928_j20289425506400_1_alg».proof.Proof.Gen.ReferenceIdeal
import Idealize.ShloMosaic.PureOps.Ideal

noncomputable section

namespace Cert.Gcn

open Idealize.ShloMosaic Cert.ReferenceIdeal Cert.ReferenceIdeal.Gen

/-- An index vector with every negative entry taken from the end. -/
def wrap (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- A graph convolution's propagation and bias, 128 features: gather the source rows of `P`, scale each by its
    edge's normalisation, add them up at the target rows, add the bias. -/
def conv128 (P : FVec Ideal S100000x128 .f32) (sI dI : IVec S1700000 32) (nrm : FVec Ideal S1700000 .f32)
    (b : FVec Ideal S128 .f32) : FVec Ideal S100000x128 .f32 :=
  addf (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 dI)
      (mulf (Host.gather gather_S100000x128_S1700000x1_S1700000x128_1_0_n_n_0_1_1128 P
              (broadcastInDim S1700000x1 ![0] bcast_S1700000_S1700000x1_0 (wrap sI)))
            (broadcastInDim S1700000x128 ![0, 1] bcast_S1700000x1_S1700000x128_0_1
              (broadcastInDim S1700000x1 ![0] bcast_S1700000_S1700000x1_0 nrm))))
    (broadcastInDim S100000x128 ![0, 1] bcast_S1x128_S100000x128_0_1 (broadcastInDim S1x128 ![1] bcast_S128_S1x128_1 b))

/-- The same with 64 features (the last layer). -/
def conv64 (P : FVec Ideal S100000x64 .f32) (sI dI : IVec S1700000 32) (nrm : FVec Ideal S1700000 .f32)
    (b : FVec Ideal S64 .f32) : FVec Ideal S100000x64 .f32 :=
  addf (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 dI)
      (mulf (Host.gather gather_S100000x64_S1700000x1_S1700000x64_1_0_n_n_0_1_164 P
              (broadcastInDim S1700000x1 ![0] bcast_S1700000_S1700000x1_0 (wrap sI)))
            (broadcastInDim S1700000x64 ![0, 1] bcast_S1700000x1_S1700000x64_0_1
              (broadcastInDim S1700000x1 ![0] bcast_S1700000_S1700000x1_0 nrm))))
    (broadcastInDim S100000x64 ![0, 1] bcast_S1x64_S100000x64_0_1 (broadcastInDim S1x64 ![1] bcast_S64_S1x64_1 b))

/-- A row vector repeated down the node axis. -/
def rows (v : FVec Ideal S128 .f32) : FVec Ideal S100000x128 .f32 :=
  broadcastInDim S100000x128 ![0, 1] bcast_S1x128_S100000x128_0_1 (broadcastInDim S1x128 ![1] bcast_S128_S1x128_1 v)

/-- The column sums divided by the node count. -/
def colMean (H : FVec Ideal S100000x128 .f32) : FVec Ideal S128 .f32 :=
  Host.divf (Host.reduceAdd H (constant S_ .f32 0x00000000#32) reducesTo_S100000x128_S128_d0 h_S_)
    (broadcastInDim S128 ![] bcast_S_S128 (constant S_ .f32 0x47C35000#32))

/-- The biased column variance: the mean of the squared deviations from the column mean. -/
def colVar (H : FVec Ideal S100000x128 .f32) : FVec Ideal S128 .f32 :=
  Host.divf (Host.reduceAdd (mulf (subf H (rows (colMean H))) (subf H (rows (colMean H))))
      (constant S_ .f32 0x00000000#32) reducesTo_S100000x128_S128_d0 h_S_)
    (broadcastInDim S128 ![] bcast_S_S128 (constant S_ .f32 0x47C35000#32))

/-- Batch normalisation over the nodes, the affine map, the rectifier. -/
def bnRelu (H : FVec Ideal S100000x128 .f32) (g b : FVec Ideal S128 .f32) : FVec Ideal S100000x128 .f32 :=
  maximumf
    (addf (mulf (mulf (subf H (rows (colMean H)))
                      (rows (Host.rsqrt (addf (colVar H) (broadcastInDim S128 ![] bcast_S_S128 (constant S_ .f32 0x3727C5AC#32))))))
                (rows g))
          (rows b))
    (broadcastInDim S100000x128 ![] bcast_S_S100000x128 (constant S_ .f32 0x00000000#32))

/-- The dense product of a layer with 128 output features. -/
def dot128 (A : FVec Ideal S100000x128 .f32) (W : FVec Ideal S128x128 .f32) : FVec Ideal S100000x128 .f32 :=
  Host.dotGeneral dot_S100000x128_S128x128_S100000x128_1_0_0_1_n_n none A W

/-- The dense product of the last layer. -/
def dot64 (A : FVec Ideal S100000x128 .f32) (W : FVec Ideal S128x64 .f32) : FVec Ideal S100000x64 .f32 :=
  Host.dotGeneral dot_S100000x128_S128x64_S100000x64_1_0_0_1_n_n none A W

/-- Three graph convolutions, the first two followed by batch normalisation and the rectifier. -/
def network (x : FVec Ideal S100000x128 .f32) (sI dI : IVec S1700000 32) (nrm : FVec Ideal S1700000 .f32)
    (W1 : FVec Ideal S128x128 .f32) (b1 : FVec Ideal S128 .f32) (W2 : FVec Ideal S128x128 .f32) (b2 : FVec Ideal S128 .f32)
    (W3 : FVec Ideal S128x64 .f32) (b3 : FVec Ideal S64 .f32) (g1 be1 g2 be2 : FVec Ideal S128 .f32) : FVec Ideal S100000x64 .f32 :=
  conv64 (dot64 (bnRelu (conv128 (dot128 (bnRelu (conv128 (dot128 x W1) sI dI nrm b1) g1 be1) W2) sI dI nrm b2) g2 be2) W3)
    sI dI nrm b3

end Cert.Gcn

end
-- ==== Proof.EdgeNorm.lean ====
/-
  The symmetric normalisation of the edges as a function of the degree normalisation, the two index vectors and the
  edge weights:  dinv[s(e)] · w(e) · dinv[d(e)]  (negative indices taken from the end); the reference's stage is this
  function of its own degree normalisation, index vectors and weights.
-/
import proofs.«161928_j20289425506400_1_alg».proof.Proof.Spec
import proofs.«161928_j20289425506400_1_alg».proof.Proof.Gen.ReferenceIdeal.Read

noncomputable section

namespace Cert.Gcn

open Idealize.ShloMosaic Cert.ReferenceIdeal Cert.ReferenceIdeal.Gen Cert.ReferenceIdeal.Read

/-- dinv gathered by source, times the weight, times dinv gathered by target. -/
def edgeNorm (dinv : FVec Ideal S100000 .f32) (sI dI : IVec S1700000 32) (w : FVec Ideal S1700000 .f32) : FVec Ideal S1700000 .f32 :=
  mulf (mulf (Host.gather gather_S100000_S1700000x1_S1700000_n_0_n_n_0_1_1 dinv
               (broadcastInDim S1700000x1 ![0] bcast_S1700000_S1700000x1_0 (wrap sI))) w)
       (Host.gather gather_S100000_S1700000x1_S1700000_n_0_n_n_0_1_1 dinv
               (broadcastInDim S1700000x1 ![0] bcast_S1700000_S1700000x1_0 (wrap dI)))

/-- The reference's edge normalisation is that function of its stages. -/
theorem ref_norm (x1 : IVec S2x1600000 32) (x2 : FVec Ideal S1600000 .f32) :
    val_main_v32 (F := Ideal) x1 x2
      = edgeNorm (val_main_v16 (F := Ideal) x1 x2) (val_main_v6 (F := Ideal) x1) (val_main_v7 (F := Ideal) x1) (val_main_v9 (F := Ideal) x2) := rfl

end Cert.Gcn

end
-- ==== Proof.Stages0b.lean ====
/-
  The graph precomputation, continued: the inverse square root of the degree where positive (the outlined
  selection) and the symmetric normalisation of every edge, each identified with the reference's stage. Each host
  stretch is first read for ARBITRARY buffer contents at its entry — its result is the stretch's operations of the
  buffers it reads — and only then are those buffers replaced by the arrays already identified.
-/
import proofs.«161928_j20289425506400_1_alg».proof.Proof.Stages0
import proofs.«161928_j20289425506400_1_alg».proof.Proof.EdgeNorm

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

/-- The outlined selection, from any contents: the second array where the first holds, the broadcast scalar elsewhere. -/
theorem where_stretch (W : Valuation τ sig (Elt Ideal)) :
    StableHlo.after hostOps0_1 W (Proc.devRef .tc main_v15)
      = select (W (Proc.devRef .tc main_v13)) (W (Proc.devRef .tc main_v14))
          (broadcastInDim S100000 ![] bcast_S_S100000 (W (Proc.devRef .tc main_cst_2))) := by
  after_results
  rfl

section
variable (m : (ℓ : Loc nD τ sig) → Buf (Elt Ideal) ℓ) (ρ : Dev nD → PrngReg)

/-- The inverse square root of the weighted in-degree where it is positive, zero elsewhere. -/
theorem dinv_at2 (c : Dev nD) :
    W2 m ρ c (Proc.devRef .tc main_v15) = Cert.ReferenceIdeal.Read.val_main_v16 (F := Ideal) (m ((c : Thread nD τ).loc main_arg1)) (m ((c : Thread nD τ).loc main_arg2)) := by
  refine (where_stretch (W1 m ρ c)).trans ?_
  rw [degpos_at1 m ρ c, degrsqrt_at1 m ρ c, zero_at1 m ρ c]
  rfl

end

set_option maxHeartbeats 1000000 in
/-- The third stretch, from any contents: the edge normalisation of the degree normalisation, the two index
    vectors and the weights it reads. -/
theorem norm_stretch (W : Valuation τ sig (Elt Ideal)) :
    StableHlo.after hostOps0_2 W (Proc.devRef .tc main_v31)
      = Cert.Gcn.edgeNorm (W (Proc.devRef .tc main_v15)) (W (Proc.devRef .tc main_v5)) (W (Proc.devRef .tc main_v6)) (W (Proc.devRef .tc main_v8)) := by
  after_results
  rfl

variable (m : (ℓ : Loc nD τ sig) → Buf (Elt Ideal) ℓ) (ρ : Dev nD → PrngReg)

/-- The symmetric normalisation of every edge, after the third host stretch (the first region's entry). -/
theorem norm_at3 (c : Dev nD) :
    W3 m ρ c (Proc.devRef .tc main_v31) = Cert.ReferenceIdeal.Read.val_main_v32 (F := Ideal) (m ((c : Thread nD τ).loc main_arg1)) (m ((c : Thread nD τ).loc main_arg2)) := by
  refine (norm_stretch (W2 m ρ c)).trans ?_
  rw [src_at2 m ρ c, dst_at2 m ρ c, wts_at2 m ρ c, dinv_at2 m ρ c]
  exact (Cert.Gcn.ref_norm _ _).symm

end Cert.KernelIdeal.Stages

end
-- ==== Proof.Keeps.lean ====
/-
  A buffer that a stretch of host operations does not write, and that a pallas_call region does not own or only
  reads through an input window, holds after the segment what it held before it. Chained over @main's
  segments this carries the edge lists, the edge normalisation, the parameter arrays and each layer's
  pre-normalisation activations from the boundary where they are computed to every later boundary where they are read.
-/
import proofs.«161928_j20289425506400_1_alg».proof.Proof.Gen.KernelIdeal.Frame

set_option maxRecDepth 16384

noncomputable section

namespace Cert.KernelIdeal.Keeps

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- No operation of the named stretch writes the buffer: each operation's written buffer is another reference. -/
macro "host_keeps" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

theorem keep_arg0_3_0 (c : Dev nD) : W3 m ρ c (Proc.devRef .tc main_arg0) = W0 m ρ c (Proc.devRef .tc main_arg0) :=
  (((by host_keeps hostOps0_2 : W3 m ρ c (Proc.devRef .tc main_arg0) = W2 m ρ c (Proc.devRef .tc main_arg0)).trans
    (by host_keeps hostOps0_1 : W2 m ρ c (Proc.devRef .tc main_arg0) = W1 m ρ c (Proc.devRef .tc main_arg0))).trans
    (by host_keeps hostOps0 : W1 m ρ c (Proc.devRef .tc main_arg0) = W0 m ρ c (Proc.devRef .tc main_arg0)))

theorem keep_arg3_3_0 (c : Dev nD) : W3 m ρ c (Proc.devRef .tc main_arg3) = W0 m ρ c (Proc.devRef .tc main_arg3) :=
  (((by host_keeps hostOps0_2 : W3 m ρ c (Proc.devRef .tc main_arg3) = W2 m ρ c (Proc.devRef .tc main_arg3)).trans
    (by host_keeps hostOps0_1 : W2 m ρ c (Proc.devRef .tc main_arg3) = W1 m ρ c (Proc.devRef .tc main_arg3))).trans
    (by host_keeps hostOps0 : W1 m ρ c (Proc.devRef .tc main_arg3) = W0 m ρ c (Proc.devRef .tc main_arg3)))

theorem keep_v5_2_1 (c : Dev nD) : W2 m ρ c (Proc.devRef .tc main_v5) = W1 m ρ c (Proc.devRef .tc main_v5) :=
  (by host_keeps hostOps0_1 : W2 m ρ c (Proc.devRef .tc main_v5) = W1 m ρ c (Proc.devRef .tc main_v5))

theorem keep_v6_2_1 (c : Dev nD) : W2 m ρ c (Proc.devRef .tc main_v6) = W1 m ρ c (Proc.devRef .tc main_v6) :=
  (by host_keeps hostOps0_1 : W2 m ρ c (Proc.devRef .tc main_v6) = W1 m ρ c (Proc.devRef .tc main_v6))

theorem keep_v8_2_1 (c : Dev nD) : W2 m ρ c (Proc.devRef .tc main_v8) = W1 m ρ c (Proc.devRef .tc main_v8) :=
  (by host_keeps hostOps0_1 : W2 m ρ c (Proc.devRef .tc main_v8) = W1 m ρ c (Proc.devRef .tc main_v8))

theorem keep_v5_4_2 (c : Dev nD) : W4 m ρ c (Proc.devRef .tc main_v5) = W2 m ρ c (Proc.devRef .tc main_v5) :=
  ((W4_of_ne m ρ c main_v5 (by decide) : W4 m ρ c (Proc.devRef .tc main_v5) = W3 m ρ c (Proc.devRef .tc main_v5)).trans
    (by host_keeps hostOps0_2 : W3 m ρ c (Proc.devRef .tc main_v5) = W2 m ρ c (Proc.devRef .tc main_v5)))

theorem keep_v6_4_2 (c : Dev nD) : W4 m ρ c (Proc.devRef .tc main_v6) = W2 m ρ c (Proc.devRef .tc main_v6) :=
  ((W4_of_ne m ρ c main_v6 (by decide) : W4 m ρ c (Proc.devRef .tc main_v6) = W3 m ρ c (Proc.devRef .tc main_v6)).trans
    (by host_keeps hostOps0_2 : W3 m ρ c (Proc.devRef .tc main_v6) = W2 m ρ c (Proc.devRef .tc main_v6)))

theorem keep_v31_4_3 (c : Dev nD) : W4 m ρ c (Proc.devRef .tc main_v31) = W3 m ρ c (Proc.devRef .tc main_v31) :=
  (W4_of_ne m ρ c main_v31 (by decide) : W4 m ρ c (Proc.devRef .tc main_v31) = W3 m ρ c (Proc.devRef .tc main_v31))

theorem keep_arg4_4_0 (c : Dev nD) : W4 m ρ c (Proc.devRef .tc main_arg4) = W0 m ρ c (Proc.devRef .tc main_arg4) :=
  ((((W4_of_ne m ρ c main_arg4 (by decide) : W4 m ρ c (Proc.devRef .tc main_arg4) = W3 m ρ c (Proc.devRef .tc main_arg4)).trans
    (by host_keeps hostOps0_2 : W3 m ρ c (Proc.devRef .tc main_arg4) = W2 m ρ c (Proc.devRef .tc main_arg4))).trans
    (by host_keeps hostOps0_1 : W2 m ρ c (Proc.devRef .tc main_arg4) = W1 m ρ c (Proc.devRef .tc main_arg4))).trans
    (by host_keeps hostOps0 : W1 m ρ c (Proc.devRef .tc main_arg4) = W0 m ρ c (Proc.devRef .tc main_arg4)))

theorem keep_arg9_6_0 (c : Dev nD) : W6 m ρ c (Proc.devRef .tc main_arg9) = W0 m ρ c (Proc.devRef .tc main_arg9) :=
  ((((((W6_of_ne m ρ c main_arg9 (by decide) : W6 m ρ c (Proc.devRef .tc main_arg9) = W5 m ρ c (Proc.devRef .tc main_arg9)).trans
    (by host_keeps hostOps1 : W5 m ρ c (Proc.devRef .tc main_arg9) = W4 m ρ c (Proc.devRef .tc main_arg9))).trans
    (W4_of_ne m ρ c main_arg9 (by decide) : W4 m ρ c (Proc.devRef .tc main_arg9) = W3 m ρ c (Proc.devRef .tc main_arg9))).trans
    (by host_keeps hostOps0_2 : W3 m ρ c (Proc.devRef .tc main_arg9) = W2 m ρ c (Proc.devRef .tc main_arg9))).trans
    (by host_keeps hostOps0_1 : W2 m ρ c (Proc.devRef .tc main_arg9) = W1 m ρ c (Proc.devRef .tc main_arg9))).trans
    (by host_keeps hostOps0 : W1 m ρ c (Proc.devRef .tc main_arg9) = W0 m ρ c (Proc.devRef .tc main_arg9)))

theorem keep_arg10_6_0 (c : Dev nD) : W6 m ρ c (Proc.devRef .tc main_arg10) = W0 m ρ c (Proc.devRef .tc main_arg10) :=
  ((((((W6_of_ne m ρ c main_arg10 (by decide) : W6 m ρ c (Proc.devRef .tc main_arg10) = W5 m ρ c (Proc.devRef .tc main_arg10)).trans
    (by host_keeps hostOps1 : W5 m ρ c (Proc.devRef .tc main_arg10) = W4 m ρ c (Proc.devRef .tc main_arg10))).trans
    (W4_of_ne m ρ c main_arg10 (by decide) : W4 m ρ c (Proc.devRef .tc main_arg10) = W3 m ρ c (Proc.devRef .tc main_arg10))).trans
    (by host_keeps hostOps0_2 : W3 m ρ c (Proc.devRef .tc main_arg10) = W2 m ρ c (Proc.devRef .tc main_arg10))).trans
    (by host_keeps hostOps0_1 : W2 m ρ c (Proc.devRef .tc main_arg10) = W1 m ρ c (Proc.devRef .tc main_arg10))).trans
    (by host_keeps hostOps0 : W1 m ρ c (Proc.devRef .tc main_arg10) = W0 m ρ c (Proc.devRef .tc main_arg10)))

theorem keep_v48_7_5 (c : Dev nD) : W7 m ρ c (Proc.devRef .tc main_v48) = W5 m ρ c (Proc.devRef .tc main_v48) :=
  ((by host_keeps hostOps2 : W7 m ρ c (Proc.devRef .tc main_v48) = W6 m ρ c (Proc.devRef .tc main_v48)).trans
    ((W6_arr m ρ c 0).trans (((dat1 (V5 m ρ) c).arrAt_in 0 rfl _).trans (A_eq1 (V5 m ρ) c 0)) : W6 m ρ c (Proc.devRef .tc main_v48) = W5 m ρ c (Proc.devRef .tc main_v48)))

theorem keep_arg5_8_0 (c : Dev nD) : W8 m ρ c (Proc.devRef .tc main_arg5) = W0 m ρ c (Proc.devRef .tc main_arg5) :=
  ((((((((W8_of_ne m ρ c main_arg5 (by decide) : W8 m ρ c (Proc.devRef .tc main_arg5) = W7 m ρ c (Proc.devRef .tc main_arg5)).trans
    (by host_keeps hostOps2 : W7 m ρ c (Proc.devRef .tc main_arg5) = W6 m ρ c (Proc.devRef .tc main_arg5))).trans
    (W6_of_ne m ρ c main_arg5 (by decide) : W6 m ρ c (Proc.devRef .tc main_arg5) = W5 m ρ c (Proc.devRef .tc main_arg5))).trans
    (by host_keeps hostOps1 : W5 m ρ c (Proc.devRef .tc main_arg5) = W4 m ρ c (Proc.devRef .tc main_arg5))).trans
    (W4_of_ne m ρ c main_arg5 (by decide) : W4 m ρ c (Proc.devRef .tc main_arg5) = W3 m ρ c (Proc.devRef .tc main_arg5))).trans
    (by host_keeps hostOps0_2 : W3 m ρ c (Proc.devRef .tc main_arg5) = W2 m ρ c (Proc.devRef .tc main_arg5))).trans
    (by host_keeps hostOps0_1 : W2 m ρ c (Proc.devRef .tc main_arg5) = W1 m ρ c (Proc.devRef .tc main_arg5))).trans
    (by host_keeps hostOps0 : W1 m ρ c (Proc.devRef .tc main_arg5) = W0 m ρ c (Proc.devRef .tc main_arg5)))

theorem keep_v5_9_4 (c : Dev nD) : W9 m ρ c (Proc.devRef .tc main_v5) = W4 m ρ c (Proc.devRef .tc main_v5) :=
  (((((W9_of_ne m ρ c main_v5 (by decide) : W9 m ρ c (Proc.devRef .tc main_v5) = W8 m ρ c (Proc.devRef .tc main_v5)).trans
    (W8_of_ne m ρ c main_v5 (by decide) : W8 m ρ c (Proc.devRef .tc main_v5) = W7 m ρ c (Proc.devRef .tc main_v5))).trans
    (by host_keeps hostOps2 : W7 m ρ c (Proc.devRef .tc main_v5) = W6 m ρ c (Proc.devRef .tc main_v5))).trans
    (W6_of_ne m ρ c main_v5 (by decide) : W6 m ρ c (Proc.devRef .tc main_v5) = W5 m ρ c (Proc.devRef .tc main_v5))).trans
    (by host_keeps hostOps1 : W5 m ρ c (Proc.devRef .tc main_v5) = W4 m ρ c (Proc.devRef .tc main_v5)))

theorem keep_v6_9_4 (c : Dev nD) : W9 m ρ c (Proc.devRef .tc main_v6) = W4 m ρ c (Proc.devRef .tc main_v6) :=
  (((((W9_of_ne m ρ c main_v6 (by decide) : W9 m ρ c (Proc.devRef .tc main_v6) = W8 m ρ c (Proc.devRef .tc main_v6)).trans
    (W8_of_ne m ρ c main_v6 (by decide) : W8 m ρ c (Proc.devRef .tc main_v6) = W7 m ρ c (Proc.devRef .tc main_v6))).trans
    (by host_keeps hostOps2 : W7 m ρ c (Proc.devRef .tc main_v6) = W6 m ρ c (Proc.devRef .tc main_v6))).trans
    (W6_of_ne m ρ c main_v6 (by decide) : W6 m ρ c (Proc.devRef .tc main_v6) = W5 m ρ c (Proc.devRef .tc main_v6))).trans
    (by host_keeps hostOps1 : W5 m ρ c (Proc.devRef .tc main_v6) = W4 m ρ c (Proc.devRef .tc main_v6)))

theorem keep_v31_9_4 (c : Dev nD) : W9 m ρ c (Proc.devRef .tc main_v31) = W4 m ρ c (Proc.devRef .tc main_v31) :=
  (((((W9_of_ne m ρ c main_v31 (by decide) : W9 m ρ c (Proc.devRef .tc main_v31) = W8 m ρ c (Proc.devRef .tc main_v31)).trans
    (W8_of_ne m ρ c main_v31 (by decide) : W8 m ρ c (Proc.devRef .tc main_v31) = W7 m ρ c (Proc.devRef .tc main_v31))).trans
    (by host_keeps hostOps2 : W7 m ρ c (Proc.devRef .tc main_v31) = W6 m ρ c (Proc.devRef .tc main_v31))).trans
    (W6_of_ne m ρ c main_v31 (by decide) : W6 m ρ c (Proc.devRef .tc main_v31) = W5 m ρ c (Proc.devRef .tc main_v31))).trans
    (by host_keeps hostOps1 : W5 m ρ c (Proc.devRef .tc main_v31) = W4 m ρ c (Proc.devRef .tc main_v31)))

theorem keep_arg6_9_0 (c : Dev nD) : W9 m ρ c (Proc.devRef .tc main_arg6) = W0 m ρ c (Proc.devRef .tc main_arg6) :=
  (((((((((W9_of_ne m ρ c main_arg6 (by decide) : W9 m ρ c (Proc.devRef .tc main_arg6) = W8 m ρ c (Proc.devRef .tc main_arg6)).trans
    (W8_of_ne m ρ c main_arg6 (by decide) : W8 m ρ c (Proc.devRef .tc main_arg6) = W7 m ρ c (Proc.devRef .tc main_arg6))).trans
    (by host_keeps hostOps2 : W7 m ρ c (Proc.devRef .tc main_arg6) = W6 m ρ c (Proc.devRef .tc main_arg6))).trans
    (W6_of_ne m ρ c main_arg6 (by decide) : W6 m ρ c (Proc.devRef .tc main_arg6) = W5 m ρ c (Proc.devRef .tc main_arg6))).trans
    (by host_keeps hostOps1 : W5 m ρ c (Proc.devRef .tc main_arg6) = W4 m ρ c (Proc.devRef .tc main_arg6))).trans
    (W4_of_ne m ρ c main_arg6 (by decide) : W4 m ρ c (Proc.devRef .tc main_arg6) = W3 m ρ c (Proc.devRef .tc main_arg6))).trans
    (by host_keeps hostOps0_2 : W3 m ρ c (Proc.devRef .tc main_arg6) = W2 m ρ c (Proc.devRef .tc main_arg6))).trans
    (by host_keeps hostOps0_1 : W2 m ρ c (Proc.devRef .tc main_arg6) = W1 m ρ c (Proc.devRef .tc main_arg6))).trans
    (by host_keeps hostOps0 : W1 m ρ c (Proc.devRef .tc main_arg6) = W0 m ρ c (Proc.devRef .tc main_arg6)))

theorem keep_arg11_11_0 (c : Dev nD) : W11 m ρ c (Proc.devRef .tc main_arg11) = W0 m ρ c (Proc.devRef .tc main_arg11) :=
  (((((((((((W11_of_ne m ρ c main_arg11 (by decide) : W11 m ρ c (Proc.devRef .tc main_arg11) = W10 m ρ c (Proc.devRef .tc main_arg11)).trans
    (by host_keeps hostOps4 : W10 m ρ c (Proc.devRef .tc main_arg11) = W9 m ρ c (Proc.devRef .tc main_arg11))).trans
    (W9_of_ne m ρ c main_arg11 (by decide) : W9 m ρ c (Proc.devRef .tc main_arg11) = W8 m ρ c (Proc.devRef .tc main_arg11))).trans
    (W8_of_ne m ρ c main_arg11 (by decide) : W8 m ρ c (Proc.devRef .tc main_arg11) = W7 m ρ c (Proc.devRef .tc main_arg11))).trans
    (by host_keeps hostOps2 : W7 m ρ c (Proc.devRef .tc main_arg11) = W6 m ρ c (Proc.devRef .tc main_arg11))).trans
    (W6_of_ne m ρ c main_arg11 (by decide) : W6 m ρ c (Proc.devRef .tc main_arg11) = W5 m ρ c (Proc.devRef .tc main_arg11))).trans
    (by host_keeps hostOps1 : W5 m ρ c (Proc.devRef .tc main_arg11) = W4 m ρ c (Proc.devRef .tc main_arg11))).trans
    (W4_of_ne m ρ c main_arg11 (by decide) : W4 m ρ c (Proc.devRef .tc main_arg11) = W3 m ρ c (Proc.devRef .tc main_arg11))).trans
    (by host_keeps hostOps0_2 : W3 m ρ c (Proc.devRef .tc main_arg11) = W2 m ρ c (Proc.devRef .tc main_arg11))).trans
    (by host_keeps hostOps0_1 : W2 m ρ c (Proc.devRef .tc main_arg11) = W1 m ρ c (Proc.devRef .tc main_arg11))).trans
    (by host_keeps hostOps0 : W1 m ρ c (Proc.devRef .tc main_arg11) = W0 m ρ c (Proc.devRef .tc main_arg11)))

theorem keep_arg12_11_0 (c : Dev nD) : W11 m ρ c (Proc.devRef .tc main_arg12) = W0 m ρ c (Proc.devRef .tc main_arg12) :=
  (((((((((((W11_of_ne m ρ c main_arg12 (by decide) : W11 m ρ c (Proc.devRef .tc main_arg12) = W10 m ρ c (Proc.devRef .tc main_arg12)).trans
    (by host_keeps hostOps4 : W10 m ρ c (Proc.devRef .tc main_arg12) = W9 m ρ c (Proc.devRef .tc main_arg12))).trans
    (W9_of_ne m ρ c main_arg12 (by decide) : W9 m ρ c (Proc.devRef .tc main_arg12) = W8 m ρ c (Proc.devRef .tc main_arg12))).trans
    (W8_of_ne m ρ c main_arg12 (by decide) : W8 m ρ c (Proc.devRef .tc main_arg12) = W7 m ρ c (Proc.devRef .tc main_arg12))).trans
    (by host_keeps hostOps2 : W7 m ρ c (Proc.devRef .tc main_arg12) = W6 m ρ c (Proc.devRef .tc main_arg12))).trans
    (W6_of_ne m ρ c main_arg12 (by decide) : W6 m ρ c (Proc.devRef .tc main_arg12) = W5 m ρ c (Proc.devRef .tc main_arg12))).trans
    (by host_keeps hostOps1 : W5 m ρ c (Proc.devRef .tc main_arg12) = W4 m ρ c (Proc.devRef .tc main_arg12))).trans
    (W4_of_ne m ρ c main_arg12 (by decide) : W4 m ρ c (Proc.devRef .tc main_arg12) = W3 m ρ c (Proc.devRef .tc main_arg12))).trans
    (by host_keeps hostOps0_2 : W3 m ρ c (Proc.devRef .tc main_arg12) = W2 m ρ c (Proc.devRef .tc main_arg12))).trans
    (by host_keeps hostOps0_1 : W2 m ρ c (Proc.devRef .tc main_arg12) = W1 m ρ c (Proc.devRef .tc main_arg12))).trans
    (by host_keeps hostOps0 : W1 m ρ c (Proc.devRef .tc main_arg12) = W0 m ρ c (Proc.devRef .tc main_arg12)))

theorem keep_v75_12_10 (c : Dev nD) : W12 m ρ c (Proc.devRef .tc main_v75) = W10 m ρ c (Proc.devRef .tc main_v75) :=
  ((by host_keeps hostOps5 : W12 m ρ c (Proc.devRef .tc main_v75) = W11 m ρ c (Proc.devRef .tc main_v75)).trans
    ((W11_arr m ρ c 0).trans (((dat4 (V10 m ρ) c).arrAt_in 0 rfl _).trans (A_eq4 (V10 m ρ) c 0)) : W11 m ρ c (Proc.devRef .tc main_v75) = W10 m ρ c (Proc.devRef .tc main_v75)))

theorem keep_arg7_13_0 (c : Dev nD) : W13 m ρ c (Proc.devRef .tc main_arg7) = W0 m ρ c (Proc.devRef .tc main_arg7) :=
  (((((((((((((W13_of_ne m ρ c main_arg7 (by decide) : W13 m ρ c (Proc.devRef .tc main_arg7) = W12 m ρ c (Proc.devRef .tc main_arg7)).trans
    (by host_keeps hostOps5 : W12 m ρ c (Proc.devRef .tc main_arg7) = W11 m ρ c (Proc.devRef .tc main_arg7))).trans
    (W11_of_ne m ρ c main_arg7 (by decide) : W11 m ρ c (Proc.devRef .tc main_arg7) = W10 m ρ c (Proc.devRef .tc main_arg7))).trans
    (by host_keeps hostOps4 : W10 m ρ c (Proc.devRef .tc main_arg7) = W9 m ρ c (Proc.devRef .tc main_arg7))).trans
    (W9_of_ne m ρ c main_arg7 (by decide) : W9 m ρ c (Proc.devRef .tc main_arg7) = W8 m ρ c (Proc.devRef .tc main_arg7))).trans
    (W8_of_ne m ρ c main_arg7 (by decide) : W8 m ρ c (Proc.devRef .tc main_arg7) = W7 m ρ c (Proc.devRef .tc main_arg7))).trans
    (by host_keeps hostOps2 : W7 m ρ c (Proc.devRef .tc main_arg7) = W6 m ρ c (Proc.devRef .tc main_arg7))).trans
    (W6_of_ne m ρ c main_arg7 (by decide) : W6 m ρ c (Proc.devRef .tc main_arg7) = W5 m ρ c (Proc.devRef .tc main_arg7))).trans
    (by host_keeps hostOps1 : W5 m ρ c (Proc.devRef .tc main_arg7) = W4 m ρ c (Proc.devRef .tc main_arg7))).trans
    (W4_of_ne m ρ c main_arg7 (by decide) : W4 m ρ c (Proc.devRef .tc main_arg7) = W3 m ρ c (Proc.devRef .tc main_arg7))).trans
    (by host_keeps hostOps0_2 : W3 m ρ c (Proc.devRef .tc main_arg7) = W2 m ρ c (Proc.devRef .tc main_arg7))).trans
    (by host_keeps hostOps0_1 : W2 m ρ c (Proc.devRef .tc main_arg7) = W1 m ρ c (Proc.devRef .tc main_arg7))).trans
    (by host_keeps hostOps0 : W1 m ρ c (Proc.devRef .tc main_arg7) = W0 m ρ c (Proc.devRef .tc main_arg7)))

theorem keep_v5_14_9 (c : Dev nD) : W14 m ρ c (Proc.devRef .tc main_v5) = W9 m ρ c (Proc.devRef .tc main_v5) :=
  (((((W14_of_ne m ρ c main_v5 (by decide) : W14 m ρ c (Proc.devRef .tc main_v5) = W13 m ρ c (Proc.devRef .tc main_v5)).trans
    (W13_of_ne m ρ c main_v5 (by decide) : W13 m ρ c (Proc.devRef .tc main_v5) = W12 m ρ c (Proc.devRef .tc main_v5))).trans
    (by host_keeps hostOps5 : W12 m ρ c (Proc.devRef .tc main_v5) = W11 m ρ c (Proc.devRef .tc main_v5))).trans
    (W11_of_ne m ρ c main_v5 (by decide) : W11 m ρ c (Proc.devRef .tc main_v5) = W10 m ρ c (Proc.devRef .tc main_v5))).trans
    (by host_keeps hostOps4 : W10 m ρ c (Proc.devRef .tc main_v5) = W9 m ρ c (Proc.devRef .tc main_v5)))

theorem keep_v6_14_9 (c : Dev nD) : W14 m ρ c (Proc.devRef .tc main_v6) = W9 m ρ c (Proc.devRef .tc main_v6) :=
  (((((W14_of_ne m ρ c main_v6 (by decide) : W14 m ρ c (Proc.devRef .tc main_v6) = W13 m ρ c (Proc.devRef .tc main_v6)).trans
    (W13_of_ne m ρ c main_v6 (by decide) : W13 m ρ c (Proc.devRef .tc main_v6) = W12 m ρ c (Proc.devRef .tc main_v6))).trans
    (by host_keeps hostOps5 : W12 m ρ c (Proc.devRef .tc main_v6) = W11 m ρ c (Proc.devRef .tc main_v6))).trans
    (W11_of_ne m ρ c main_v6 (by decide) : W11 m ρ c (Proc.devRef .tc main_v6) = W10 m ρ c (Proc.devRef .tc main_v6))).trans
    (by host_keeps hostOps4 : W10 m ρ c (Proc.devRef .tc main_v6) = W9 m ρ c (Proc.devRef .tc main_v6)))

theorem keep_v31_14_9 (c : Dev nD) : W14 m ρ c (Proc.devRef .tc main_v31) = W9 m ρ c (Proc.devRef .tc main_v31) :=
  (((((W14_of_ne m ρ c main_v31 (by decide) : W14 m ρ c (Proc.devRef .tc main_v31) = W13 m ρ c (Proc.devRef .tc main_v31)).trans
    (W13_of_ne m ρ c main_v31 (by decide) : W13 m ρ c (Proc.devRef .tc main_v31) = W12 m ρ c (Proc.devRef .tc main_v31))).trans
    (by host_keeps hostOps5 : W12 m ρ c (Proc.devRef .tc main_v31) = W11 m ρ c (Proc.devRef .tc main_v31))).trans
    (W11_of_ne m ρ c main_v31 (by decide) : W11 m ρ c (Proc.devRef .tc main_v31) = W10 m ρ c (Proc.devRef .tc main_v31))).trans
    (by host_keeps hostOps4 : W10 m ρ c (Proc.devRef .tc main_v31) = W9 m ρ c (Proc.devRef .tc main_v31)))

theorem keep_arg8_14_0 (c : Dev nD) : W14 m ρ c (Proc.devRef .tc main_arg8) = W0 m ρ c (Proc.devRef .tc main_arg8) :=
  ((((((((((((((W14_of_ne m ρ c main_arg8 (by decide) : W14 m ρ c (Proc.devRef .tc main_arg8) = W13 m ρ c (Proc.devRef .tc main_arg8)).trans
    (W13_of_ne m ρ c main_arg8 (by decide) : W13 m ρ c (Proc.devRef .tc main_arg8) = W12 m ρ c (Proc.devRef .tc main_arg8))).trans
    (by host_keeps hostOps5 : W12 m ρ c (Proc.devRef .tc main_arg8) = W11 m ρ c (Proc.devRef .tc main_arg8))).trans
    (W11_of_ne m ρ c main_arg8 (by decide) : W11 m ρ c (Proc.devRef .tc main_arg8) = W10 m ρ c (Proc.devRef .tc main_arg8))).trans
    (by host_keeps hostOps4 : W10 m ρ c (Proc.devRef .tc main_arg8) = W9 m ρ c (Proc.devRef .tc main_arg8))).trans
    (W9_of_ne m ρ c main_arg8 (by decide) : W9 m ρ c (Proc.devRef .tc main_arg8) = W8 m ρ c (Proc.devRef .tc main_arg8))).trans
    (W8_of_ne m ρ c main_arg8 (by decide) : W8 m ρ c (Proc.devRef .tc main_arg8) = W7 m ρ c (Proc.devRef .tc main_arg8))).trans
    (by host_keeps hostOps2 : W7 m ρ c (Proc.devRef .tc main_arg8) = W6 m ρ c (Proc.devRef .tc main_arg8))).trans
    (W6_of_ne m ρ c main_arg8 (by decide) : W6 m ρ c (Proc.devRef .tc main_arg8) = W5 m ρ c (Proc.devRef .tc main_arg8))).trans
    (by host_keeps hostOps1 : W5 m ρ c (Proc.devRef .tc main_arg8) = W4 m ρ c (Proc.devRef .tc main_arg8))).trans
    (W4_of_ne m ρ c main_arg8 (by decide) : W4 m ρ c (Proc.devRef .tc main_arg8) = W3 m ρ c (Proc.devRef .tc main_arg8))).trans
    (by host_keeps hostOps0_2 : W3 m ρ c (Proc.devRef .tc main_arg8) = W2 m ρ c (Proc.devRef .tc main_arg8))).trans
    (by host_keeps hostOps0_1 : W2 m ρ c (Proc.devRef .tc main_arg8) = W1 m ρ c (Proc.devRef .tc main_arg8))).trans
    (by host_keeps hostOps0 : W1 m ρ c (Proc.devRef .tc main_arg8) = W0 m ρ c (Proc.devRef .tc main_arg8)))

end Cert.KernelIdeal.Keeps

end
-- ==== Proof.MatmulEntry.lean ====
/-
  A matrix product into a zero accumulator, read at one entry.

  Each of the three product kernels rounds its two loaded blocks to bf16 (the identity at the exact
  values), contracts the left block's columns against the right block's rows, and adds the result to a
  zero splat. At the exact values the entry in row `p`, column `q` of what it stores is therefore
  `∑ k, x (p, k) * w (k, q)` over the 128 contracted positions, and nothing else of the two blocks.
-/
import proofs.«161928_j20289425506400_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.MatmulValue

open Idealize.ShloMosaic Idealize.ShloMosaic.TcCoe Idealize.SL.Sem Cert.KernelIdeal Cert.KernelIdeal.Gen
open Idealize.ShloMosaic.Pipeline (Dat Cfg Window)

/-! ## The [5000,128] × [128,128] product -/

/-- The left operand's index at result index `j` and contraction position `kk` keeps `j`'s row. -/
theorem lhsRow128 (j : S5000x128.Idx) (kk : dot_S5000x128_S128x128_S5000x128_1_0_0_1_n_n.contr.Idx) :
    (dot_S5000x128_S128x128_S5000x128_1_0_0_1_n_n.lhsIdx j kk 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- and its column is the contraction position. -/
theorem lhsCol128 (j : S5000x128.Idx) (kk : dot_S5000x128_S128x128_S5000x128_1_0_0_1_n_n.contr.Idx) :
    (dot_S5000x128_S128x128_S5000x128_1_0_0_1_n_n.lhsIdx j kk 1).val = (kk ⟨0, by decide⟩).val :=
  dot_S5000x128_S128x128_S5000x128_1_0_0_1_n_n.lhsIdx_val_of_single rfl j kk

/-- The right operand's row is the contraction position -/
theorem rhsRow128 (j : S5000x128.Idx) (kk : dot_S5000x128_S128x128_S5000x128_1_0_0_1_n_n.contr.Idx) :
    (dot_S5000x128_S128x128_S5000x128_1_0_0_1_n_n.rhsIdx j kk 0).val = (kk ⟨0, by decide⟩).val :=
  dot_S5000x128_S128x128_S5000x128_1_0_0_1_n_n.rhsIdx_val_of_single rfl j kk

/-- and its column is `j`'s column. -/
theorem rhsCol128 (j : S5000x128.Idx) (kk : dot_S5000x128_S128x128_S5000x128_1_0_0_1_n_n.contr.Idx) :
    (dot_S5000x128_S128x128_S5000x128_1_0_0_1_n_n.rhsIdx j kk 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero splat at entry `(p, q)`: row `p` of the left operand against column `q` of the right. -/
theorem product128_entry {φ₁ φ₂ : FTy} (x : FVec Ideal S5000x128 φ₁) (w : FVec Ideal S128x128 φ₂) (p : Fin 5000) (q : Fin 128) :
    FloatOps.matmul dot_S5000x128_S128x128_S5000x128_1_0_0_1_n_n none x w (constant (F := Ideal) S5000x128 .f32 0x00000000#32) (ValueIdx.ix2 p q)
      = ∑ k : Fin 128, x (ValueIdx.ix2 p k) * w (ValueIdx.ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhsRow128 _ _
    | ⟨1, _⟩ => exact (lhsCol128 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhsRow128 _ _).trans hk
    | ⟨1, _⟩ => exact rhsCol128 _ _)
  rw [el, er]

/-- What the first product kernel stores, at entry `(p, q)`. -/
theorem k0_pay1_entry (x0 : Vec Ideal S5000x128 .f32) (x1 : Vec Ideal S128x128 .f32) (p : Fin 5000) (q : Fin 128) :
    k0_pay1 (F := Ideal) x0 x1 (ValueIdx.ix2 p q) = ∑ k : Fin 128, x0 (ValueIdx.ix2 p k) * x1 (ValueIdx.ix2 k q) := by
  unfold k0_pay1
  exact product128_entry (φ₁ := .bf16) (φ₂ := .bf16) x0 x1 p q

/-- What the second product kernel stores, at entry `(p, q)` (its left block passes through a shape cast to its own shape first). -/
theorem k3_pay1_entry (x0 : Vec Ideal S5000x128 .f32) (x1 : Vec Ideal S128x128 .f32) (p : Fin 5000) (q : Fin 128) :
    k3_pay1 (F := Ideal) x0 x1 (ValueIdx.ix2 p q) = ∑ k : Fin 128, x0 (ValueIdx.ix2 p k) * x1 (ValueIdx.ix2 k q) := by
  unfold k3_pay1
  rw [shapeCast_self]
  exact product128_entry (φ₁ := .bf16) (φ₂ := .bf16) x0 x1 p q

/-! ## The [5000,128] × [128,64] product -/

/-- The left operand's index at result index `j` and contraction position `kk` keeps `j`'s row. -/
theorem lhsRow64 (j : S5000x64.Idx) (kk : dot_S5000x128_S128x64_S5000x64_1_0_0_1_n_n.contr.Idx) :
    (dot_S5000x128_S128x64_S5000x64_1_0_0_1_n_n.lhsIdx j kk 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- and its column is the contraction position. -/
theorem lhsCol64 (j : S5000x64.Idx) (kk : dot_S5000x128_S128x64_S5000x64_1_0_0_1_n_n.contr.Idx) :
    (dot_S5000x128_S128x64_S5000x64_1_0_0_1_n_n.lhsIdx j kk 1).val = (kk ⟨0, by decide⟩).val :=
  dot_S5000x128_S128x64_S5000x64_1_0_0_1_n_n.lhsIdx_val_of_single rfl j kk

/-- The right operand's row is the contraction position -/
theorem rhsRow64 (j : S5000x64.Idx) (kk : dot_S5000x128_S128x64_S5000x64_1_0_0_1_n_n.contr.Idx) :
    (dot_S5000x128_S128x64_S5000x64_1_0_0_1_n_n.rhsIdx j kk 0).val = (kk ⟨0, by decide⟩).val :=
  dot_S5000x128_S128x64_S5000x64_1_0_0_1_n_n.rhsIdx_val_of_single rfl j kk

/-- and its column is `j`'s column. -/
theorem rhsCol64 (j : S5000x64.Idx) (kk : dot_S5000x128_S128x64_S5000x64_1_0_0_1_n_n.contr.Idx) :
    (dot_S5000x128_S128x64_S5000x64_1_0_0_1_n_n.rhsIdx j kk 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into the zero splat at entry `(p, q)`: row `p` of the left operand against column `q` of the right. -/
theorem product64_entry {φ₁ φ₂ : FTy} (x : FVec Ideal S5000x128 φ₁) (w : FVec Ideal S128x64 φ₂) (p : Fin 5000) (q : Fin 64) :
    FloatOps.matmul dot_S5000x128_S128x64_S5000x64_1_0_0_1_n_n none x w (constant (F := Ideal) S5000x64 .f32 0x00000000#32) (ValueIdx.ix2 p q)
      = ∑ k : Fin 128, x (ValueIdx.ix2 p k) * w (ValueIdx.ix2 k q) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ValueIdx.ix2 p q) ((ValueIdx.contrEquiv1 dot_S5000x128_S128x64_S5000x64_1_0_0_1_n_n 128 rfl rfl).symm k) = ValueIdx.ix2 p k := funext fun a => Fin.ext (by
    match a with
    | ⟨0, _⟩ => exact lhsRow64 _ _
    | ⟨1, _⟩ => exact (lhsCol64 _ _).trans hk)
  have er : dot_S5000x128_S128x64_S5000x64_1_0_0_1_n_n.rhsIdx (ValueIdx.ix2 p q) ((ValueIdx.contrEquiv1 dot_S5000x128_S128x64_S5000x64_1_0_0_1_n_n 128 rfl rfl).symm k) = ValueIdx.ix2 k q := funext fun a => Fin.ext (by
    match a with
    | ⟨0, _⟩ => exact (rhsRow64 _ _).trans hk
    | ⟨1, _⟩ => exact rhsCol64 _ _)
  rw [el, er]

/-- What the third product kernel stores, at entry `(p, q)`: its right block has 64 columns. -/
theorem k6_pay1_entry (x0 : Vec Ideal S5000x128 .f32) (x1 : Vec Ideal S128x64 .f32) (p : Fin 5000) (q : Fin 64) :
    k6_pay1 (F := Ideal) x0 x1 (ValueIdx.ix2 p q) = ∑ k : Fin 128, x0 (ValueIdx.ix2 p k) * x1 (ValueIdx.ix2 k q) := by
  unfold k6_pay1
  rw [shapeCast_self]
  exact product64_entry (φ₁ := .bf16) (φ₂ := .bf16) x0 x1 p q

/-! ## The product of the whole arrays, and a block's entry as an entry of it -/

/-- The product of a [100000,128] array by a [128,128] array, entry by entry. -/
abbrev product128 (a : S100000x128.Idx → EReal) (w : S128x128.Idx → EReal) : S100000x128.Idx → EReal :=
  fun i => ∑ k : Fin 128, a (ValueIdx.ix2 (i 0) k) * w (ValueIdx.ix2 k (i 1))

/-- The product of a [100000,128] array by a [128,64] array, entry by entry. -/
abbrev product64 (a : S100000x128.Idx → EReal) (w : S128x64.Idx → EReal) : S100000x64.Idx → EReal :=
  fun i => ∑ k : Fin 128, a (ValueIdx.ix2 (i 0) k) * w (ValueIdx.ix2 k (i 1))

/-- If row `p` of the left block is row `i 0` of the array `a` and column `q` of the right block is column `i 1` of
    the array `w`, then what the first product kernel stores at `(p, q)` is entry `i` of the product of `a` and `w`. -/
theorem k0_pay1_of_rows (a : S100000x128.Idx → EReal) (w : S128x128.Idx → EReal)
    (x0 : Vec Ideal S5000x128 .f32) (x1 : Vec Ideal S128x128 .f32) (i : S100000x128.Idx) (p : Fin 5000) (q : Fin 128)
    (h0 : ∀ k : Fin 128, x0 (ValueIdx.ix2 p k) = a (ValueIdx.ix2 (i 0) k))
    (h1 : ∀ k : Fin 128, x1 (ValueIdx.ix2 k q) = w (ValueIdx.ix2 k (i 1))) :
    k0_pay1 (F := Ideal) x0 x1 (ValueIdx.ix2 p q) = product128 a w i := by
  rw [k0_pay1_entry]
  exact Finset.sum_congr rfl fun k _ => by rw [h0 k, h1 k]

/-- The same for the second product kernel. -/
theorem k3_pay1_of_rows (a : S100000x128.Idx → EReal) (w : S128x128.Idx → EReal)
    (x0 : Vec Ideal S5000x128 .f32) (x1 : Vec Ideal S128x128 .f32) (i : S100000x128.Idx) (p : Fin 5000) (q : Fin 128)
    (h0 : ∀ k : Fin 128, x0 (ValueIdx.ix2 p k) = a (ValueIdx.ix2 (i 0) k))
    (h1 : ∀ k : Fin 128, x1 (ValueIdx.ix2 k q) = w (ValueIdx.ix2 k (i 1))) :
    k3_pay1 (F := Ideal) x0 x1 (ValueIdx.ix2 p q) = product128 a w i := by
  rw [k3_pay1_entry]
  exact Finset.sum_congr rfl fun k _ => by rw [h0 k, h1 k]

/-- The same for the third product kernel, whose right array has 64 columns. -/
theorem k6_pay1_of_rows (a : S100000x128.Idx → EReal) (w : S128x64.Idx → EReal)
    (x0 : Vec Ideal S5000x128 .f32) (x1 : Vec Ideal S128x64 .f32) (i : S100000x64.Idx) (p : Fin 5000) (q : Fin 64)
    (h0 : ∀ k : Fin 128, x0 (ValueIdx.ix2 p k) = a (ValueIdx.ix2 (i 0) k))
    (h1 : ∀ k : Fin 128, x1 (ValueIdx.ix2 k q) = w (ValueIdx.ix2 k (i 1))) :
    k6_pay1 (F := Ideal) x0 x1 (ValueIdx.ix2 p q) = product64 a w i := by
  rw [k6_pay1_entry]
  exact Finset.sum_congr rfl fun k _ => by rw [h0 k, h1 k]

end Cert.KernelIdeal.MatmulValue

end
-- ==== Proof.DotEntry.lean ====
/-
  The dense products at an entry. At the exact values the host's dot_general of an [n,128] array with a [128,d]
  array is, at entry (r, q), the sum over the 128 contracted positions of left[r,k] · right[k,q]; the kernel's
  row-blocked matrix products were shown to leave exactly that sum at every entry, so the two are one function.
-/
import proofs.«161928_j20289425506400_1_alg».proof.Proof.Spec
import proofs.«161928_j20289425506400_1_alg».proof.Proof.MatmulEntry
import proofs.«161928_j20289425506400_1_alg».proof.Proof.Gen.ReferenceIdeal.Read
import Idealize.ShloMosaic.Lib.ValueIdx
import Idealize.ShloMosaic.PureOps.Ideal.Laws

noncomputable section

namespace Cert.Gcn

open Idealize.ShloMosaic Cert.ReferenceIdeal Cert.ReferenceIdeal.Gen

/-- The 128-feature product is the entry-wise sum of products. -/
theorem dot128_eq (a : FVec Ideal S100000x128 .f32) (w : FVec Ideal S128x128 .f32) :
    dot128 a w = Cert.KernelIdeal.MatmulValue.product128 a w := by
  funext i
  refine (Cert.ReferenceIdeal.Read.val_main_v4_apply a w i).trans ?_
  show _ = ∑ k : Fin 128, a (ValueIdx.ix2 (i 0) k) * w (ValueIdx.ix2 k (i 1))
  refine Finset.sum_congr rfl fun k _ => ?_
  have el : Cert.ReferenceIdeal.Read.lidx_main_v4 i k = ValueIdx.ix2 (i 0) k :=
    funext fun d => Fin.ext (by match d with | ⟨0, _⟩ => rfl | ⟨1, _⟩ => rfl)
  have er : Cert.ReferenceIdeal.Read.ridx_main_v4 i k = ValueIdx.ix2 k (i 1) :=
    funext fun d => Fin.ext (by match d with | ⟨0, _⟩ => rfl | ⟨1, _⟩ => rfl)
  rw [el, er]
  rfl

/-- The left operand's index of the 64-feature product keeps the entry's row -/
theorem lhsRow64 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
/-- and takes the contracted position as its column; -/
theorem lhsCol64 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
/-- the right operand's takes the contracted position as its row -/
theorem rhsRow64 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
/-- and keeps the entry's column. -/
theorem rhsCol64 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- The 64-feature product is the entry-wise sum of products. -/
theorem dot64_eq (a : FVec Ideal S100000x128 .f32) (w : FVec Ideal S128x64 .f32) :
    dot64 a w = Cert.KernelIdeal.MatmulValue.product64 a w := by
  funext i
  show FloatOps.dotGeneral dot_S100000x128_S128x64_S100000x64_1_0_0_1_n_n none _ a w i = ∑ k : Fin 128, a (ValueIdx.ix2 (i 0) k) * w (ValueIdx.ix2 k (i 1))
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = ValueIdx.ix2 (i 0) k :=
    funext fun d => Fin.ext (by
      match d with
      | ⟨0, _⟩ => exact lhsRow64 _ _
      | ⟨1, _⟩ => exact (lhsCol64 _ _).trans hk)
  have er : dot_S100000x128_S128x64_S100000x64_1_0_0_1_n_n.rhsIdx i ((ValueIdx.contrEquiv1 dot_S100000x128_S128x64_S100000x64_1_0_0_1_n_n 128 rfl rfl).symm k) = ValueIdx.ix2 k (i 1) :=
    funext fun d => Fin.ext (by
      match d with
      | ⟨0, _⟩ => exact (rhsRow64 _ _).trans hk
      | ⟨1, _⟩ => exact rhsCol64 _ _)
  rw [el, er]
  rfl

end Cert.Gcn

end
-- ==== Proof.FiniteOps.lean ====
/-
  "Every entry is a real number", operation by operation. In the extended reals a float array may hold ±∞; the
  statistics' law needs every entry of a layer's activations to be a real. Each operation the two programs apply
  between the arguments and a layer's output keeps that property: a product or sum of reals is a real; a gathered,
  broadcast or concatenated entry is an entry of an operand; a scatter-add leaves the operand's entry plus a finite
  sum of update entries; a dot product is a finite sum of products; an inverse square root of a POSITIVE extended
  real is a real (of +∞ it is 0), which is all the degree normalisation asks, since it is selected only where the
  degree is positive and replaced by 0 elsewhere; a quotient by a nonzero real, a maximum with 0, and an inverse
  square root of a positive real are reals.
-/
import Idealize.ShloMosaic.PureOps.Ideal
import Idealize.ShloMosaic.PureOps.Ideal.Laws
import Idealize.ShloMosaic.PureOps.Contract
import Mathlib.Tactic

noncomputable section

namespace Cert.Finite

open Idealize.ShloMosaic

/-- Every entry of the array is (the coercion of) a real number. -/
def AllReal {ι : Type} (v : ι → EReal) : Prop := ∀ i, ∃ r : ℝ, v i = (r : EReal)

/-- A finite sum of reals, taken in the extended reals, is a real. -/
theorem sum_real {ι : Type} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨r1, h1⟩ := h a (Finset.mem_insert_self _ _)
    obtain ⟨r2, h2⟩ := ih (fun i hi => h i (Finset.mem_insert_of_mem hi))
    exact ⟨r1 + r2, by rw [Finset.sum_insert ha, h1, h2, EReal.coe_add]⟩

variable {s t : Shape} {φ : FTy}

theorem mulf_real (a b : FVec Ideal s φ) (ha : AllReal a) (hb : AllReal b) : AllReal (mulf a b) := fun i => by
  obtain ⟨r1, h1⟩ := ha i; obtain ⟨r2, h2⟩ := hb i
  exact ⟨r1 * r2, by show a i * b i = _; rw [h1, h2, EReal.coe_mul]⟩

theorem addf_real (a b : FVec Ideal s φ) (ha : AllReal a) (hb : AllReal b) : AllReal (addf a b) := fun i => by
  obtain ⟨r1, h1⟩ := ha i; obtain ⟨r2, h2⟩ := hb i
  exact ⟨r1 + r2, by show a i + b i = _; rw [h1, h2, EReal.coe_add]⟩

theorem subf_real (a b : FVec Ideal s φ) (ha : AllReal a) (hb : AllReal b) : AllReal (subf a b) := fun i => by
  obtain ⟨r1, h1⟩ := ha i; obtain ⟨r2, h2⟩ := hb i
  exact ⟨r1 - r2, by show a i - b i = _; rw [h1, h2, EReal.coe_sub]⟩

theorem maximumf_real (a b : FVec Ideal s φ) (ha : AllReal a) (hb : AllReal b) : AllReal (maximumf a b) := fun i => by
  obtain ⟨r1, h1⟩ := ha i; obtain ⟨r2, h2⟩ := hb i
  exact ⟨max r1 r2, by show max (a i) (b i) = _; rw [h1, h2]; exact (EReal.coe_strictMono.monotone.map_max).symm⟩

/-- A broadcast entry is an entry of the operand. -/
theorem broadcastInDim_real (dims : Fin s.rank → Fin t.rank) (h : s.BroadcastsInDim t dims) (x : s.Idx → EReal)
    (hx : AllReal x) : AllReal (broadcastInDim t dims h x) := fun j => hx _

/-- A gathered entry is an entry of the operand. -/
theorem gather_real {si : Shape} {w : Nat} (d : GatherDims s si t) (x : s.Idx → EReal) (idx : IVec si w) (hx : AllReal x) :
    AllReal (Host.gather d x idx) := fun j => hx _

/-- An entry of a concatenation is an entry of one of the pieces. -/
theorem concatenate_real (a : Fin t.rank) (xs : List ((s : Shape) × (s.Idx → EReal)))
    (h : Shape.Concatenates (xs.map (·.1)) t a) (hx : ∀ p ∈ xs, AllReal p.2) : AllReal (concatenate t a xs h) := fun j => by
  unfold concatenate
  exact hx _ (List.getElem_mem _) _

/-- A scatter-add entry is the operand's entry plus a finite sum of update entries. -/
theorem scatterAdd_real {si u : Shape} {w : Nat} (d : ScatterDims s si u) (x : FVec Ideal s φ) (idx : IVec si w)
    (upd : FVec Ideal u φ) (hx : AllReal x) (hu : AllReal upd) : AllReal (Host.scatterAdd d x idx upd) := fun i => by
  obtain ⟨r1, h1⟩ := hx i
  obtain ⟨r2, h2⟩ := sum_real (Finset.univ.filter (fun j => d.resultIdx? j idx = some i)) upd (fun j _ => hu j)
  exact ⟨r1 + r2, by
    show Ideal.hostScatterAdd d x idx upd i = _
    unfold Ideal.hostScatterAdd
    rw [h1, h2, EReal.coe_add]⟩

/-- A dot product's entry is a finite sum of products of entries. -/
theorem dotGeneral_real {sl sr so : Shape} {φ₁ φ₂ : FTy} (d : DotDims sl sr so) (a : FVec Ideal sl φ₁) (b : FVec Ideal sr φ₂)
    (ha : AllReal a) (hb : AllReal b) : AllReal (Host.dotGeneral (F := Ideal) d none a b) := fun j => by
  obtain ⟨r, hr⟩ := sum_real Finset.univ (fun k : d.contr.Idx => a (d.lhsIdx j k) * b (d.rhsIdx j k)) (fun k _ => by
    obtain ⟨r1, h1⟩ := ha (d.lhsIdx j k); obtain ⟨r2, h2⟩ := hb (d.rhsIdx j k)
    exact ⟨r1 * r2, by rw [h1, h2, EReal.coe_mul]⟩)
  exact ⟨r, by
    show FloatOps.dotGeneral d none _ a b j = _
    rw [Ideal.dotGeneral_apply]; exact hr⟩

/-- The inverse square root of a positive extended real is a real (of +∞ it is 0). -/
theorem rsqrt_real_of_pos (x : EReal) (hx : 0 < x) : ∃ r : ℝ, Ideal.rsqrt x = (r : EReal) := by
  induction x using EReal.rec with
  | bot => exact absurd hx (by simp)
  | top => exact ⟨0, rfl⟩
  | coe r =>
    have hr : 0 < r := by exact_mod_cast hx
    exact ⟨(Real.sqrt r)⁻¹, by
      show (if r < 0 then (⊥ : EReal) else if r = 0 then ⊤ else (((Real.sqrt r)⁻¹ : ℝ) : EReal)) = _
      rw [if_neg (not_lt.mpr hr.le), if_neg hr.ne']⟩

/-- The degree normalisation: the inverse square root where the degree is positive, 0 elsewhere, is a real
    whatever the degree. -/
theorem dinv_real (deg zero zero' : FVec Ideal s φ) (hz : ∀ i, zero i = 0) (hz' : AllReal zero') :
    AllReal (select (cmpf .ogt deg zero) (Host.rsqrt deg) zero') := fun i => by
  show ∃ r : ℝ, Scalar.select (Ideal.cmp .ogt (deg i) (zero i)) (Ideal.rsqrt (deg i)) (zero' i) = _
  unfold Scalar.select Ideal.cmp
  by_cases h : zero i < deg i
  · rw [if_pos (by simp [h])]
    exact rsqrt_real_of_pos _ (by rw [← hz i]; exact h)
  · rw [if_neg (by simp [h])]
    exact hz' i

/-- Every entry is a nonnegative real. -/
def AllNonneg {ι : Type} (v : ι → EReal) : Prop := ∀ i, ∃ r : ℝ, 0 ≤ r ∧ v i = (r : EReal)

theorem AllNonneg.allReal {ι : Type} {v : ι → EReal} (h : AllNonneg v) : AllReal v := fun i => by
  obtain ⟨r, _, hr⟩ := h i; exact ⟨r, hr⟩

/-- A finite sum of nonnegative reals is a nonnegative real. -/
theorem sum_nonneg_real {ι : Type} (S : Finset ι) (f : ι → EReal) (h : ∀ i ∈ S, ∃ r : ℝ, 0 ≤ r ∧ f i = (r : EReal)) :
    ∃ r : ℝ, 0 ≤ r ∧ ∑ i ∈ S, f i = (r : EReal) := by
  classical
  induction S using Finset.induction_on with
  | empty => exact ⟨0, le_rfl, by simp⟩
  | insert a S ha ih =>
    obtain ⟨r1, p1, h1⟩ := h a (Finset.mem_insert_self _ _)
    obtain ⟨r2, p2, h2⟩ := ih (fun i hi => h i (Finset.mem_insert_of_mem hi))
    exact ⟨r1 + r2, add_nonneg p1 p2, by rw [Finset.sum_insert ha, h1, h2, EReal.coe_add]⟩

/-- The square of a real array is a nonnegative real array. -/
theorem mulf_self_nonneg (a : FVec Ideal s φ) (ha : AllReal a) : AllNonneg (mulf a a) := fun i => by
  obtain ⟨r, hr⟩ := ha i
  exact ⟨r * r, mul_self_nonneg r, by show a i * a i = _; rw [hr, EReal.coe_mul]⟩

/-- A host sum over some axes, from a real initial value, of a real array is real. -/
theorem reduceAdd_real {axes : List (Fin s.rank)} {u : Shape} (x : FVec Ideal s φ) (init : u.Idx → Ideal φ)
    (h : s.ReducesTo axes t) (hu : 0 < u.numel) (hx : AllReal x) (hi : AllReal init) :
    AllReal (Host.reduceAdd x init h hu) := fun j => by
  obtain ⟨r0, h0⟩ := hi (Shape.Idx.first hu)
  obtain ⟨r1, h1⟩ := sum_real (Finset.univ.filter (fun i => h.drop i = j)) x (fun i _ => hx i)
  exact ⟨r0 + r1, by
    show Ideal.hostReduceAdd h x (init (Shape.Idx.first hu)) j = _
    unfold Ideal.hostReduceAdd; rw [h0, h1, EReal.coe_add]⟩

/-- The same sum of a nonnegative array from a zero initial value is nonnegative. -/
theorem reduceAdd_nonneg {axes : List (Fin s.rank)} {u : Shape} (x : FVec Ideal s φ) (init : u.Idx → Ideal φ)
    (h : s.ReducesTo axes t) (hu : 0 < u.numel) (hx : AllNonneg x) (hi : ∀ i, init i = 0) :
    AllNonneg (Host.reduceAdd x init h hu) := fun j => by
  obtain ⟨r1, p1, h1⟩ := sum_nonneg_real (Finset.univ.filter (fun i => h.drop i = j)) x (fun i _ => hx i)
  exact ⟨r1, p1, by
    show Ideal.hostReduceAdd h x (init (Shape.Idx.first hu)) j = _
    unfold Ideal.hostReduceAdd; rw [hi, h1, zero_add]⟩

/-- The host quotient of a real array by a constant nonzero real is real. -/
theorem hostDivf_real (x y : FVec Ideal s φ) (N : ℝ) (hN : N ≠ 0) (hy : ∀ i, y i = (N : EReal)) (hx : AllReal x) :
    AllReal (Host.divf x y) := fun i => by
  obtain ⟨r, hr⟩ := hx i
  exact ⟨r * (1 / N), by show Ideal.div (x i) (y i) = _; rw [hy i, Ideal.div_coe hN, hr, ← EReal.coe_mul]⟩

/-- The host quotient of a nonnegative array by a constant positive real is nonnegative. -/
theorem hostDivf_nonneg (x y : FVec Ideal s φ) (N : ℝ) (hN : 0 < N) (hy : ∀ i, y i = (N : EReal)) (hx : AllNonneg x) :
    AllNonneg (Host.divf x y) := fun i => by
  obtain ⟨r, p, hr⟩ := hx i
  exact ⟨r * (1 / N), mul_nonneg p (by positivity), by
    show Ideal.div (x i) (y i) = _; rw [hy i, Ideal.div_coe hN.ne', hr, ← EReal.coe_mul]⟩

/-- The host inverse square root of (a nonnegative array plus a constant positive real) is real. -/
theorem hostRsqrt_add_pos_real (x y : FVec Ideal s φ) (e : ℝ) (he : 0 < e) (hy : ∀ i, y i = (e : EReal)) (hx : AllNonneg x) :
    AllReal (Host.rsqrt (addf x y)) := fun i => by
  obtain ⟨r, p, hr⟩ := hx i
  show ∃ q : ℝ, Ideal.rsqrt (x i + y i) = _
  rw [hr, hy i, ← EReal.coe_add]
  exact rsqrt_real_of_pos _ (by exact_mod_cast add_pos_of_nonneg_of_pos p he)

end Cert.Finite

end
-- ==== Proof.Consts.lean ====
/-
  The float constants the two programs spell, as the extended reals their bit patterns denote: the node count
  100000 by which both programs divide the column sums, the unit weight of a self-loop, and the batch
  normalisation's epsilon — a positive real; its exact value never matters, only that both programs spell the same
  pattern and that it is positive.
-/
import Idealize.ShloMosaic.PureOps.Ideal

noncomputable section

namespace Cert.Consts

open Idealize.ShloMosaic

/-- The pattern of `100000.0` denotes the real 100000. -/
theorem ofBits_100000 : Ideal.ofBits .f32 0x47C35000#32 = ((100000 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

/-- The normalisation's epsilon denotes a positive real. -/
theorem ofBits_eps : ∃ e : ℝ, 0 < e ∧ Ideal.ofBits .f32 0x3727C5AC#32 = (e : EReal) := by
  refine ⟨(1 * ((2 ^ 23 + 2606508 : ℕ) : ℝ)) * (2 : ℝ) ^ ((110 : ℤ) - (2 ^ (8 - 1) - 1 : ℤ) - (23 : ℕ)), by positivity, ?_⟩
  simp [Ideal.ofBits, Ideal.ieee, -EReal.coe_mul]

end Cert.Consts

end
-- ==== Proof.SpecReal.lean ====
/-
  Real arrays in, real arrays out, for each generic layer function: the dense product, the graph convolution
  (gather, scale by a real normalisation, scatter-add into zeros, add a real bias), and batch normalisation with
  the rectifier (a real mean; a NONNEGATIVE real variance, being a mean of squares, so that variance plus the
  positive epsilon has a real inverse square root). This is what lets the statistics' law be applied to each
  layer's convolution output.
-/
import proofs.«161928_j20289425506400_1_alg».proof.Proof.Spec
import proofs.«161928_j20289425506400_1_alg».proof.Proof.FiniteOps
import proofs.«161928_j20289425506400_1_alg».proof.Proof.Consts

noncomputable section

namespace Cert.Gcn

open Idealize.ShloMosaic Cert.ReferenceIdeal Cert.ReferenceIdeal.Gen Cert.Finite

/-- The zero literal, as a scalar array, is real. -/
theorem zero_real : AllReal (constant (F := Ideal) S_ .f32 0x00000000#32) :=
  fun _ => ⟨0, by show Ideal.ofBits .f32 0x00000000#32 = _; rw [Ideal.ofBits_zero_f32]; rfl⟩

theorem dot128_real (A : FVec Ideal S100000x128 .f32) (W : FVec Ideal S128x128 .f32) (hA : AllReal A) (hW : AllReal W) :
    AllReal (dot128 A W) := dotGeneral_real _ A W hA hW

theorem dot64_real (A : FVec Ideal S100000x128 .f32) (W : FVec Ideal S128x64 .f32) (hA : AllReal A) (hW : AllReal W) :
    AllReal (dot64 A W) := dotGeneral_real _ A W hA hW

theorem conv128_real (P : FVec Ideal S100000x128 .f32) (sI dI : IVec S1700000 32) (nrm : FVec Ideal S1700000 .f32)
    (b : FVec Ideal S128 .f32) (hP : AllReal P) (hn : AllReal nrm) (hb : AllReal b) : AllReal (conv128 P sI dI nrm b) := by
  unfold conv128
  exact addf_real _ _
    (scatterAdd_real _ _ _ _ (broadcastInDim_real _ _ _ zero_real)
      (mulf_real _ _ (gather_real _ _ _ hP) (broadcastInDim_real _ _ _ (broadcastInDim_real _ _ _ hn))))
    (broadcastInDim_real _ _ _ (broadcastInDim_real _ _ _ hb))

theorem rows_real (v : FVec Ideal S128 .f32) (hv : AllReal v) : AllReal (rows v) :=
  broadcastInDim_real _ _ _ (broadcastInDim_real _ _ _ hv)

/-- The node count, as a broadcast scalar, is the real 100000 at every entry. -/
theorem count_eq (i : S128.Idx) :
    broadcastInDim S128 ![] bcast_S_S128 (constant (F := Ideal) S_ .f32 0x47C35000#32) i = ((100000 : ℝ) : EReal) :=
  Cert.Consts.ofBits_100000

theorem colMean_real (H : FVec Ideal S100000x128 .f32) (hH : AllReal H) : AllReal (colMean H) :=
  hostDivf_real _ _ 100000 (by norm_num) count_eq (reduceAdd_real _ _ _ _ hH zero_real)

theorem colVar_nonneg (H : FVec Ideal S100000x128 .f32) (hH : AllReal H) : AllNonneg (colVar H) :=
  hostDivf_nonneg _ _ 100000 (by norm_num) count_eq
    (reduceAdd_nonneg _ _ _ _ (mulf_self_nonneg _ (subf_real _ _ hH (rows_real _ (colMean_real H hH))))
      (fun _ => Ideal.ofBits_zero_f32))

theorem bnRelu_real (H : FVec Ideal S100000x128 .f32) (g b : FVec Ideal S128 .f32) (hH : AllReal H) (hg : AllReal g)
    (hb : AllReal b) : AllReal (bnRelu H g b) := by
  obtain ⟨e, he, hE⟩ := Cert.Consts.ofBits_eps
  unfold bnRelu
  exact maximumf_real _ _
    (addf_real _ _
      (mulf_real _ _
        (mulf_real _ _ (subf_real _ _ hH (rows_real _ (colMean_real H hH)))
          (rows_real _ (hostRsqrt_add_pos_real _ _ e he (fun _ => hE) (colVar_nonneg H hH))))
        (rows_real _ hg))
      (rows_real _ hb))
    (broadcastInDim_real _ _ _ zero_real)

end Cert.Gcn

end
-- ==== Proof.LibERealFinset.lean ====
/-
  Finite sums and finite suprema of real numbers, seen inside the extended reals.

  The coercion `ℝ → EReal` is additive, so it commutes with a finite sum; and the supremum of finitely many
  (at least one) real numbers, taken in the extended reals, is one of them, hence again a real number.
-/
import Idealize.ShloMosaic.PureOps.Ideal
import Mathlib.Algebra.BigOperators.Fin

namespace Cert.Spec

/-- The coercion of a finite sum of reals is the sum of the coercions. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The supremum in the extended reals of a nonempty finite family of reals is attained, so it is a real. -/
theorem exists_coe_eq_sup {ι : Type*} (S : Finset ι) (hS : S.Nonempty) (f : ι → ℝ) :
    ∃ μ : ℝ, S.sup (fun i => (f i : EReal)) = (μ : EReal) := by
  obtain ⟨i, _, hi⟩ := Finset.exists_mem_eq_sup S hS (fun i => (f i : EReal))
  exact ⟨f i, hi⟩

/-- A sum of exponentials shifted by a common `ν` is `exp (-ν)` times the unshifted sum. -/
theorem sum_exp_sub {ι : Type*} (S : Finset ι) (f : ι → ℝ) (ν : ℝ) :
    ∑ i ∈ S, Real.exp (f i - ν) = Real.exp (-ν) * ∑ i ∈ S, Real.exp (f i) := by
  rw [Finset.mul_sum]
  refine Finset.sum_congr rfl (fun i _ => ?_)
  rw [← Real.exp_add]; congr 1; ring

/-- The same with a weight `g i` on each term. -/
theorem sum_exp_sub_mul {ι : Type*} (S : Finset ι) (f g : ι → ℝ) (ν : ℝ) :
    ∑ i ∈ S, Real.exp (f i - ν) * g i = Real.exp (-ν) * ∑ i ∈ S, Real.exp (f i) * g i := by
  rw [Finset.mul_sum]
  refine Finset.sum_congr rfl (fun i _ => ?_)
  rw [← mul_assoc, ← Real.exp_add]; congr 2; ring

end Cert.Spec
-- ==== Proof.Algebra.lean ====
/-
  The one algebraic law that joins the two programs: for REAL numbers x_1 … x_n with mean μ = (Σ x_i)/n,
      (Σ (x_i − μ)²)/n  =  (Σ x_i²)/n − μ².
  The reference computes a column's variance by the left side (the mean of the squared deviations), the kernel by the
  right side (the mean of the squares minus the squared mean, from two running column sums). The law holds in the
  extended reals only when every x_i is a real number: with an infinite entry the deviation ∞ − ∞ is junk and the
  two sides differ. So it is stated for a family of extended reals each of which is (the coercion of) a real, and
  proved by pushing every coercion outward and finishing over ℝ.
-/
import Idealize.ShloMosaic.PureOps.Ideal
import Mathlib.Tactic
import proofs.«161928_j20289425506400_1_alg».proof.Proof.LibERealFinset

noncomputable section

namespace Cert.Algebra

open Idealize.ShloMosaic

/-- The law over the reals: the mean of the squared deviations is the mean of the squares minus the squared mean. -/
theorem var_real {ι : Type*} [Fintype ι] (f : ι → ℝ) (N : ℝ) (hN : N ≠ 0) (hcard : (Fintype.card ι : ℝ) = N) :
    (∑ i, (f i - (∑ j, f j) * (1 / N)) * (f i - (∑ j, f j) * (1 / N))) * (1 / N)
      = (∑ i, f i * f i) * (1 / N) - ((∑ j, f j) * (1 / N)) * ((∑ j, f j) * (1 / N)) := by
  set S := ∑ j, f j with hS
  have h1 : ∀ i, (f i - S * (1 / N)) * (f i - S * (1 / N)) = f i * f i - 2 * (S * (1 / N)) * f i + (S * (1 / N)) * (S * (1 / N)) :=
    fun i => by ring
  simp only [h1, Finset.sum_add_distrib, Finset.sum_sub_distrib, ← Finset.mul_sum, Finset.sum_const, Finset.card_univ,
    nsmul_eq_mul, hcard, ← hS]
  field_simp
  ring

/-- The mean of finitely many reals, computed in the extended reals with the exact quotient, is a real. -/
theorem mean_coe {ι : Type*} [Fintype ι] (f : ι → ℝ) (N : ℝ) (hN : N ≠ 0) :
    Ideal.div (∑ i, ((f i : ℝ) : EReal)) (N : EReal) = (((∑ i, f i) * (1 / N) : ℝ) : EReal) := by
  rw [Ideal.div_coe hN, ← Cert.Spec.coe_finset_sum, ← EReal.coe_mul]

/-- The law in the extended reals, for a family of reals: the reference's variance (left; its sums start from the
    literal zero) is the kernel's (right). -/
theorem var_eq {ι : Type*} [Fintype ι] (x : ι → EReal) (hx : ∀ i, ∃ r : ℝ, x i = (r : EReal)) (N : ℝ) (hN : N ≠ 0)
    (hcard : (Fintype.card ι : ℝ) = N) :
    Ideal.div (0 + ∑ i, (x i - Ideal.div (0 + ∑ j, x j) (N : EReal)) * (x i - Ideal.div (0 + ∑ j, x j) (N : EReal))) (N : EReal)
      = Ideal.div (∑ i, x i * x i) (N : EReal) - Ideal.div (∑ j, x j) (N : EReal) * Ideal.div (∑ j, x j) (N : EReal) := by
  choose f hf using hx
  simp only [hf, zero_add]
  rw [mean_coe f N hN]
  simp only [← EReal.coe_sub, ← EReal.coe_mul]
  rw [mean_coe (fun i => (f i - (∑ j, f j) * (1 / N)) * (f i - (∑ j, f j) * (1 / N))) N hN, mean_coe (fun i => f i * f i) N hN,
    ← EReal.coe_sub, var_real f N hN hcard]

/-- The variance of finitely many reals is a nonnegative real. -/
theorem var_nonneg_real {ι : Type*} [Fintype ι] (f : ι → ℝ) (N : ℝ) (hN : 0 < N) (μ : ℝ) :
    0 ≤ (∑ i, (f i - μ) * (f i - μ)) * (1 / N) :=
  mul_nonneg (Finset.sum_nonneg fun i _ => mul_self_nonneg _) (by positivity)

end Cert.Algebra

end
-- ==== Proof.SpecApply.lean ====
/-
  Batch normalisation read at an entry. For a column q of an array H over the nodes:
      mean(q) = (0 + Σ_k H[k,q]) / n,      var(q) = (0 + Σ_k (H[k,q] − mean(q))²) / n,
      bnRelu H g b [r,q] = max(((H[r,q] − mean(q)) · rsqrt(var(q) + ε)) · g[q] + b[q], 0).
  The kernel arrives at the same entry from two running column sums S1(q) = Σ_k H[k,q] and S2(q) = Σ_k H[k,q]²,
  with mean S1/n and variance S2/n − (S1/n)²: when every entry of H is a real, the two variances agree (the law of
  the mean of squared deviations), hence so do the normalised entries.
-/
import proofs.«161928_j20289425506400_1_alg».proof.Proof.SpecReal
import proofs.«161928_j20289425506400_1_alg».proof.Proof.Algebra
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx Cert.ReferenceIdeal Cert.ReferenceIdeal.Gen Cert.Finite

/-- A row vector repeated down the node axis, read at an entry: the vector at the entry's column. -/
theorem rows_apply (v : FVec Ideal S128 .f32) (i : S100000x128.Idx) : rows v i = v (ix1 (i 1)) := by
  unfold rows
  rw [broadcastInDim_apply _ bcast_S1x128_S100000x128_0_1 _ i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]
  exact broadcastInDim_apply _ bcast_S128_S1x128_1 v _ (ix1 (i 1)) (fun a => match a with
      | ⟨0, _⟩ => by show (i 1).val = if (128 : Nat) = 1 then 0 else (i 1).val; rw [if_neg (by decide)])

/-- The host's column sum from the zero literal, read at a column. -/
theorem colsum_apply (H : FVec Ideal S100000x128 .f32) (j : S128.Idx) :
    Host.reduceAdd H (constant (F := Ideal) S_ .f32 0x00000000#32) reducesTo_S100000x128_S128_d0 h_S_ j
      = 0 + ∑ k : Fin 100000, H (ix2 k (j 0)) := by
  show Ideal.hostReduceAdd reducesTo_S100000x128_S128_d0 H (Ideal.ofBits .f32 0x00000000#32) j = _
  rw [Ideal.hostReduceAdd_single reducesTo_S100000x128_S128_d0 (by decide), Ideal.ofBits_zero_f32]
  refine congrArg (0 + ·) (Finset.sum_congr rfl fun k _ => ?_)
  exact congrArg H (funext fun a => Fin.ext (by match a with | ⟨0, _⟩ => rfl | ⟨1, _⟩ => rfl))

/-- The column mean read at a column. -/
theorem colMean_apply (H : FVec Ideal S100000x128 .f32) (j : S128.Idx) :
    colMean H j = Ideal.div (0 + ∑ k : Fin 100000, H (ix2 k (j 0))) ((100000 : ℝ) : EReal) := by
  show Ideal.div (Host.reduceAdd H (constant (F := Ideal) S_ .f32 0x00000000#32) reducesTo_S100000x128_S128_d0 h_S_ j)
      (broadcastInDim S128 ![] bcast_S_S128 (constant (F := Ideal) S_ .f32 0x47C35000#32) j) = _
  rw [colsum_apply, count_eq]

/-- The column variance read at a column. -/
theorem colVar_apply (H : FVec Ideal S100000x128 .f32) (j : S128.Idx) :
    colVar H j = Ideal.div (0 + ∑ k : Fin 100000, (H (ix2 k (j 0)) - colMean H (ix1 (j 0))) * (H (ix2 k (j 0)) - colMean H (ix1 (j 0))))
      ((100000 : ℝ) : EReal) := by
  have hsum : (∑ k : Fin 100000, mulf (subf H (rows (colMean H))) (subf H (rows (colMean H))) (ix2 k (j 0)))
      = ∑ k : Fin 100000, (H (ix2 k (j 0)) - colMean H (ix1 (j 0))) * (H (ix2 k (j 0)) - colMean H (ix1 (j 0))) :=
    Finset.sum_congr rfl fun k _ => by
      show (H (ix2 k (j 0)) - rows (colMean H) (ix2 k (j 0))) * (H (ix2 k (j 0)) - rows (colMean H) (ix2 k (j 0))) = _
      rw [rows_apply] <;> rfl
  show colMean (mulf (subf H (rows (colMean H))) (subf H (rows (colMean H)))) j = _
  rw [colMean_apply, hsum]

/-- The normalised, rectified entry. -/
theorem bnRelu_apply (H : FVec Ideal S100000x128 .f32) (g b : FVec Ideal S128 .f32) (i : S100000x128.Idx) :
    bnRelu H g b i
      = max ((H i - colMean H (ix1 (i 1))) * Ideal.rsqrt (colVar H (ix1 (i 1)) + Ideal.ofBits .f32 0x3727C5AC#32) * g (ix1 (i 1))
              + b (ix1 (i 1))) (Ideal.ofBits .f32 0x00000000#32) := by
  show max ((H i - rows (colMean H) i)
        * rows (Host.rsqrt (addf (colVar H) (broadcastInDim S128 ![] bcast_S_S128 (constant (F := Ideal) S_ .f32 0x3727C5AC#32)))) i
        * rows g i + rows b i) _ = _
  rw [rows_apply, rows_apply, rows_apply, rows_apply]
  rfl

/-- The kernel's form of the column statistics — the mean and the variance from the two running column sums —
    gives the reference's normalised entry, for an array of reals. -/
theorem bn_from_sums (H : FVec Ideal S100000x128 .f32) (hH : AllReal H) (g b : FVec Ideal S128 .f32) (i : S100000x128.Idx)
    (s1 s2 : EReal) (h1 : s1 = ∑ k : Fin 100000, H (ix2 k (i 1))) (h2 : s2 = ∑ k : Fin 100000, H (ix2 k (i 1)) * H (ix2 k (i 1))) :
    max ((H i - Ideal.div s1 ((100000 : ℝ) : EReal))
          * Ideal.rsqrt (Ideal.div s2 ((100000 : ℝ) : EReal) - Ideal.div s1 ((100000 : ℝ) : EReal) * Ideal.div s1 ((100000 : ℝ) : EReal)
              + Ideal.ofBits .f32 0x3727C5AC#32)
          * g (ix1 (i 1)) + b (ix1 (i 1))) (Ideal.ofBits .f32 0x00000000#32)
      = bnRelu H g b i := by
  have hm : colMean H (ix1 (i 1)) = Ideal.div s1 ((100000 : ℝ) : EReal) := by
    rw [colMean_apply, h1, zero_add]
  have hv : colVar H (ix1 (i 1)) = Ideal.div s2 ((100000 : ℝ) : EReal) - Ideal.div s1 ((100000 : ℝ) : EReal) * Ideal.div s1 ((100000 : ℝ) : EReal) := by
    rw [colVar_apply, colMean_apply, h1, h2]
    exact Cert.Algebra.var_eq (fun k : Fin 100000 => H (ix2 k (i 1))) (fun k => hH _) 100000 (by norm_num) (by simp)
  rw [bnRelu_apply, hm, hv]

end Cert.Gcn

end
-- ==== Proof.BnReluEntry.lean ====
import proofs.«161928_j20289425506400_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.BnReluValue

open Idealize.ShloMosaic Idealize.ShloMosaic.TcCoe Idealize.SL.Sem Cert.KernelIdeal Cert.KernelIdeal.Gen
open Idealize.ShloMosaic.Pipeline (Dat Cfg Window)
open Idealize.ShloMosaic.ValueIdx

/-- Batch normalisation followed by the rectifier, on one entry: the entry is centred by its column's mean,
    multiplied by the reciprocal square root of its column's variance plus a small constant, multiplied by its
    column's gain, shifted by its column's offset, and a negative result is replaced by zero. -/
def bnRelu (x mean var gain offset : EReal) : EReal :=
  max ((x - mean) * Ideal.rsqrt (var + Ideal.ofBits .f32 0x3727C5AC#32) * gain + offset) (Ideal.ofBits .f32 0x00000000#32)

theorem bnRelu_def (x mean var gain offset : EReal) :
    bnRelu x mean var gain offset
      = max ((x - mean) * Ideal.rsqrt (var + Ideal.ofBits .f32 0x3727C5AC#32) * gain + offset) (Ideal.ofBits .f32 0x00000000#32) := rfl

/-- The normalising body of region 2 at row `p`, column `q` of its block: `bnRelu` of the block's entry there
    and of the four per-column rows at column `q`. The shape casts are identities, the four row broadcasts read the
    one row at column `q`, and every other operation acts entry by entry. -/
theorem k2_pay1_entry (mean var gain offset : Vec Ideal S1x128 .f32) (x : Vec Ideal S5000x128 .f32)
    (p : Fin 5000) (q : Fin 128) :
    k2_pay1 (F := Ideal) mean var gain offset x (ix2 p q)
      = bnRelu (x (ix2 p q)) (mean (ix2 (0 : Fin 1) q)) (var (ix2 (0 : Fin 1) q)) (gain (ix2 (0 : Fin 1) q))
          (offset (ix2 (0 : Fin 1) q)) := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rfl

/-- The same at any index `j` of the block: the per-column rows are read at `j`'s column. -/
theorem k2_pay1_at (mean var gain offset : Vec Ideal S1x128 .f32) (x : Vec Ideal S5000x128 .f32)
    (j : S5000x128.Idx) :
    k2_pay1 (F := Ideal) mean var gain offset x j
      = bnRelu (x j) (mean (ix2 (0 : Fin 1) (j 1))) (var (ix2 (0 : Fin 1) (j 1))) (gain (ix2 (0 : Fin 1) (j 1)))
          (offset (ix2 (0 : Fin 1) (j 1))) := by
  obtain ⟨p, q, rfl⟩ : ∃ (p : Fin 5000) (q : Fin 128), j = ix2 p q := ⟨j 0, j 1, eq_ix2 j⟩
  exact k2_pay1_entry mean var gain offset x p q

/-- The normalising body of region 5 at row `p`, column `q` of its block: `bnRelu` of the block's entry there
    and of the four per-column rows at column `q`. The shape casts are identities, the four row broadcasts read the
    one row at column `q`, and every other operation acts entry by entry. -/
theorem k5_pay1_entry (mean var gain offset : Vec Ideal S1x128 .f32) (x : Vec Ideal S5000x128 .f32)
    (p : Fin 5000) (q : Fin 128) :
    k5_pay1 (F := Ideal) mean var gain offset x (ix2 p q)
      = bnRelu (x (ix2 p q)) (mean (ix2 (0 : Fin 1) q)) (var (ix2 (0 : Fin 1) q)) (gain (ix2 (0 : Fin 1) q))
          (offset (ix2 (0 : Fin 1) q)) := by
  unfold k5_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rfl

/-- The same at any index `j` of the block: the per-column rows are read at `j`'s column. -/
theorem k5_pay1_at (mean var gain offset : Vec Ideal S1x128 .f32) (x : Vec Ideal S5000x128 .f32)
    (j : S5000x128.Idx) :
    k5_pay1 (F := Ideal) mean var gain offset x j
      = bnRelu (x j) (mean (ix2 (0 : Fin 1) (j 1))) (var (ix2 (0 : Fin 1) (j 1))) (gain (ix2 (0 : Fin 1) (j 1)))
          (offset (ix2 (0 : Fin 1) (j 1))) := by
  obtain ⟨p, q, rfl⟩ : ∃ (p : Fin 5000) (q : Fin 128), j = ix2 p q := ⟨j 0, j 1, eq_ix2 j⟩
  exact k5_pay1_entry mean var gain offset x p q

/-- Batch normalisation followed by the rectifier, on a whole [100000, 128] array with its four [1, 128] rows of
    per-column statistics: entry `(r, q)` is `bnRelu` of the array's entry there and of the rows at column `q`. -/
def bnReluArr (x : S100000x128.Idx → EReal) (mean var gain offset : S1x128.Idx → EReal) : S100000x128.Idx → EReal :=
  fun i => bnRelu (x i) (mean (ix2 (0 : Fin 1) (i 1))) (var (ix2 (0 : Fin 1) (i 1))) (gain (ix2 (0 : Fin 1) (i 1)))
    (offset (ix2 (0 : Fin 1) (i 1)))

/-- `bnReluArr` at an index, written out. -/
theorem bnReluArr_apply (x : S100000x128.Idx → EReal) (mean var gain offset : S1x128.Idx → EReal) (i : S100000x128.Idx) :
    bnReluArr x mean var gain offset i
      = max ((x i - mean (ix2 (0 : Fin 1) (i 1))) * Ideal.rsqrt (var (ix2 (0 : Fin 1) (i 1)) + Ideal.ofBits .f32 0x3727C5AC#32)
            * gain (ix2 (0 : Fin 1) (i 1)) + offset (ix2 (0 : Fin 1) (i 1)))
          (Ideal.ofBits .f32 0x00000000#32) := rfl

/-- `bnRelu` of equal arguments. -/
theorem bnRelu_congr {x x' mean mean' var var' gain gain' offset offset' : EReal} (hx : x = x') (hm : mean = mean')
    (hv : var = var') (hg : gain = gain') (ho : offset = offset') :
    bnRelu x mean var gain offset = bnRelu x' mean' var' gain' offset' := by
  subst hx hm hv hg ho; rfl

/-- The origin of a rank-2 buffer, as the constant function it is. -/
theorem origin : (![0, 0] : Fin 2 → Nat) = fun _ => 0 := funext fun a => by fin_cases a <;> rfl

end Cert.KernelIdeal.BnReluValue

end
-- ==== Proof.BnBridge.lean ====
/-
  From the kernel's normalisation inputs to the reference's batch normalisation. Between the statistics kernel
  and the normalisation kernel the host computes, from the two [1,128] arrays of column sums s1 = Σ_r H[r,·] and
  s2 = Σ_r H[r,·]², the mean s1/n and the variance s2/n − (s1/n)², and reshapes the scale and the shift to rows.
  The normalisation kernel then forms max(((H − mean)·rsqrt(var + ε))·scale + shift, 0) entry by entry. For an
  array H of reals this is the reference's `bnRelu H scale shift`.
-/
import proofs.«161928_j20289425506400_1_alg».proof.Proof.SpecApply
import proofs.«161928_j20289425506400_1_alg».proof.Proof.BnReluEntry
import Idealize.ShloMosaic.Lib.Pipeline.Value
import Idealize.ShloMosaic.Lib.ValueIdx

noncomputable section

namespace Cert.KernelIdeal.Stages

open Idealize.ShloMosaic Idealize.ShloMosaic.ValueIdx Cert.KernelIdeal Cert.KernelIdeal.Gen Cert.Finite

/-- The host's mean row: the column sums divided by the node count. -/
def kMean (s1 : FVec Ideal S1x128 .f32) : FVec Ideal S1x128 .f32 :=
  Host.divf s1 (broadcastInDim S1x128 ![] bcast_S_S1x128 (constant S_ .f32 0x47C35000#32))

/-- The host's variance row: the mean of the squares minus the squared mean. -/
def kVar (s1 s2 : FVec Ideal S1x128 .f32) : FVec Ideal S1x128 .f32 :=
  subf (Host.divf s2 (broadcastInDim S1x128 ![] bcast_S_S1x128 (constant S_ .f32 0x47C35000#32))) (mulf (kMean s1) (kMean s1))

/-- A vector of 128 entries reshaped to one row. -/
def kRow (v : FVec Ideal S128 .f32) : FVec Ideal S1x128 .f32 := shapeCast S1x128 v shapeCasts_S128_S1x128

/-- The row's entry in column q is the vector's entry q. -/
theorem kRow_apply (v : FVec Ideal S128 .f32) (j : S1x128.Idx) : kRow v j = v (ix1 (j 1)) := by
  unfold kRow
  refine shapeCast_apply v _ j (ix1 (j 1)) ?_
  have h0 : (j 0).val < 1 := (j 0).isLt
  rw [Shape.rowMajor_val_one, Shape.rowMajor_val_two]
  show (j 1).val = (j 0).val * 128 + (j 1).val
  omega

/-- The normalisation kernel's array from the host's statistics is the reference's batch normalisation, on reals. -/
theorem bn_bridge (H : FVec Ideal S100000x128 .f32) (hH : AllReal H) (g b : FVec Ideal S128 .f32)
    (s1 s2 : FVec Ideal S1x128 .f32)
    (h1 : ∀ j : S1x128.Idx, s1 j = ∑ r : Fin 100000, H (ix2 r (j 1)))
    (h2 : ∀ j : S1x128.Idx, s2 j = ∑ r : Fin 100000, H (ix2 r (j 1)) * H (ix2 r (j 1))) :
    Cert.KernelIdeal.BnReluValue.bnReluArr H (kMean s1) (kVar s1 s2) (kRow g) (kRow b) = Cert.Gcn.bnRelu H g b := by
  funext i
  rw [Cert.KernelIdeal.BnReluValue.bnReluArr_apply, kRow_apply, kRow_apply]
  show max ((H i - Ideal.div (s1 (ix2 (0 : Fin 1) (i 1))) (Ideal.ofBits .f32 0x47C35000#32))
        * Ideal.rsqrt (Ideal.div (s2 (ix2 (0 : Fin 1) (i 1))) (Ideal.ofBits .f32 0x47C35000#32)
            - Ideal.div (s1 (ix2 (0 : Fin 1) (i 1))) (Ideal.ofBits .f32 0x47C35000#32) * Ideal.div (s1 (ix2 (0 : Fin 1) (i 1))) (Ideal.ofBits .f32 0x47C35000#32)
            + Ideal.ofBits .f32 0x3727C5AC#32)
        * g (ix1 (i 1)) + b (ix1 (i 1))) (Ideal.ofBits .f32 0x00000000#32) = _
  rw [Cert.Consts.ofBits_100000]
  exact Cert.Gcn.bn_from_sums H hH g b i _ _ (h1 _) (h2 _)

end Cert.KernelIdeal.Stages

end
-- ==== Proof.MatmulValue0.lean ====
/-
  The first product region, read as one array.

  The region walks the 100000 rows in 20 blocks of 5000. At point `t` it loads rows
  `5000·t … 5000·t+4999` of the left array (all 128 columns) and the whole [128,128] right array,
  and stores their product as the same rows of the result. Row `r` of the result is written once,
  by point `r / 5000`, and entry `(r, q)` there is `∑ k, left (r, k) * right (k, q)`: a row of the
  product reads only its own row of the left array. So after the 20 points the result array is the
  product of the two arrays as the region found them.
-/
import proofs.«161928_j20289425506400_1_alg».proof.Proof.Gen.KernelIdeal.Frame
import proofs.«161928_j20289425506400_1_alg».proof.Proof.MatmulEntry
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.MatmulValue

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The body's loads and its store start at the origin of their buffers. -/
theorem origin0 : (![0, 0] : Fin 2 → Nat) = fun _ => 0 := funext fun a => by fin_cases a <;> rfl

/-- The index maps, decided over the 20 points: the left array's block and the result's block at point `t`
    are both row block `t`, column block 0; the right array's block is always block (0, 0). -/
theorem blocks0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of the product of the two arrays as the region finds them. -/
theorem flushed0_eq (c : Dev nD) (t : Fin cfg0.N) :
    (dat0 (F := Ideal) V c).flushed 2 t = ((cfg0.win 2).blk t).view.read (Elt Ideal) (product128 (V c main_arg0) (V c main_arg3)) := by
  show (cfg0.win 2).cut (grid0.coords t) ((dat0 (F := Ideal) V c).after 2 t) = _
  rw [after0_2]
  unfold out0_2
  rw [View.canon_unit_zero origin0]
  simp only [View.ld_unit_zero (S := S5000x128) origin0, View.ld_unit_zero (S := S128x128) origin0]
  obtain ⟨e0, e1, e2, e3, e4, e5⟩ := blocks0 t
  funext j
  show k0_pay1 (F := Ideal) (iblk0 V c 0 t) (iblk0 V c 1 t) j = product128 (V c main_arg0) (V c main_arg3) (((cfg0.win 2).blk t).view.emb j)
  refine (congrArg (k0_pay1 (F := Ideal) (iblk0 V c 0 t) (iblk0 V c 1 t)) (ValueIdx.eq_ix2 j)).trans ?_
  have hj0 : (j 0).val < 5000 := (j 0).isLt
  have hj1 : (j 1).val < 128 := (j 1).isLt
  refine k0_pay1_of_rows (V c main_arg0) (V c main_arg3) (iblk0 V c 0 t) (iblk0 V c 1 t) (((cfg0.win 2).blk t).view.emb j) (j 0) (j 1) ?_ ?_
  · intro k
    have hk : k.val < 128 := k.isLt
    show V c main_arg0 (((cfg0.win 0).blk t).view.emb (ValueIdx.ix2 (j 0) k)) = V c main_arg0 (ValueIdx.ix2 ((((cfg0.win 2).blk t).view.emb j) 0) k)
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · intro k
    have hk : k.val < 128 := k.isLt
    show V c main_arg3 (((cfg0.win 1).blk t).view.emb (ValueIdx.ix2 k (j 1))) = V c main_arg3 (ValueIdx.ix2 k ((((cfg0.win 2).blk t).view.emb j) 1))
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` of the result is in the block of point `r / 5000`, and every point writes its block back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := blocks0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the 20 points: the product of the two arrays as the region found them. -/
theorem array0 (c : Dev nD) :
    (dat0 (F := Ideal) V c).arrAt 2 cfg0.N = product128 (V c main_arg0) (V c main_arg3) :=
  (dat0 (F := Ideal) V c).arrAt_eq_of_cover 2 _ (fun t _ => flushed0_eq V c t) cover0

/-- The same, entry by entry. -/
theorem value0 (c : Dev nD) (i : S100000x128.Idx) :
    (dat0 (F := Ideal) V c).arrAt 2 cfg0.N i = product128 (V c main_arg0) (V c main_arg3) i :=
  congrFun (array0 V c) i

end Cert.KernelIdeal.MatmulValue

end
-- ==== Proof.MatmulValue3.lean ====
/-
  The second product region, read as one array.

  The region walks the 100000 rows in 20 blocks of 5000. At point `t` it loads rows
  `5000·t … 5000·t+4999` of the left array (all 128 columns) and the whole [128,128] right array,
  and stores their product as the same rows of the result. Row `r` of the result is written once,
  by point `r / 5000`, and entry `(r, q)` there is `∑ k, left (r, k) * right (k, q)`: a row of the
  product reads only its own row of the left array. So after the 20 points the result array is the
  product of the two arrays as the region found them.
-/
import proofs.«161928_j20289425506400_1_alg».proof.Proof.Gen.KernelIdeal.Frame
import proofs.«161928_j20289425506400_1_alg».proof.Proof.MatmulEntry
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.MatmulValue

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The body's loads and its store start at the origin of their buffers. -/
theorem origin3 : (![0, 0] : Fin 2 → Nat) = fun _ => 0 := funext fun a => by fin_cases a <;> rfl

/-- The index maps, decided over the 20 points: the left array's block and the result's block at point `t`
    are both row block `t`, column block 0; the right array's block is always block (0, 0). -/
theorem blocks3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- WHAT POINT `t` WRITES BACK is block `t` of the product of the two arrays as the region finds them. -/
theorem flushed3_eq (c : Dev nD) (t : Fin cfg3.N) :
    (dat3 (F := Ideal) V c).flushed 2 t = ((cfg3.win 2).blk t).view.read (Elt Ideal) (product128 (V c main_v58) (V c main_arg5)) := by
  show (cfg3.win 2).cut (grid3.coords t) ((dat3 (F := Ideal) V c).after 2 t) = _
  rw [after3_2]
  unfold out3_2
  rw [View.canon_unit_zero origin3]
  simp only [View.ld_unit_zero (S := S5000x128) origin3, View.ld_unit_zero (S := S128x128) origin3]
  obtain ⟨e0, e1, e2, e3, e4, e5⟩ := blocks3 t
  funext j
  show k3_pay1 (F := Ideal) (iblk3 V c 0 t) (iblk3 V c 1 t) j = product128 (V c main_v58) (V c main_arg5) (((cfg3.win 2).blk t).view.emb j)
  refine (congrArg (k3_pay1 (F := Ideal) (iblk3 V c 0 t) (iblk3 V c 1 t)) (ValueIdx.eq_ix2 j)).trans ?_
  have hj0 : (j 0).val < 5000 := (j 0).isLt
  have hj1 : (j 1).val < 128 := (j 1).isLt
  refine k3_pay1_of_rows (V c main_v58) (V c main_arg5) (iblk3 V c 0 t) (iblk3 V c 1 t) (((cfg3.win 2).blk t).view.emb j) (j 0) (j 1) ?_ ?_
  · intro k
    have hk : k.val < 128 := k.isLt
    show V c main_v58 (((cfg3.win 0).blk t).view.emb (ValueIdx.ix2 (j 0) k)) = V c main_v58 (ValueIdx.ix2 ((((cfg3.win 2).blk t).view.emb j) 0) k)
    refine congrArg (V c main_v58) ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  · intro k
    have hk : k.val < 128 := k.isLt
    show V c main_arg5 (((cfg3.win 1).blk t).view.emb (ValueIdx.ix2 k (j 1))) = V c main_arg5 (ValueIdx.ix2 k ((((cfg3.win 2).blk t).view.emb j) 1))
    refine congrArg (V c main_arg5) ?_
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

/-- An index of the result array is in point `t`'s block iff each coordinate is in the block's range on its axis. -/
theorem mem_block3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v59).slice (win3_2.rect t)).set ↔ _
  rw [View.set_slice_whole, Rect.mem_set_unit]
  exact Iff.rfl

/-- Row `r` of the result is in the block of point `r / 5000`, and every point writes its block back. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨e0, e1, e2, e3, e4, e5⟩ := blocks3 t
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE RESULT ARRAY after the 20 points: the product of the two arrays as the region found them. -/
theorem array3 (c : Dev nD) :
    (dat3 (F := Ideal) V c).arrAt 2 cfg3.N = product128 (V c main_v58) (V c main_arg5) :=
  (dat3 (F := Ideal) V c).arrAt_eq_of_cover 2 _ (fun t _ => flushed3_eq V c t) cover3

/-- The same, entry by entry. -/
theorem value3 (c : Dev nD) (i : S100000x128.Idx) :
    (dat3 (F := Ideal) V c).arrAt 2 cfg3.N i = product128 (V c main_v58) (V c main_arg5) i :=
  congrFun (array3 V c) i

end Cert.KernelIdeal.MatmulValue

end
-- ==== Proof.StatsEntry.lean ====
/-
  Column sums of a 100000-row array, taken 5000 rows at a time.

  The rows 0 … 100000-1 fall into 20 consecutive blocks of 5000 rows. The sum over the rows below 5000·(n+1) is the sum over
  the rows below 5000·n plus the sum over block n; the sum over the rows below 5000·20 is the sum over all rows. Values lie in
  any additive commutative monoid (the extended reals are one), so nothing needs to be finite.
-/
import Mathlib.Algebra.BigOperators.Fin
import Mathlib.Algebra.BigOperators.Intervals

namespace Cert.KernelIdeal.StatsValue

open Finset

variable {M : Type*} [AddCommMonoid M]

/-- A function of the rows continued by zero past the last row. -/
def pastRows (f : Fin 100000 → M) (i : ℕ) : M := if h : i < 100000 then f ⟨i, h⟩ else 0

theorem pastRows_of_lt (f : Fin 100000 → M) (i : ℕ) (h : i < 100000) : pastRows f i = f ⟨i, h⟩ := dif_pos h

/-- The sum of `f` over the rows of the first `n` blocks (rows below 5000·n). -/
def rowsBelow (f : Fin 100000 → M) (n : ℕ) : M := ∑ i ∈ range (5000 * n), pastRows f i

theorem rowsBelow_zero (f : Fin 100000 → M) : rowsBelow f 0 = 0 := by
  unfold rowsBelow; simp

/-- One more block: the rows 5000·n … 5000·n+4999 are added. -/
theorem rowsBelow_succ (f : Fin 100000 → M) (n : ℕ) (hn : n < 20) :
    rowsBelow f (n + 1) = rowsBelow f n + ∑ p : Fin 5000, f ⟨5000 * n + p.val, by have := p.isLt; omega⟩ := by
  unfold rowsBelow
  rw [show 5000 * (n + 1) = 5000 * n + 5000 from by omega, Finset.sum_range_add,
    Finset.sum_range (fun x => pastRows f (5000 * n + x))]
  exact congrArg (fun s => (∑ i ∈ range (5000 * n), pastRows f i) + s)
    (Finset.sum_congr rfl fun p _ => pastRows_of_lt f _ _)

/-- All twenty blocks: every row. -/
theorem rowsBelow_all (f : Fin 100000 → M) : rowsBelow f 20 = ∑ r : Fin 100000, f r := by
  unfold rowsBelow
  rw [show 5000 * 20 = 100000 from rfl, Finset.sum_range (pastRows f)]
  exact Finset.sum_congr rfl fun r _ => pastRows_of_lt f _ r.isLt

end Cert.KernelIdeal.StatsValue
-- ==== Proof.StatsValue1.lean ====
/-
  The column statistics of a 100000 × 128 array, accumulated over 20 row blocks of 5000 rows.

  Two 1 × 128 blocks are carried from point to point. At the first point they are set to zero; at every point the column sums
  of the current 5000-row block are added to the first, and the column sums of its squares to the second. After point n the
  first therefore holds, at column q, the sum over the rows below 5000·(n+1) of the array at (row, q), and the second the sum of
  the squares over the same rows; after the last point these are the sums over all rows. The one write-back, after the last
  point, puts each carried block in its 1 × 128 result array.
-/
import proofs.«161928_j20289425506400_1_alg».proof.Proof.Gen.KernelIdeal.Frame
import proofs.«161928_j20289425506400_1_alg».proof.Proof.StatsEntry
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.StatsValue

open Idealize.ShloMosaic Idealize.ShloMosaic.TcCoe Idealize.SL.Sem Cert.KernelIdeal Cert.KernelIdeal.Gen
open Idealize.ShloMosaic.Pipeline (Dat Cfg Window)
open Idealize.ShloMosaic.ValueIdx (ix1 ix2 eq_ix2)

/-! ## What one point leaves in the carried blocks -/

section Pieces
variable {F : FTy → Type} [FloatOps F]

/-- The offset of a whole-buffer access. -/
theorem origin1 : (![0, 0] : Fin 2 → Nat) = fun _ => 0 := funext fun a => by fin_cases a <;> rfl

/-- A later point leaves in the first carried block its former contents plus the block's column sums. -/
theorem later1_sum (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero origin1]
  simp only [View.readAt_eq_ld, h1.read_unread, h2.read_unread, View.ld_unit_zero (S := S5000x128) origin1,
    View.ld_unit_zero (S := S1x128) origin1]

/-- A later point leaves in the second carried block its former contents plus the column sums of the block's squares. -/
theorem later1_sumsq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero origin1]
  simp only [View.readAt_eq_ld, h1.read_unread, h3.read_unread, View.ld_unit_zero (S := S5000x128) origin1,
    View.ld_unit_zero (S := S1x128) origin1]

/-- The first point leaves in the first carried block the zero block plus the block's column sums. -/
theorem first1_sum (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) origin1, View.readCov_unit_zero (S := S1x128) _ origin1]
  simp only [View.readAt_eq_ld, h1.read_unread, View.ld_unit_zero (S := S5000x128) origin1]

/-- The first point leaves in the second carried block the zero block plus the column sums of the block's squares. -/
theorem first1_sumsq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) origin1, View.readCov_unit_zero (S := S1x128) _ origin1]
  simp only [View.readAt_eq_ld, h1.read_unread, View.ld_unit_zero (S := S5000x128) origin1]

end Pieces

/-! ## The two updates at a column, over the extended reals -/

/-- The zero block is zero at every column. -/
theorem zero1_apply (q : Fin 128) : k1_pay1 (F := Ideal) (ix2 (0 : Fin 1) q) = 0 := Ideal.ofBits_zero_f32

theorem zero1'_apply (q : Fin 128) : k1_pay2 (F := Ideal) (ix2 (0 : Fin 1) q) = 0 := Ideal.ofBits_zero_f32

/-- The sum down column `q` of a 5000 × 128 block. -/
theorem blockColumnSum1 (x : Vec Ideal S5000x128 .f32) (q : Fin 128) :
    multiReduction (F := Ideal) .add [0] S128 x 0x00000000#32 reduces_S5000x128_S128 (.inl rfl) rfl (ix1 q)
      = ∑ p : Fin 5000, x (ix2 p q) := by
  refine (Ideal.multiReduction_add_single x _ reduces_S5000x128_S128 _ _ (ix1 q)).trans ?_
  refine Finset.sum_congr rfl fun p _ => ?_
  exact congrArg x (funext fun a => Fin.ext (by match a with | ⟨0, _⟩ => rfl | ⟨1, _⟩ => rfl))

/-- The first update at column `q`: the carried value plus the block's column sum. -/
theorem addColumnSum1 (x : Vec Ideal S5000x128 .f32) (acc : Vec Ideal S1x128 .f32) (q : Fin 128) :
    k1_pay4 (F := Ideal) x acc (ix2 (0 : Fin 1) q) = acc (ix2 (0 : Fin 1) q) + ∑ p : Fin 5000, x (ix2 p q) := by
  unfold k1_pay4 k1_pay3
  show (shapeCast S1x128 acc shapeCasts_S1x128_S1x128) (ix2 (0 : Fin 1) q)
      + shapeCast S1x128 (multiReduction (F := Ideal) .add [0] S128 (shapeCast S5000x128 x shapeCasts_S5000x128_S5000x128)
          0x00000000#32 reduces_S5000x128_S128 (.inl rfl) rfl) shapeCasts_S128_S1x128 (ix2 (0 : Fin 1) q) = _
  refine congrArg₂ (· + ·) (congrFun (shapeCast_self acc _) _) ?_
  refine (ValueIdx.shapeCast_a_1a_apply _ shapeCasts_S128_S1x128 (0 : Fin 1) q).trans ?_
  refine (congrArg (fun y => multiReduction (F := Ideal) .add [0] S128 y 0x00000000#32 reduces_S5000x128_S128 (.inl rfl) rfl (ix1 q))
    (shapeCast_self x _)).trans ?_
  exact blockColumnSum1 x q

/-- The second update at column `q`: the carried value plus the column sum of the block's squares. -/
theorem addColumnSumSq1 (x : Vec Ideal S5000x128 .f32) (acc : Vec Ideal S1x128 .f32) (q : Fin 128) :
    k1_pay5 (F := Ideal) x acc (ix2 (0 : Fin 1) q)
      = acc (ix2 (0 : Fin 1) q) + ∑ p : Fin 5000, x (ix2 p q) * x (ix2 p q) := by
  unfold k1_pay5 k1_pay3
  show (shapeCast S1x128 acc shapeCasts_S1x128_S1x128) (ix2 (0 : Fin 1) q)
      + shapeCast S1x128 (multiReduction (F := Ideal) .add [0] S128
          (mulf (shapeCast S5000x128 x shapeCasts_S5000x128_S5000x128) (shapeCast S5000x128 x shapeCasts_S5000x128_S5000x128))
          0x00000000#32 reduces_S5000x128_S128 (.inl rfl) rfl) shapeCasts_S128_S1x128 (ix2 (0 : Fin 1) q) = _
  refine congrArg₂ (· + ·) (congrFun (shapeCast_self acc _) _) ?_
  refine (ValueIdx.shapeCast_a_1a_apply _ shapeCasts_S128_S1x128 (0 : Fin 1) q).trans ?_
  refine (congrArg (fun y => multiReduction (F := Ideal) .add [0] S128 (mulf y y) 0x00000000#32 reduces_S5000x128_S128 (.inl rfl) rfl (ix1 q))
    (shapeCast_self x _)).trans ?_
  exact blockColumnSum1 (mulf x x : FVec Ideal S5000x128 .f32) q

/-- A later point at column `q`, both carried values. -/
theorem later1_sum_apply (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec Ideal S5000x128 .f32) (xo1 xo2 : Vec Ideal S1x128 .f32) (q : Fin 128) :
    out1_B_1 (F := Ideal) c i a1 h1 a2 h2 a3 h3 hc x xo1 xo2 (ix2 (0 : Fin 1) q)
      = xo1 (ix2 (0 : Fin 1) q) + ∑ p : Fin 5000, x (ix2 p q) :=
  (congrFun (later1_sum c i a1 h1 a2 h2 a3 h3 hc x xo1 xo2) (ix2 (0 : Fin 1) q)).trans (addColumnSum1 x xo1 q)

theorem later1_sumsq_apply (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec Ideal S5000x128 .f32) (xo1 xo2 : Vec Ideal S1x128 .f32) (q : Fin 128) :
    out1_B_2 (F := Ideal) c i a1 h1 a2 h2 a3 h3 hc x xo1 xo2 (ix2 (0 : Fin 1) q)
      = xo2 (ix2 (0 : Fin 1) q) + ∑ p : Fin 5000, x (ix2 p q) * x (ix2 p q) :=
  (congrFun (later1_sumsq c i a1 h1 a2 h2 a3 h3 hc x xo1 xo2) (ix2 (0 : Fin 1) q)).trans (addColumnSumSq1 x xo2 q)

/-- The first point at column `q`: the block's column sum and column sum of squares, added to zero. -/
theorem first1_sum_apply (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec Ideal S5000x128 .f32) (q : Fin 128) :
    out1_A_1 (F := Ideal) c i a1 h1 a2 h2 a3 h3 hc x (ix2 (0 : Fin 1) q) = 0 + ∑ p : Fin 5000, x (ix2 p q) :=
  ((congrFun (first1_sum c i a1 h1 a2 h2 a3 h3 hc x) (ix2 (0 : Fin 1) q)).trans
    (addColumnSum1 x (k1_pay1 (F := Ideal)) q)).trans (congrArg (fun z => z + ∑ p : Fin 5000, x (ix2 p q)) (zero1_apply q))

theorem first1_sumsq_apply (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec Ideal S5000x128 .f32) (q : Fin 128) :
    out1_A_2 (F := Ideal) c i a1 h1 a2 h2 a3 h3 hc x (ix2 (0 : Fin 1) q)
      = 0 + ∑ p : Fin 5000, x (ix2 p q) * x (ix2 p q) :=
  ((congrFun (first1_sumsq c i a1 h1 a2 h2 a3 h3 hc x) (ix2 (0 : Fin 1) q)).trans
    (addColumnSumSq1 x (k1_pay2 (F := Ideal)) q)).trans
    (congrArg (fun z => z + ∑ p : Fin 5000, x (ix2 p q) * x (ix2 p q)) (zero1'_apply q))

/-! ## The blocks of the array, and the carried blocks after each point -/

section Run
variable (V : (c : Dev nD) → (b : Ref sig .tc) → Buf (Elt Ideal) ((c : Thread nD τ).loc b))

/-- Where the windows sit, decided over the grid: row block `t` of the array starts at row 5000·t and spans all columns; each
    result has one block, at the origin. -/
theorem blockPlaces1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Row `p`, column `q` of row block `t` is row 5000·t + p, column `q` of the array. -/
theorem block1_apply (c : Dev nD) (t : Fin cfg1.N) (p : Fin 5000) (q : Fin 128) :
    (iblk1 (F := Ideal) V c 0 t : Vec Ideal S5000x128 .f32) (ix2 p q)
      = (V c main_v48 : S100000x128.Idx → EReal)
          (ix2 (⟨5000 * t.val + p.val, by
            have := p.isLt; have := lt_of_lt_of_eq t.isLt (show cfg1.N = 20 from N_1); omega⟩ : Fin 100000) q) := by
  unfold iblk1
  show (V c main_v48 : S100000x128.Idx → EReal) (((cfg1.win 0).blk t).view.emb (ix2 p q)) = _
  refine congrArg (V c main_v48 : S100000x128.Idx → EReal) (funext fun a => Fin.ext ?_)
  obtain ⟨e0, e1, -⟩ := blockPlaces1 t
  match a with
  | ⟨0, _⟩ => show win1_0.index t (0 : Fin 2) * 5000 + 1 * p.val = 5000 * t.val + p.val; omega
  | ⟨1, _⟩ => show win1_0.index t (1 : Fin 2) * 128 + 1 * q.val = q.val; omega

/-- Column `q` of the array, as a function of the row. -/
abbrev column1 (c : Dev nD) (q : Fin 128) : Fin 100000 → EReal :=
  fun r => (V c main_v48 : S100000x128.Idx → EReal) (ix2 r q)

/-- After point `n` the carried blocks hold, at column `q`, the sum and the sum of squares of the column over the rows of
    blocks 0 … n: by induction on the point. -/
theorem carried1 (c : Dev nD) (q : Fin 128) : ∀ (n : ℕ) (h : n < cfg1.N),
    (outsAt1 (F := Ideal) V c n h).1 (ix2 (0 : Fin 1) q) = rowsBelow (column1 V c q) (n + 1)
    ∧ (outsAt1 (F := Ideal) V c n h).2 (ix2 (0 : Fin 1) q) = rowsBelow (fun r => column1 V c q r * column1 V c q r) (n + 1)
  | 0, h => by
    rw [outsAt1_A (F := Ideal) V c ⟨0, h⟩ rfl]
    dsimp only
    constructor
    · refine (first1_sum_apply c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) _ (iblk1 V c 0 ⟨0, h⟩) q).trans ?_
      rw [rowsBelow_succ _ 0 (by omega), rowsBelow_zero]
      refine congrArg (fun s => (0 : EReal) + s) (Finset.sum_congr rfl fun p _ => ?_)
      exact block1_apply V c ⟨0, h⟩ p q
    · refine (first1_sumsq_apply c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) _ (iblk1 V c 0 ⟨0, h⟩) q).trans ?_
      rw [rowsBelow_succ _ 0 (by omega), rowsBelow_zero]
      refine congrArg (fun s => (0 : EReal) + s) (Finset.sum_congr rfl fun p _ => ?_)
      exact congrArg₂ (· * ·) (block1_apply V c ⟨0, h⟩ p q) (block1_apply V c ⟨0, h⟩ p q)
  | n + 1, h => by
    have hN : n + 1 < 20 := lt_of_lt_of_eq h (show cfg1.N = 20 from N_1)
    have hB : ¬(⟨n + 1, h⟩ : Fin cfg1.N).val % 20 = 0 := by dsimp only; omega
    obtain ⟨ih1, ih2⟩ := carried1 c q n (Nat.lt_of_succ_lt h)
    rw [outsAt1_B (F := Ideal) V c ⟨n + 1, h⟩ hB]
    dsimp only
    constructor
    · refine (later1_sum_apply c (grid1.coords ⟨n + 1, h⟩) (ms1_0 ⟨n + 1, h⟩) (hs1_0 ⟨n + 1, h⟩) (ms1_1 ⟨n + 1, h⟩)
        (hs1_1 ⟨n + 1, h⟩) (ms1_2 ⟨n + 1, h⟩) (hs1_2 ⟨n + 1, h⟩) _ (iblk1 V c 0 ⟨n + 1, h⟩) _ _ q).trans ?_
      rw [rowsBelow_succ _ (n + 1) hN]
      refine congrArg₂ (· + ·) ih1 (Finset.sum_congr rfl fun p _ => ?_)
      exact block1_apply V c ⟨n + 1, h⟩ p q
    · refine (later1_sumsq_apply c (grid1.coords ⟨n + 1, h⟩) (ms1_0 ⟨n + 1, h⟩) (hs1_0 ⟨n + 1, h⟩) (ms1_1 ⟨n + 1, h⟩)
        (hs1_1 ⟨n + 1, h⟩) (ms1_2 ⟨n + 1, h⟩) (hs1_2 ⟨n + 1, h⟩) _ (iblk1 V c 0 ⟨n + 1, h⟩) _ _ q).trans ?_
      rw [rowsBelow_succ _ (n + 1) hN]
      refine congrArg₂ (· + ·) ih2 (Finset.sum_congr rfl fun p _ => ?_)
      exact congrArg₂ (· * ·) (block1_apply V c ⟨n + 1, h⟩ p q) (block1_apply V c ⟨n + 1, h⟩ p q)

/-! ## The result arrays -/

/-- The column sums of the array, as a 1 × 128 array. -/
abbrev columnSums1 (c : Dev nD) : Buf (Elt Ideal) ((c : Thread nD τ).loc main_v49_0) :=
  fun (j : S1x128.Idx) => (∑ r : Fin 100000, column1 V c (j 1) r : EReal)

/-- The column sums of the squares of the array, as a 1 × 128 array. -/
abbrev columnSumSqs1 (c : Dev nD) : Buf (Elt Ideal) ((c : Thread nD τ).loc main_v49_1) :=
  fun (j : S1x128.Idx) => (∑ r : Fin 100000, column1 V c (j 1) r * column1 V c (j 1) r : EReal)

/-- The last point, the one after which the carried blocks are written back. -/
abbrev lastPoint1 : Fin cfg1.N := ⟨19, lt_of_lt_of_eq (by decide : 19 < 20) N_1.symm⟩

/-- An index of a 1 × 128 block is (0, its column). -/
theorem rowZero1 (j : S1x128.Idx) : j = ix2 (n0 := 1) (n1 := 128) (0 : Fin 1) (j 1) :=
  funext fun a => by
    match a with
    | ⟨0, _⟩ => exact Fin.ext (by have h : (j 0).val < 1 := (j 0).isLt; show (j 0).val = 0; omega)
    | ⟨1, _⟩ => rfl

/-- After the last point the carried blocks are the column sums and the column sums of squares. -/
theorem carriedLast1_sum (c : Dev nD) :
    (outsAt1 (F := Ideal) V c lastPoint1.val lastPoint1.isLt).1 = columnSums1 V c := by
  funext j
  refine (congrArg (outsAt1 (F := Ideal) V c lastPoint1.val lastPoint1.isLt).1 (rowZero1 j)).trans ?_
  refine ((carried1 V c (j 1 : Fin 128) lastPoint1.val lastPoint1.isLt).1).trans ?_
  exact rowsBelow_all _

theorem carriedLast1_sumsq (c : Dev nD) :
    (outsAt1 (F := Ideal) V c lastPoint1.val lastPoint1.isLt).2 = columnSumSqs1 V c := by
  funext j
  refine (congrArg (outsAt1 (F := Ideal) V c lastPoint1.val lastPoint1.isLt).2 (rowZero1 j)).trans ?_
  refine ((carried1 V c (j 1 : Fin 128) lastPoint1.val lastPoint1.isLt).2).trans ?_
  exact rowsBelow_all _

/-- What the write-back of the first result writes is the column sums, read through the result's one block, which is the
    whole 1 × 128 array. -/
theorem written1_sum (c : Dev nD) (t : Fin cfg1.N) (hf : (cfg1.win 1).flush t = true) :
    (dat1 (F := Ideal) V c).flushed 1 t = ((cfg1.win 1).blk t).view.read (Elt Ideal) (columnSums1 V c) := by
  have hN : t.val < 20 := lt_of_lt_of_eq t.isLt (show cfg1.N = 20 from N_1)
  have h19 : t.val = 19 := by have := (flush1_1 t).mp hf; omega
  obtain rfl : t = lastPoint1 := Fin.ext h19
  show (cfg1.win 1).cut (grid1.coords lastPoint1) ((dat1 (F := Ideal) V c).after 1 lastPoint1) = _
  rw [after1_1, carriedLast1_sum]
  have hz' : (fun a => win1_1.index lastPoint1 a * main_v49_0.ty.shape.size a) = fun _ => 0 :=
    funext fun a => by fin_cases a <;> decide +kernel
  exact (Memref.read_access_unit_zero (Elt Ideal) main_v49_0 hz' (fun a => by rw [congrFun hz' a]; simp) (columnSums1 V c)).symm

/-- What the write-back of the second result writes is the column sums of squares, likewise. -/
theorem written1_sumsq (c : Dev nD) (t : Fin cfg1.N) (hf : (cfg1.win 2).flush t = true) :
    (dat1 (F := Ideal) V c).flushed 2 t = ((cfg1.win 2).blk t).view.read (Elt Ideal) (columnSumSqs1 V c) := by
  have hN : t.val < 20 := lt_of_lt_of_eq t.isLt (show cfg1.N = 20 from N_1)
  have h19 : t.val = 19 := by have := (flush1_2 t).mp hf; omega
  obtain rfl : t = lastPoint1 := Fin.ext h19
  show (cfg1.win 2).cut (grid1.coords lastPoint1) ((dat1 (F := Ideal) V c).after 2 lastPoint1) = _
  rw [after1_2, carriedLast1_sumsq]
  have hz' : (fun a => win1_2.index lastPoint1 a * main_v49_1.ty.shape.size a) = fun _ => 0 :=
    funext fun a => by fin_cases a <;> decide +kernel
  exact (Memref.read_access_unit_zero (Elt Ideal) main_v49_1 hz' (fun a => by rw [congrFun hz' a]; simp) (columnSumSqs1 V c)).symm

/-- An index of the first result is in point `t`'s block iff each coordinate is in the block's range on its axis. -/
theorem mem_result1_sum (t : Fin cfg1.N) (i : S1x128.Idx) :
    i ∈ ((cfg1.win 1).blk t).view.set ↔ ∀ a : Fin 2, win1_1.index t a * S1x128.size a ≤ (i a).val
      ∧ (i a).val < win1_1.index t a * S1x128.size a + S1x128.size a := by
  show i ∈ ((View.whole main_v49_0).slice (win1_1.rect t)).set ↔ _
  rw [View.set_slice_whole, Rect.mem_set_unit]
  exact Iff.rfl

theorem mem_result1_sumsq (t : Fin cfg1.N) (i : S1x128.Idx) :
    i ∈ ((cfg1.win 2).blk t).view.set ↔ ∀ a : Fin 2, win1_2.index t a * S1x128.size a ≤ (i a).val
      ∧ (i a).val < win1_2.index t a * S1x128.size a + S1x128.size a := by
  show i ∈ ((View.whole main_v49_1).slice (win1_2.rect t)).set ↔ _
  rw [View.set_slice_whole, Rect.mem_set_unit]
  exact Iff.rfl

/-- The first result array ends holding the column sums: the last point's one block is the whole array. -/
theorem result1_sum (c : Dev nD) : (dat1 (F := Ideal) V c).arrAt 1 cfg1.N = columnSums1 V c :=
  (dat1 (F := Ideal) V c).arrAt_eq_of_cover 1 (columnSums1 V c) (written1_sum V c) fun i =>
    ⟨lastPoint1, (flush1_1 lastPoint1).mpr rfl, by
      rw [mem_result1_sum]
      obtain ⟨-, -, e2, e3, -⟩ := blockPlaces1 lastPoint1
      have h0 : ((i : S1x128.Idx) 0).val < 1 := ((i : S1x128.Idx) 0).isLt
      have h1 : ((i : S1x128.Idx) 1).val < 128 := ((i : S1x128.Idx) 1).isLt
      intro a
      match a with
      | ⟨0, _⟩ => show win1_1.index lastPoint1 (0 : Fin 2) * 1 ≤ ((i : S1x128.Idx) 0).val
          ∧ ((i : S1x128.Idx) 0).val < win1_1.index lastPoint1 (0 : Fin 2) * 1 + 1; omega
      | ⟨1, _⟩ => show win1_1.index lastPoint1 (1 : Fin 2) * 128 ≤ ((i : S1x128.Idx) 1).val
          ∧ ((i : S1x128.Idx) 1).val < win1_1.index lastPoint1 (1 : Fin 2) * 128 + 128; omega⟩

/-- The second result array ends holding the column sums of squares. -/
theorem result1_sumsq (c : Dev nD) : (dat1 (F := Ideal) V c).arrAt 2 cfg1.N = columnSumSqs1 V c :=
  (dat1 (F := Ideal) V c).arrAt_eq_of_cover 2 (columnSumSqs1 V c) (written1_sumsq V c) fun i =>
    ⟨lastPoint1, (flush1_2 lastPoint1).mpr rfl, by
      rw [mem_result1_sumsq]
      obtain ⟨-, -, -, -, e4, e5⟩ := blockPlaces1 lastPoint1
      have h0 : ((i : S1x128.Idx) 0).val < 1 := ((i : S1x128.Idx) 0).isLt
      have h1 : ((i : S1x128.Idx) 1).val < 128 := ((i : S1x128.Idx) 1).isLt
      intro a
      match a with
      | ⟨0, _⟩ => show win1_2.index lastPoint1 (0 : Fin 2) * 1 ≤ ((i : S1x128.Idx) 0).val
          ∧ ((i : S1x128.Idx) 0).val < win1_2.index lastPoint1 (0 : Fin 2) * 1 + 1; omega
      | ⟨1, _⟩ => show win1_2.index lastPoint1 (1 : Fin 2) * 128 ≤ ((i : S1x128.Idx) 1).val
          ∧ ((i : S1x128.Idx) 1).val < win1_2.index lastPoint1 (1 : Fin 2) * 128 + 128; omega⟩

/-- After the region the first result holds, at column `q`, the sum of column `q` of the array over all its rows. -/
theorem colsum1 (c : Dev nD) (q : Fin 128) :
    ((dat1 (F := Ideal) V c).arrAt 1 cfg1.N : S1x128.Idx → EReal) (ix2 (0 : Fin 1) q)
      = ∑ r : Fin 100000, column1 V c q r :=
  congrFun (result1_sum V c) (ix2 (0 : Fin 1) q)

/-- After the region the second result holds, at column `q`, the sum of the squares of column `q` over all rows. -/
theorem colsumsq1 (c : Dev nD) (q : Fin 128) :
    ((dat1 (F := Ideal) V c).arrAt 2 cfg1.N : S1x128.Idx → EReal) (ix2 (0 : Fin 1) q)
      = ∑ r : Fin 100000, column1 V c q r * column1 V c q r :=
  congrFun (result1_sumsq V c) (ix2 (0 : Fin 1) q)

end Run

end Cert.KernelIdeal.StatsValue
-- ==== Proof.BnReluValue2.lean ====
import proofs.«161928_j20289425506400_1_alg».proof.Proof.Gen.KernelIdeal.Frame
import proofs.«161928_j20289425506400_1_alg».proof.Proof.BnReluEntry
import Idealize.ShloMosaic.Lib.Pipeline.Value

set_option maxRecDepth 16384

noncomputable section

namespace Cert.KernelIdeal.BnReluValue

open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- What region 2 leaves in its result array, index by index: `bnRelu` of the input's entry at `i` and of
    the mean, variance, gain and offset rows at `i`'s column, all as the region finds them. -/
def normalised2 (c : Dev nD) : S100000x128.Idx → EReal := fun i =>
  bnRelu ((V c main_v48 : S100000x128.Idx → EReal) i)
    ((V c main_v51 : S1x128.Idx → EReal) (ix2 (0 : Fin 1) (i 1)))
    ((V c main_v55 : S1x128.Idx → EReal) (ix2 (0 : Fin 1) (i 1)))
    ((V c main_v56 : S1x128.Idx → EReal) (ix2 (0 : Fin 1) (i 1)))
    ((V c main_v57 : S1x128.Idx → EReal) (ix2 (0 : Fin 1) (i 1)))

/-- The index maps over the grid: the input's row block moves with the result's, the four per-column rows stay at
    block (0, 0), and point `t`'s result block is row block `t`, column block 0. -/
theorem blockIndex2 : ∀ t : Fin cfg2.N,
    win2_0.index t (0 : Fin 2) = win2_5.index t (0 : Fin 2) ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of `normalised2`: rows 5000·t … 5000·t+4999, all 128 columns. -/
theorem flushed2 (c : Dev nD) (t : Fin cfg2.N) :
    (dat2 (F := Ideal) V c).flushed 5 t = ((cfg2.win 5).blk t).view.read (Elt Ideal) (normalised2 V c) := by
  show (cfg2.win 5).cut (grid2.coords t) ((dat2 (F := Ideal) V c).after 5 t) = _
  rw [after2_5]
  unfold out2_5
  rw [View.canon_unit_zero origin]
  simp only [View.ld_unit_zero (S := S5000x128) origin, View.ld_unit_zero (S := S1x128) origin]
  obtain ⟨e00, e01, e10, e11, e20, e21, e30, e31, e40, e41, e50, e51⟩ := blockIndex2 t
  funext j
  show k2_pay1 (F := Ideal) (iblk2 V c 1 t) (iblk2 V c 2 t) (iblk2 V c 3 t) (iblk2 V c 4 t) (iblk2 V c 0 t) j
      = normalised2 V c (((cfg2.win 5).blk t).view.emb j)
  refine (k2_pay1_at (iblk2 V c 1 t) (iblk2 V c 2 t) (iblk2 V c 3 t) (iblk2 V c 4 t) (iblk2 V c 0 t) j).trans ?_
  unfold normalised2
  have hj0 : (j 0).val < 5000 := (j 0).isLt
  have hj1 : (j 1).val < 128 := (j 1).isLt
  refine bnRelu_congr ?_ ?_ ?_ ?_ ?_
  · show V c main_v48 (((cfg2.win 0).blk t).view.emb j) = V c main_v48 (((cfg2.win 5).blk t).view.emb j)
    refine congrArg (V c main_v48) ?_
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * (j 1).val = win2_5.index t (1 : Fin 2) * 128 + 1 * (j 1).val; omega
  · show V c main_v51 (((cfg2.win 1).blk t).view.emb (ix2 (0 : Fin 1) (j 1))) = V c main_v51 (ix2 (0 : Fin 1) ((((cfg2.win 5).blk t).view.emb j) 1))
    refine congrArg (V c main_v51) ?_
    funext a; apply Fin.ext
    match a with
    | ⟨0, _⟩ => show win2_1.index t (0 : Fin 2) * 1 + 1 * 0 = 0; omega
    | ⟨1, _⟩ => show win2_1.index t (1 : Fin 2) * 128 + 1 * (j 1).val = win2_5.index t (1 : Fin 2) * 128 + 1 * (j 1).val; omega
  · show V c main_v55 (((cfg2.win 2).blk t).view.emb (ix2 (0 : Fin 1) (j 1))) = V c main_v55 (ix2 (0 : Fin 1) ((((cfg2.win 5).blk t).view.emb j) 1))
    refine congrArg (V c main_v55) ?_
    funext a; apply Fin.ext
    match a with
    | ⟨0, _⟩ => show win2_2.index t (0 : Fin 2) * 1 + 1 * 0 = 0; omega
    | ⟨1, _⟩ => show win2_2.index t (1 : Fin 2) * 128 + 1 * (j 1).val = win2_5.index t (1 : Fin 2) * 128 + 1 * (j 1).val; omega
  · show V c main_v56 (((cfg2.win 3).blk t).view.emb (ix2 (0 : Fin 1) (j 1))) = V c main_v56 (ix2 (0 : Fin 1) ((((cfg2.win 5).blk t).view.emb j) 1))
    refine congrArg (V c main_v56) ?_
    funext a; apply Fin.ext
    match a with
    | ⟨0, _⟩ => show win2_3.index t (0 : Fin 2) * 1 + 1 * 0 = 0; omega
    | ⟨1, _⟩ => show win2_3.index t (1 : Fin 2) * 128 + 1 * (j 1).val = win2_5.index t (1 : Fin 2) * 128 + 1 * (j 1).val; omega
  · show V c main_v57 (((cfg2.win 4).blk t).view.emb (ix2 (0 : Fin 1) (j 1))) = V c main_v57 (ix2 (0 : Fin 1) ((((cfg2.win 5).blk t).view.emb j) 1))
    refine congrArg (V c main_v57) ?_
    funext a; apply Fin.ext
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega

/-- An index of the result array is in point `t`'s block iff each coordinate is in the block's range on its axis. -/
theorem mem_block2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v58).slice (win2_5.rect t)).set ↔ _
  rw [View.set_slice_whole, Rect.mem_set_unit]
  exact Iff.rfl

/-- The 20 row blocks fill the result array: row `r` is in the block of point `r / 5000`. -/
theorem covered2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, e50, e51⟩ := blockIndex2 t
  refine ⟨t, flush2_5 t, ?_⟩
  rw [mem_block2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The result array after the region's 20 points is `normalised2`. -/
theorem array2 (c : Dev nD) : (dat2 (F := Ideal) V c).arrAt 5 cfg2.N = normalised2 V c :=
  (dat2 (F := Ideal) V c).arrAt_eq_of_cover 5 (normalised2 V c) (fun t _ => flushed2 V c t) covered2

/-- The same, with the five arrays the region finds passed as plain functions of their indices. -/
theorem array2_eq (c : Dev nD) :
    (dat2 (F := Ideal) V c).arrAt 5 cfg2.N
      = bnReluArr (V c main_v48) (V c main_v51) (V c main_v55) (V c main_v56) (V c main_v57) :=
  (array2 V c).trans rfl

/-- The result of region 2 at an index: the input's entry there, normalised by its column's mean, variance, gain
    and offset, then rectified (`bnReluArr_apply` writes the right-hand side out). -/
theorem value2 (c : Dev nD) (i : S100000x128.Idx) :
    (dat2 (F := Ideal) V c).arrAt 5 cfg2.N i
      = bnReluArr (V c main_v48) (V c main_v51) (V c main_v55) (V c main_v56) (V c main_v57) i := by
  rw [array2]; rfl

end Cert.KernelIdeal.BnReluValue

end
-- ==== Proof.Stages1.lean ====
/-
  The kernel's first layer. The first product kernel leaves X·W1; the host stretch after it is the graph
  convolution of that product; the statistics kernel leaves the two column sums of the convolution output; the host
  forms the mean and the variance from them; the normalisation kernel leaves the batch-normalised, rectified
  activation — the reference's, when the convolution output is an array of reals; and the second product kernel leaves
  its product with W2. Each host stretch is first read for arbitrary contents at its entry; each buffer is then
  identified, at the boundary where it is read, with a function of the arguments.
-/
import proofs.«161928_j20289425506400_1_alg».proof.Proof.Stages0b
import proofs.«161928_j20289425506400_1_alg».proof.Proof.Keeps
import proofs.«161928_j20289425506400_1_alg».proof.Proof.DotEntry
import proofs.«161928_j20289425506400_1_alg».proof.Proof.BnBridge
import proofs.«161928_j20289425506400_1_alg».proof.Proof.MatmulValue0
import proofs.«161928_j20289425506400_1_alg».proof.Proof.MatmulValue3
import proofs.«161928_j20289425506400_1_alg».proof.Proof.StatsValue1
import proofs.«161928_j20289425506400_1_alg».proof.Proof.BnReluValue2
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo Idealize.ShloMosaic.ValueIdx
open Cert.KernelIdeal Cert.KernelIdeal.Gen Cert.Finite

set_option maxHeartbeats 1000000 in
/-- The convolution stretch, from any contents at its entry: the generic graph convolution of the product buffer,
    the two index vectors, the edge normalisation and the bias it reads. -/
theorem conv1_stretch (W : Valuation τ sig (Elt Ideal)) :
    StableHlo.after hostOps1 W (Proc.devRef .tc main_v48)
      = Cert.Gcn.conv128 (W (Proc.devRef .tc main_v32)) (W (Proc.devRef .tc main_v5)) (W (Proc.devRef .tc main_v6)) (W (Proc.devRef .tc main_v31)) (W (Proc.devRef .tc main_arg4)) := by
  after_results
  rfl

/-- The statistics stretch, from any contents at its entry: the mean row, the variance row, and the scale and the
    shift reshaped to rows. -/
theorem mean1_stretch (W : Valuation τ sig (Elt Ideal)) : StableHlo.after hostOps2 W (Proc.devRef .tc main_v51) = kMean (W (Proc.devRef .tc main_v49_0)) := by
  after_results
  rfl
theorem var1_stretch (W : Valuation τ sig (Elt Ideal)) : StableHlo.after hostOps2 W (Proc.devRef .tc main_v55) = kVar (W (Proc.devRef .tc main_v49_0)) (W (Proc.devRef .tc main_v49_1)) := by
  after_results
  rfl
theorem scale1_stretch (W : Valuation τ sig (Elt Ideal)) : StableHlo.after hostOps2 W (Proc.devRef .tc main_v56) = kRow (W (Proc.devRef .tc main_arg9)) := by
  after_results
  rfl
theorem shift1_stretch (W : Valuation τ sig (Elt Ideal)) : StableHlo.after hostOps2 W (Proc.devRef .tc main_v57) = kRow (W (Proc.devRef .tc main_arg10)) := by
  after_results
  rfl

/-- The statistics kernel's two result arrays, when the array it reads is `H`: the column sums of `H` and of its squares. -/
theorem colsums1_of (V : (c : Dev nD) → (b : Ref sig .tc) → Buf (Elt Ideal) ((c : Thread nD τ).loc b)) (c : Dev nD)
    (H : S100000x128.Idx → EReal) (e : (V c main_v48 : S100000x128.Idx → EReal) = H) (j : S1x128.Idx) :
    (Cert.KernelIdeal.StatsValue.columnSums1 V c : S1x128.Idx → EReal) j = ∑ r : Fin 100000, H (ix2 r (j 1)) := by
  subst e
  rfl
theorem colsumsqs1_of (V : (c : Dev nD) → (b : Ref sig .tc) → Buf (Elt Ideal) ((c : Thread nD τ).loc b)) (c : Dev nD)
    (H : S100000x128.Idx → EReal) (e : (V c main_v48 : S100000x128.Idx → EReal) = H) (j : S1x128.Idx) :
    (Cert.KernelIdeal.StatsValue.columnSumSqs1 V c : S1x128.Idx → EReal) j = ∑ r : Fin 100000, H (ix2 r (j 1)) * H (ix2 r (j 1)) := by
  subst e
  rfl

variable (m : (ℓ : Loc nD τ sig) → Buf (Elt Ideal) ℓ) (ρ : Dev nD → PrngReg)

/-- The first product kernel leaves the dense product of the node features with the first layer's weights. -/
theorem prod1_at4 (c : Dev nD) : W4 m ρ c (Proc.devRef .tc main_v32) = Cert.Gcn.dot128 (m ((c : Thread nD τ).loc main_arg0)) (m ((c : Thread nD τ).loc main_arg3)) := by
  refine (W4_arr m ρ c 2).trans ?_
  rw [Cert.KernelIdeal.MatmulValue.array0 (V3 m ρ) c]
  have e0 : V3 m ρ c main_arg0 = (m ((c : Thread nD τ).loc main_arg0)) := Cert.KernelIdeal.Keeps.keep_arg0_3_0 m ρ c
  have e3 : V3 m ρ c main_arg3 = (m ((c : Thread nD τ).loc main_arg3)) := Cert.KernelIdeal.Keeps.keep_arg3_3_0 m ρ c
  rw [e0, e3]
  exact (Cert.Gcn.dot128_eq _ _).symm

/-! ## Layer 1 -/

/-- Layer 1's convolution output, as a function of the arguments. -/
def conv1 (c : Dev nD) : FVec Ideal Cert.ReferenceIdeal.S100000x128 .f32 :=
  Cert.Gcn.conv128 (Cert.Gcn.dot128 (m ((c : Thread nD τ).loc main_arg0)) (m ((c : Thread nD τ).loc main_arg3))) (Cert.ReferenceIdeal.Read.val_main_v6 (F := Ideal) (m ((c : Thread nD τ).loc main_arg1))) (Cert.ReferenceIdeal.Read.val_main_v7 (F := Ideal) (m ((c : Thread nD τ).loc main_arg1))) (Cert.ReferenceIdeal.Read.val_main_v32 (F := Ideal) (m ((c : Thread nD τ).loc main_arg1)) (m ((c : Thread nD τ).loc main_arg2))) (m ((c : Thread nD τ).loc main_arg4))

/-- Layer 1's normalised, rectified activation, as a function of the arguments. -/
def act1 (c : Dev nD) : FVec Ideal Cert.ReferenceIdeal.S100000x128 .f32 :=
  Cert.Gcn.bnRelu (conv1 m c) (m ((c : Thread nD τ).loc main_arg9)) (m ((c : Thread nD τ).loc main_arg10))

/-- The dense product entering layer 2, as a function of the arguments. -/
def prod2 (c : Dev nD) : FVec Ideal Cert.ReferenceIdeal.S100000x128 .f32 :=
  Cert.Gcn.dot128 (act1 m c) (m ((c : Thread nD τ).loc main_arg5))

theorem src_at4 (c : Dev nD) : W4 m ρ c (Proc.devRef .tc main_v5) = (Cert.ReferenceIdeal.Read.val_main_v6 (F := Ideal) (m ((c : Thread nD τ).loc main_arg1))) :=
  (Cert.KernelIdeal.Keeps.keep_v5_4_2 m ρ c).trans (src_at2 m ρ c)
theorem dst_at4 (c : Dev nD) : W4 m ρ c (Proc.devRef .tc main_v6) = (Cert.ReferenceIdeal.Read.val_main_v7 (F := Ideal) (m ((c : Thread nD τ).loc main_arg1))) :=
  (Cert.KernelIdeal.Keeps.keep_v6_4_2 m ρ c).trans (dst_at2 m ρ c)
theorem norm_at4 (c : Dev nD) : W4 m ρ c (Proc.devRef .tc main_v31) = (Cert.ReferenceIdeal.Read.val_main_v32 (F := Ideal) (m ((c : Thread nD τ).loc main_arg1)) (m ((c : Thread nD τ).loc main_arg2))) :=
  (Cert.KernelIdeal.Keeps.keep_v31_4_3 m ρ c).trans (norm_at3 m ρ c)

/-- The convolution stretch leaves the layer's convolution output. -/
theorem conv1_at5 (c : Dev nD) : W5 m ρ c (Proc.devRef .tc main_v48) = (conv1 m c) := by
  refine (conv1_stretch (W4 m ρ c)).trans ?_
  rw [prod1_at4 m ρ c, src_at4 m ρ c, dst_at4 m ρ c, norm_at4 m ρ c, Cert.KernelIdeal.Keeps.keep_arg4_4_0 m ρ c]
  rfl

/-- The statistics kernel leaves the two column sums of the convolution output. -/
theorem sums1_at6 (c : Dev nD) :
    (∀ j : S1x128.Idx, (W6 m ρ c (Proc.devRef .tc main_v49_0) : S1x128.Idx → EReal) j = ∑ r : Fin 100000, (conv1 m c) (ix2 r (j 1)))
    ∧ (∀ j : S1x128.Idx, (W6 m ρ c (Proc.devRef .tc main_v49_1) : S1x128.Idx → EReal) j = ∑ r : Fin 100000, (conv1 m c) (ix2 r (j 1)) * (conv1 m c) (ix2 r (j 1))) := by
  have e : (V5 m ρ c main_v48 : S100000x128.Idx → EReal) = (conv1 m c) := conv1_at5 m ρ c
  refine ⟨fun j => ?_, fun j => ?_⟩
  · exact (congrFun ((W6_arr m ρ c 1).trans (Cert.KernelIdeal.StatsValue.result1_sum (V5 m ρ) c)) j).trans
      (colsums1_of (V5 m ρ) c _ e j)
  · exact (congrFun ((W6_arr m ρ c 2).trans (Cert.KernelIdeal.StatsValue.result1_sumsq (V5 m ρ) c)) j).trans
      (colsumsqs1_of (V5 m ρ) c _ e j)

/-- The statistics stretch: the mean row, the variance row, the scale and the shift as rows. -/
theorem mean1_at7 (c : Dev nD) : W7 m ρ c (Proc.devRef .tc main_v51) = kMean (W6 m ρ c (Proc.devRef .tc main_v49_0)) := mean1_stretch (W6 m ρ c)
theorem var1_at7 (c : Dev nD) : W7 m ρ c (Proc.devRef .tc main_v55) = kVar (W6 m ρ c (Proc.devRef .tc main_v49_0)) (W6 m ρ c (Proc.devRef .tc main_v49_1)) := var1_stretch (W6 m ρ c)
theorem scale1_at7 (c : Dev nD) : W7 m ρ c (Proc.devRef .tc main_v56) = kRow (m ((c : Thread nD τ).loc main_arg9)) :=
  (scale1_stretch (W6 m ρ c)).trans (congrArg kRow (Cert.KernelIdeal.Keeps.keep_arg9_6_0 m ρ c))
theorem shift1_at7 (c : Dev nD) : W7 m ρ c (Proc.devRef .tc main_v57) = kRow (m ((c : Thread nD τ).loc main_arg10)) :=
  (shift1_stretch (W6 m ρ c)).trans (congrArg kRow (Cert.KernelIdeal.Keeps.keep_arg10_6_0 m ρ c))

/-- The normalisation kernel leaves the reference's batch normalisation of the convolution output, when that
    output is an array of reals. -/
theorem act1_at8 (c : Dev nD) (hreal : AllReal (conv1 m c)) : W8 m ρ c (Proc.devRef .tc main_v58) = (act1 m c) := by
  refine (W8_arr m ρ c 5).trans ?_
  rw [Cert.KernelIdeal.BnReluValue.array2_eq (V7 m ρ) c]
  have e48 : V7 m ρ c main_v48 = (conv1 m c) := (Cert.KernelIdeal.Keeps.keep_v48_7_5 m ρ c).trans (conv1_at5 m ρ c)
  have em : V7 m ρ c main_v51 = kMean (W6 m ρ c (Proc.devRef .tc main_v49_0)) := mean1_at7 m ρ c
  have ev : V7 m ρ c main_v55 = kVar (W6 m ρ c (Proc.devRef .tc main_v49_0)) (W6 m ρ c (Proc.devRef .tc main_v49_1)) := var1_at7 m ρ c
  have eg : V7 m ρ c main_v56 = kRow (m ((c : Thread nD τ).loc main_arg9)) := scale1_at7 m ρ c
  have eb : V7 m ρ c main_v57 = kRow (m ((c : Thread nD τ).loc main_arg10)) := shift1_at7 m ρ c
  rw [e48, em, ev, eg, eb]
  exact bn_bridge (conv1 m c) hreal (m ((c : Thread nD τ).loc main_arg9)) (m ((c : Thread nD τ).loc main_arg10)) _ _ (sums1_at6 m ρ c).1 (sums1_at6 m ρ c).2

/-- The next layer's product kernel leaves the dense product of the activation with the layer's weights. -/
theorem prod2_at9 (c : Dev nD) (hreal : AllReal (conv1 m c)) : W9 m ρ c (Proc.devRef .tc main_v59) = prod2 m c := by
  refine (W9_arr m ρ c 2).trans ?_
  rw [Cert.KernelIdeal.MatmulValue.array3 (V8 m ρ) c]
  have ea : V8 m ρ c main_v58 = (act1 m c) := act1_at8 m ρ c hreal
  have ew : V8 m ρ c main_arg5 = (m ((c : Thread nD τ).loc main_arg5)) := Cert.KernelIdeal.Keeps.keep_arg5_8_0 m ρ c
  rw [ea, ew]
  exact (Cert.Gcn.dot128_eq _ _).symm

end Cert.KernelIdeal.Stages

end
-- ==== Proof.MatmulValue6.lean ====
/-
  The third product region, read as one array.

  The region walks the 100000 rows in 20 blocks of 5000. At point `t` it loads rows
  `5000·t … 5000·t+4999` of the left array (all 128 columns) and the whole [128,64] right array,
  and stores their product as the same rows of the [100000,64] result. Row `r` of the result is written once,
  by point `r / 5000`, and entry `(r, q)` there is `∑ k, left (r, k) * right (k, q)`: a row of the
  product reads only its own row of the left array. So after the 20 points the result array is the
  product of the two arrays as the region found them.
-/
import proofs.«161928_j20289425506400_1_alg».proof.Proof.Gen.KernelIdeal.Frame
import proofs.«161928_j20289425506400_1_alg».proof.Proof.MatmulEntry
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.MatmulValue

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The body's loads and its store start at the origin of their buffers. -/
theorem origin6 : (![0, 0] : Fin 2 → Nat) = fun _ => 0 := funext fun a => by fin_cases a <;> rfl

/-- The index maps, decided over the 20 points: the left array's block and the result's block at point `t`
    are both row block `t`, column block 0; the right array's block is always block (0, 0). -/
theorem blocks6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- WHAT POINT `t` WRITES BACK is block `t` of the product of the two arrays as the region finds them. -/
theorem flushed6_eq (c : Dev nD) (t : Fin cfg6.N) :
    (dat6 (F := Ideal) V c).flushed 2 t = ((cfg6.win 2).blk t).view.read (Elt Ideal) (product64 (V c main_v85) (V c main_arg7)) := by
  show (cfg6.win 2).cut (grid6.coords t) ((dat6 (F := Ideal) V c).after 2 t) = _
  rw [after6_2]
  unfold out6_2
  rw [View.canon_unit_zero origin6]
  simp only [View.ld_unit_zero (S := S5000x128) origin6, View.ld_unit_zero (S := S128x64) origin6]
  obtain ⟨e0, e1, e2, e3, e4, e5⟩ := blocks6 t
  funext j
  show k6_pay1 (F := Ideal) (iblk6 V c 0 t) (iblk6 V c 1 t) j = product64 (V c main_v85) (V c main_arg7) (((cfg6.win 2).blk t).view.emb j)
  refine (congrArg (k6_pay1 (F := Ideal) (iblk6 V c 0 t) (iblk6 V c 1 t)) (ValueIdx.eq_ix2 j)).trans ?_
  have hj0 : (j 0).val < 5000 := (j 0).isLt
  have hj1 : (j 1).val < 64 := (j 1).isLt
  refine k6_pay1_of_rows (V c main_v85) (V c main_arg7) (iblk6 V c 0 t) (iblk6 V c 1 t) (((cfg6.win 2).blk t).view.emb j) (j 0) (j 1) ?_ ?_
  · intro k
    have hk : k.val < 128 := k.isLt
    show V c main_v85 (((cfg6.win 0).blk t).view.emb (ValueIdx.ix2 (j 0) k)) = V c main_v85 (ValueIdx.ix2 ((((cfg6.win 2).blk t).view.emb j) 0) k)
    refine congrArg (V c main_v85) ?_
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  · intro k
    have hk : k.val < 128 := k.isLt
    show V c main_arg7 (((cfg6.win 1).blk t).view.emb (ValueIdx.ix2 k (j 1))) = V c main_arg7 (ValueIdx.ix2 k ((((cfg6.win 2).blk t).view.emb j) 1))
    refine congrArg (V c main_arg7) ?_
    funext a; apply Fin.ext
    match a with
    | ⟨0, _⟩ => show win6_1.index t (0 : Fin 2) * 128 + 1 * k.val = k.val; omega
    | ⟨1, _⟩ => show win6_1.index t (1 : Fin 2) * 64 + 1 * (j 1).val = win6_2.index t (1 : Fin 2) * 64 + 1 * (j 1).val; omega

/-- An index of the result array is in point `t`'s block iff each coordinate is in the block's range on its axis. -/
theorem mem_block6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v86).slice (win6_2.rect t)).set ↔ _
  rw [View.set_slice_whole, Rect.mem_set_unit]
  exact Iff.rfl

/-- Row `r` of the result is in the block of point `r / 5000`, and every point writes its block back. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 20 := N_6
  let t : Fin cfg6.N := ⟨(i 0).val / 5000, by rw [hN]; omega⟩
  have ht : t.val = (i 0).val / 5000 := rfl
  obtain ⟨e0, e1, e2, e3, e4, e5⟩ := blocks6 t
  refine ⟨t, flush6_2 t, ?_⟩
  rw [mem_block6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- THE RESULT ARRAY after the 20 points: the product of the two arrays as the region found them. -/
theorem array6 (c : Dev nD) :
    (dat6 (F := Ideal) V c).arrAt 2 cfg6.N = product64 (V c main_v85) (V c main_arg7) :=
  (dat6 (F := Ideal) V c).arrAt_eq_of_cover 2 _ (fun t _ => flushed6_eq V c t) cover6

/-- The same, entry by entry. -/
theorem value6 (c : Dev nD) (i : S100000x64.Idx) :
    (dat6 (F := Ideal) V c).arrAt 2 cfg6.N i = product64 (V c main_v85) (V c main_arg7) i :=
  congrFun (array6 V c) i

end Cert.KernelIdeal.MatmulValue

end
-- ==== Proof.StatsValue4.lean ====
/-
  The column statistics of a 100000 × 128 array, accumulated over 20 row blocks of 5000 rows.

  Two 1 × 128 blocks are carried from point to point. At the first point they are set to zero; at every point the column sums
  of the current 5000-row block are added to the first, and the column sums of its squares to the second. After point n the
  first therefore holds, at column q, the sum over the rows below 5000·(n+1) of the array at (row, q), and the second the sum of
  the squares over the same rows; after the last point these are the sums over all rows. The one write-back, after the last
  point, puts each carried block in its 1 × 128 result array.
-/
import proofs.«161928_j20289425506400_1_alg».proof.Proof.Gen.KernelIdeal.Frame
import proofs.«161928_j20289425506400_1_alg».proof.Proof.StatsEntry
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.StatsValue

open Idealize.ShloMosaic Idealize.ShloMosaic.TcCoe Idealize.SL.Sem Cert.KernelIdeal Cert.KernelIdeal.Gen
open Idealize.ShloMosaic.Pipeline (Dat Cfg Window)
open Idealize.ShloMosaic.ValueIdx (ix1 ix2 eq_ix2)

/-! ## What one point leaves in the carried blocks -/

section Pieces
variable {F : FTy → Type} [FloatOps F]

/-- The offset of a whole-buffer access. -/
theorem origin4 : (![0, 0] : Fin 2 → Nat) = fun _ => 0 := funext fun a => by fin_cases a <;> rfl

/-- A later point leaves in the first carried block its former contents plus the block's column sums. -/
theorem later4_sum (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero origin4]
  simp only [View.readAt_eq_ld, h1.read_unread, h2.read_unread, View.ld_unit_zero (S := S5000x128) origin4,
    View.ld_unit_zero (S := S1x128) origin4]

/-- A later point leaves in the second carried block its former contents plus the column sums of the block's squares. -/
theorem later4_sumsq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero origin4]
  simp only [View.readAt_eq_ld, h1.read_unread, h3.read_unread, View.ld_unit_zero (S := S5000x128) origin4,
    View.ld_unit_zero (S := S1x128) origin4]

/-- The first point leaves in the first carried block the zero block plus the block's column sums. -/
theorem first4_sum (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) origin4, View.readCov_unit_zero (S := S1x128) _ origin4]
  simp only [View.readAt_eq_ld, h1.read_unread, View.ld_unit_zero (S := S5000x128) origin4]

/-- The first point leaves in the second carried block the zero block plus the column sums of the block's squares. -/
theorem first4_sumsq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) origin4, View.readCov_unit_zero (S := S1x128) _ origin4]
  simp only [View.readAt_eq_ld, h1.read_unread, View.ld_unit_zero (S := S5000x128) origin4]

end Pieces

/-! ## The two updates at a column, over the extended reals -/

/-- The zero block is zero at every column. -/
theorem zero4_apply (q : Fin 128) : k4_pay1 (F := Ideal) (ix2 (0 : Fin 1) q) = 0 := Ideal.ofBits_zero_f32

theorem zero4'_apply (q : Fin 128) : k4_pay2 (F := Ideal) (ix2 (0 : Fin 1) q) = 0 := Ideal.ofBits_zero_f32

/-- The sum down column `q` of a 5000 × 128 block. -/
theorem blockColumnSum4 (x : Vec Ideal S5000x128 .f32) (q : Fin 128) :
    multiReduction (F := Ideal) .add [0] S128 x 0x00000000#32 reduces_S5000x128_S128 (.inl rfl) rfl (ix1 q)
      = ∑ p : Fin 5000, x (ix2 p q) := by
  refine (Ideal.multiReduction_add_single x _ reduces_S5000x128_S128 _ _ (ix1 q)).trans ?_
  refine Finset.sum_congr rfl fun p _ => ?_
  exact congrArg x (funext fun a => Fin.ext (by match a with | ⟨0, _⟩ => rfl | ⟨1, _⟩ => rfl))

/-- The first update at column `q`: the carried value plus the block's column sum. -/
theorem addColumnSum4 (x : Vec Ideal S5000x128 .f32) (acc : Vec Ideal S1x128 .f32) (q : Fin 128) :
    k4_pay4 (F := Ideal) x acc (ix2 (0 : Fin 1) q) = acc (ix2 (0 : Fin 1) q) + ∑ p : Fin 5000, x (ix2 p q) := by
  unfold k4_pay4 k4_pay3
  show (shapeCast S1x128 acc shapeCasts_S1x128_S1x128) (ix2 (0 : Fin 1) q)
      + shapeCast S1x128 (multiReduction (F := Ideal) .add [0] S128 (shapeCast S5000x128 x shapeCasts_S5000x128_S5000x128)
          0x00000000#32 reduces_S5000x128_S128 (.inl rfl) rfl) shapeCasts_S128_S1x128 (ix2 (0 : Fin 1) q) = _
  refine congrArg₂ (· + ·) (congrFun (shapeCast_self acc _) _) ?_
  refine (ValueIdx.shapeCast_a_1a_apply _ shapeCasts_S128_S1x128 (0 : Fin 1) q).trans ?_
  refine (congrArg (fun y => multiReduction (F := Ideal) .add [0] S128 y 0x00000000#32 reduces_S5000x128_S128 (.inl rfl) rfl (ix1 q))
    (shapeCast_self x _)).trans ?_
  exact blockColumnSum4 x q

/-- The second update at column `q`: the carried value plus the column sum of the block's squares. -/
theorem addColumnSumSq4 (x : Vec Ideal S5000x128 .f32) (acc : Vec Ideal S1x128 .f32) (q : Fin 128) :
    k4_pay5 (F := Ideal) x acc (ix2 (0 : Fin 1) q)
      = acc (ix2 (0 : Fin 1) q) + ∑ p : Fin 5000, x (ix2 p q) * x (ix2 p q) := by
  unfold k4_pay5 k4_pay3
  show (shapeCast S1x128 acc shapeCasts_S1x128_S1x128) (ix2 (0 : Fin 1) q)
      + shapeCast S1x128 (multiReduction (F := Ideal) .add [0] S128
          (mulf (shapeCast S5000x128 x shapeCasts_S5000x128_S5000x128) (shapeCast S5000x128 x shapeCasts_S5000x128_S5000x128))
          0x00000000#32 reduces_S5000x128_S128 (.inl rfl) rfl) shapeCasts_S128_S1x128 (ix2 (0 : Fin 1) q) = _
  refine congrArg₂ (· + ·) (congrFun (shapeCast_self acc _) _) ?_
  refine (ValueIdx.shapeCast_a_1a_apply _ shapeCasts_S128_S1x128 (0 : Fin 1) q).trans ?_
  refine (congrArg (fun y => multiReduction (F := Ideal) .add [0] S128 (mulf y y) 0x00000000#32 reduces_S5000x128_S128 (.inl rfl) rfl (ix1 q))
    (shapeCast_self x _)).trans ?_
  exact blockColumnSum4 (mulf x x : FVec Ideal S5000x128 .f32) q

/-- A later point at column `q`, both carried values. -/
theorem later4_sum_apply (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec Ideal S5000x128 .f32) (xo1 xo2 : Vec Ideal S1x128 .f32) (q : Fin 128) :
    out4_B_1 (F := Ideal) c i a1 h1 a2 h2 a3 h3 hc x xo1 xo2 (ix2 (0 : Fin 1) q)
      = xo1 (ix2 (0 : Fin 1) q) + ∑ p : Fin 5000, x (ix2 p q) :=
  (congrFun (later4_sum c i a1 h1 a2 h2 a3 h3 hc x xo1 xo2) (ix2 (0 : Fin 1) q)).trans (addColumnSum4 x xo1 q)

theorem later4_sumsq_apply (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec Ideal S5000x128 .f32) (xo1 xo2 : Vec Ideal S1x128 .f32) (q : Fin 128) :
    out4_B_2 (F := Ideal) c i a1 h1 a2 h2 a3 h3 hc x xo1 xo2 (ix2 (0 : Fin 1) q)
      = xo2 (ix2 (0 : Fin 1) q) + ∑ p : Fin 5000, x (ix2 p q) * x (ix2 p q) :=
  (congrFun (later4_sumsq c i a1 h1 a2 h2 a3 h3 hc x xo1 xo2) (ix2 (0 : Fin 1) q)).trans (addColumnSumSq4 x xo2 q)

/-- The first point at column `q`: the block's column sum and column sum of squares, added to zero. -/
theorem first4_sum_apply (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec Ideal S5000x128 .f32) (q : Fin 128) :
    out4_A_1 (F := Ideal) c i a1 h1 a2 h2 a3 h3 hc x (ix2 (0 : Fin 1) q) = 0 + ∑ p : Fin 5000, x (ix2 p q) :=
  ((congrFun (first4_sum c i a1 h1 a2 h2 a3 h3 hc x) (ix2 (0 : Fin 1) q)).trans
    (addColumnSum4 x (k4_pay1 (F := Ideal)) q)).trans (congrArg (fun z => z + ∑ p : Fin 5000, x (ix2 p q)) (zero4_apply q))

theorem first4_sumsq_apply (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec Ideal S5000x128 .f32) (q : Fin 128) :
    out4_A_2 (F := Ideal) c i a1 h1 a2 h2 a3 h3 hc x (ix2 (0 : Fin 1) q)
      = 0 + ∑ p : Fin 5000, x (ix2 p q) * x (ix2 p q) :=
  ((congrFun (first4_sumsq c i a1 h1 a2 h2 a3 h3 hc x) (ix2 (0 : Fin 1) q)).trans
    (addColumnSumSq4 x (k4_pay2 (F := Ideal)) q)).trans
    (congrArg (fun z => z + ∑ p : Fin 5000, x (ix2 p q) * x (ix2 p q)) (zero4'_apply q))

/-! ## The blocks of the array, and the carried blocks after each point -/

section Run
variable (V : (c : Dev nD) → (b : Ref sig .tc) → Buf (Elt Ideal) ((c : Thread nD τ).loc b))

/-- Where the windows sit, decided over the grid: row block `t` of the array starts at row 5000·t and spans all columns; each
    result has one block, at the origin. -/
theorem blockPlaces4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- Row `p`, column `q` of row block `t` is row 5000·t + p, column `q` of the array. -/
theorem block4_apply (c : Dev nD) (t : Fin cfg4.N) (p : Fin 5000) (q : Fin 128) :
    (iblk4 (F := Ideal) V c 0 t : Vec Ideal S5000x128 .f32) (ix2 p q)
      = (V c main_v75 : S100000x128.Idx → EReal)
          (ix2 (⟨5000 * t.val + p.val, by
            have := p.isLt; have := lt_of_lt_of_eq t.isLt (show cfg4.N = 20 from N_4); omega⟩ : Fin 100000) q) := by
  unfold iblk4
  show (V c main_v75 : S100000x128.Idx → EReal) (((cfg4.win 0).blk t).view.emb (ix2 p q)) = _
  refine congrArg (V c main_v75 : S100000x128.Idx → EReal) (funext fun a => Fin.ext ?_)
  obtain ⟨e0, e1, -⟩ := blockPlaces4 t
  match a with
  | ⟨0, _⟩ => show win4_0.index t (0 : Fin 2) * 5000 + 1 * p.val = 5000 * t.val + p.val; omega
  | ⟨1, _⟩ => show win4_0.index t (1 : Fin 2) * 128 + 1 * q.val = q.val; omega

/-- Column `q` of the array, as a function of the row. -/
abbrev column4 (c : Dev nD) (q : Fin 128) : Fin 100000 → EReal :=
  fun r => (V c main_v75 : S100000x128.Idx → EReal) (ix2 r q)

/-- After point `n` the carried blocks hold, at column `q`, the sum and the sum of squares of the column over the rows of
    blocks 0 … n: by induction on the point. -/
theorem carried4 (c : Dev nD) (q : Fin 128) : ∀ (n : ℕ) (h : n < cfg4.N),
    (outsAt4 (F := Ideal) V c n h).1 (ix2 (0 : Fin 1) q) = rowsBelow (column4 V c q) (n + 1)
    ∧ (outsAt4 (F := Ideal) V c n h).2 (ix2 (0 : Fin 1) q) = rowsBelow (fun r => column4 V c q r * column4 V c q r) (n + 1)
  | 0, h => by
    rw [outsAt4_A (F := Ideal) V c ⟨0, h⟩ rfl]
    dsimp only
    constructor
    · refine (first4_sum_apply c (grid4.coords ⟨0, h⟩) (ms4_0 ⟨0, h⟩) (hs4_0 ⟨0, h⟩) (ms4_1 ⟨0, h⟩) (hs4_1 ⟨0, h⟩)
        (ms4_2 ⟨0, h⟩) (hs4_2 ⟨0, h⟩) _ (iblk4 V c 0 ⟨0, h⟩) q).trans ?_
      rw [rowsBelow_succ _ 0 (by omega), rowsBelow_zero]
      refine congrArg (fun s => (0 : EReal) + s) (Finset.sum_congr rfl fun p _ => ?_)
      exact block4_apply V c ⟨0, h⟩ p q
    · refine (first4_sumsq_apply c (grid4.coords ⟨0, h⟩) (ms4_0 ⟨0, h⟩) (hs4_0 ⟨0, h⟩) (ms4_1 ⟨0, h⟩) (hs4_1 ⟨0, h⟩)
        (ms4_2 ⟨0, h⟩) (hs4_2 ⟨0, h⟩) _ (iblk4 V c 0 ⟨0, h⟩) q).trans ?_
      rw [rowsBelow_succ _ 0 (by omega), rowsBelow_zero]
      refine congrArg (fun s => (0 : EReal) + s) (Finset.sum_congr rfl fun p _ => ?_)
      exact congrArg₂ (· * ·) (block4_apply V c ⟨0, h⟩ p q) (block4_apply V c ⟨0, h⟩ p q)
  | n + 1, h => by
    have hN : n + 1 < 20 := lt_of_lt_of_eq h (show cfg4.N = 20 from N_4)
    have hB : ¬(⟨n + 1, h⟩ : Fin cfg4.N).val % 20 = 0 := by dsimp only; omega
    obtain ⟨ih1, ih2⟩ := carried4 c q n (Nat.lt_of_succ_lt h)
    rw [outsAt4_B (F := Ideal) V c ⟨n + 1, h⟩ hB]
    dsimp only
    constructor
    · refine (later4_sum_apply c (grid4.coords ⟨n + 1, h⟩) (ms4_0 ⟨n + 1, h⟩) (hs4_0 ⟨n + 1, h⟩) (ms4_1 ⟨n + 1, h⟩)
        (hs4_1 ⟨n + 1, h⟩) (ms4_2 ⟨n + 1, h⟩) (hs4_2 ⟨n + 1, h⟩) _ (iblk4 V c 0 ⟨n + 1, h⟩) _ _ q).trans ?_
      rw [rowsBelow_succ _ (n + 1) hN]
      refine congrArg₂ (· + ·) ih1 (Finset.sum_congr rfl fun p _ => ?_)
      exact block4_apply V c ⟨n + 1, h⟩ p q
    · refine (later4_sumsq_apply c (grid4.coords ⟨n + 1, h⟩) (ms4_0 ⟨n + 1, h⟩) (hs4_0 ⟨n + 1, h⟩) (ms4_1 ⟨n + 1, h⟩)
        (hs4_1 ⟨n + 1, h⟩) (ms4_2 ⟨n + 1, h⟩) (hs4_2 ⟨n + 1, h⟩) _ (iblk4 V c 0 ⟨n + 1, h⟩) _ _ q).trans ?_
      rw [rowsBelow_succ _ (n + 1) hN]
      refine congrArg₂ (· + ·) ih2 (Finset.sum_congr rfl fun p _ => ?_)
      exact congrArg₂ (· * ·) (block4_apply V c ⟨n + 1, h⟩ p q) (block4_apply V c ⟨n + 1, h⟩ p q)

/-! ## The result arrays -/

/-- The column sums of the array, as a 1 × 128 array. -/
abbrev columnSums4 (c : Dev nD) : Buf (Elt Ideal) ((c : Thread nD τ).loc main_v76_0) :=
  fun (j : S1x128.Idx) => (∑ r : Fin 100000, column4 V c (j 1) r : EReal)

/-- The column sums of the squares of the array, as a 1 × 128 array. -/
abbrev columnSumSqs4 (c : Dev nD) : Buf (Elt Ideal) ((c : Thread nD τ).loc main_v76_1) :=
  fun (j : S1x128.Idx) => (∑ r : Fin 100000, column4 V c (j 1) r * column4 V c (j 1) r : EReal)

/-- The last point, the one after which the carried blocks are written back. -/
abbrev lastPoint4 : Fin cfg4.N := ⟨19, lt_of_lt_of_eq (by decide : 19 < 20) N_4.symm⟩

/-- An index of a 1 × 128 block is (0, its column). -/
theorem rowZero4 (j : S1x128.Idx) : j = ix2 (n0 := 1) (n1 := 128) (0 : Fin 1) (j 1) :=
  funext fun a => by
    match a with
    | ⟨0, _⟩ => exact Fin.ext (by have h : (j 0).val < 1 := (j 0).isLt; show (j 0).val = 0; omega)
    | ⟨1, _⟩ => rfl

/-- After the last point the carried blocks are the column sums and the column sums of squares. -/
theorem carriedLast4_sum (c : Dev nD) :
    (outsAt4 (F := Ideal) V c lastPoint4.val lastPoint4.isLt).1 = columnSums4 V c := by
  funext j
  refine (congrArg (outsAt4 (F := Ideal) V c lastPoint4.val lastPoint4.isLt).1 (rowZero4 j)).trans ?_
  refine ((carried4 V c (j 1 : Fin 128) lastPoint4.val lastPoint4.isLt).1).trans ?_
  exact rowsBelow_all _

theorem carriedLast4_sumsq (c : Dev nD) :
    (outsAt4 (F := Ideal) V c lastPoint4.val lastPoint4.isLt).2 = columnSumSqs4 V c := by
  funext j
  refine (congrArg (outsAt4 (F := Ideal) V c lastPoint4.val lastPoint4.isLt).2 (rowZero4 j)).trans ?_
  refine ((carried4 V c (j 1 : Fin 128) lastPoint4.val lastPoint4.isLt).2).trans ?_
  exact rowsBelow_all _

/-- What the write-back of the first result writes is the column sums, read through the result's one block, which is the
    whole 1 × 128 array. -/
theorem written4_sum (c : Dev nD) (t : Fin cfg4.N) (hf : (cfg4.win 1).flush t = true) :
    (dat4 (F := Ideal) V c).flushed 1 t = ((cfg4.win 1).blk t).view.read (Elt Ideal) (columnSums4 V c) := by
  have hN : t.val < 20 := lt_of_lt_of_eq t.isLt (show cfg4.N = 20 from N_4)
  have h19 : t.val = 19 := by have := (flush4_1 t).mp hf; omega
  obtain rfl : t = lastPoint4 := Fin.ext h19
  show (cfg4.win 1).cut (grid4.coords lastPoint4) ((dat4 (F := Ideal) V c).after 1 lastPoint4) = _
  rw [after4_1, carriedLast4_sum]
  have hz' : (fun a => win4_1.index lastPoint4 a * main_v76_0.ty.shape.size a) = fun _ => 0 :=
    funext fun a => by fin_cases a <;> decide +kernel
  exact (Memref.read_access_unit_zero (Elt Ideal) main_v76_0 hz' (fun a => by rw [congrFun hz' a]; simp) (columnSums4 V c)).symm

/-- What the write-back of the second result writes is the column sums of squares, likewise. -/
theorem written4_sumsq (c : Dev nD) (t : Fin cfg4.N) (hf : (cfg4.win 2).flush t = true) :
    (dat4 (F := Ideal) V c).flushed 2 t = ((cfg4.win 2).blk t).view.read (Elt Ideal) (columnSumSqs4 V c) := by
  have hN : t.val < 20 := lt_of_lt_of_eq t.isLt (show cfg4.N = 20 from N_4)
  have h19 : t.val = 19 := by have := (flush4_2 t).mp hf; omega
  obtain rfl : t = lastPoint4 := Fin.ext h19
  show (cfg4.win 2).cut (grid4.coords lastPoint4) ((dat4 (F := Ideal) V c).after 2 lastPoint4) = _
  rw [after4_2, carriedLast4_sumsq]
  have hz' : (fun a => win4_2.index lastPoint4 a * main_v76_1.ty.shape.size a) = fun _ => 0 :=
    funext fun a => by fin_cases a <;> decide +kernel
  exact (Memref.read_access_unit_zero (Elt Ideal) main_v76_1 hz' (fun a => by rw [congrFun hz' a]; simp) (columnSumSqs4 V c)).symm

/-- An index of the first result is in point `t`'s block iff each coordinate is in the block's range on its axis. -/
theorem mem_result4_sum (t : Fin cfg4.N) (i : S1x128.Idx) :
    i ∈ ((cfg4.win 1).blk t).view.set ↔ ∀ a : Fin 2, win4_1.index t a * S1x128.size a ≤ (i a).val
      ∧ (i a).val < win4_1.index t a * S1x128.size a + S1x128.size a := by
  show i ∈ ((View.whole main_v76_0).slice (win4_1.rect t)).set ↔ _
  rw [View.set_slice_whole, Rect.mem_set_unit]
  exact Iff.rfl

theorem mem_result4_sumsq (t : Fin cfg4.N) (i : S1x128.Idx) :
    i ∈ ((cfg4.win 2).blk t).view.set ↔ ∀ a : Fin 2, win4_2.index t a * S1x128.size a ≤ (i a).val
      ∧ (i a).val < win4_2.index t a * S1x128.size a + S1x128.size a := by
  show i ∈ ((View.whole main_v76_1).slice (win4_2.rect t)).set ↔ _
  rw [View.set_slice_whole, Rect.mem_set_unit]
  exact Iff.rfl

/-- The first result array ends holding the column sums: the last point's one block is the whole array. -/
theorem result4_sum (c : Dev nD) : (dat4 (F := Ideal) V c).arrAt 1 cfg4.N = columnSums4 V c :=
  (dat4 (F := Ideal) V c).arrAt_eq_of_cover 1 (columnSums4 V c) (written4_sum V c) fun i =>
    ⟨lastPoint4, (flush4_1 lastPoint4).mpr rfl, by
      rw [mem_result4_sum]
      obtain ⟨-, -, e2, e3, -⟩ := blockPlaces4 lastPoint4
      have h0 : ((i : S1x128.Idx) 0).val < 1 := ((i : S1x128.Idx) 0).isLt
      have h1 : ((i : S1x128.Idx) 1).val < 128 := ((i : S1x128.Idx) 1).isLt
      intro a
      match a with
      | ⟨0, _⟩ => show win4_1.index lastPoint4 (0 : Fin 2) * 1 ≤ ((i : S1x128.Idx) 0).val
          ∧ ((i : S1x128.Idx) 0).val < win4_1.index lastPoint4 (0 : Fin 2) * 1 + 1; omega
      | ⟨1, _⟩ => show win4_1.index lastPoint4 (1 : Fin 2) * 128 ≤ ((i : S1x128.Idx) 1).val
          ∧ ((i : S1x128.Idx) 1).val < win4_1.index lastPoint4 (1 : Fin 2) * 128 + 128; omega⟩

/-- The second result array ends holding the column sums of squares. -/
theorem result4_sumsq (c : Dev nD) : (dat4 (F := Ideal) V c).arrAt 2 cfg4.N = columnSumSqs4 V c :=
  (dat4 (F := Ideal) V c).arrAt_eq_of_cover 2 (columnSumSqs4 V c) (written4_sumsq V c) fun i =>
    ⟨lastPoint4, (flush4_2 lastPoint4).mpr rfl, by
      rw [mem_result4_sumsq]
      obtain ⟨-, -, -, -, e4, e5⟩ := blockPlaces4 lastPoint4
      have h0 : ((i : S1x128.Idx) 0).val < 1 := ((i : S1x128.Idx) 0).isLt
      have h1 : ((i : S1x128.Idx) 1).val < 128 := ((i : S1x128.Idx) 1).isLt
      intro a
      match a with
      | ⟨0, _⟩ => show win4_2.index lastPoint4 (0 : Fin 2) * 1 ≤ ((i : S1x128.Idx) 0).val
          ∧ ((i : S1x128.Idx) 0).val < win4_2.index lastPoint4 (0 : Fin 2) * 1 + 1; omega
      | ⟨1, _⟩ => show win4_2.index lastPoint4 (1 : Fin 2) * 128 ≤ ((i : S1x128.Idx) 1).val
          ∧ ((i : S1x128.Idx) 1).val < win4_2.index lastPoint4 (1 : Fin 2) * 128 + 128; omega⟩

/-- After the region the first result holds, at column `q`, the sum of column `q` of the array over all its rows. -/
theorem colsum4 (c : Dev nD) (q : Fin 128) :
    ((dat4 (F := Ideal) V c).arrAt 1 cfg4.N : S1x128.Idx → EReal) (ix2 (0 : Fin 1) q)
      = ∑ r : Fin 100000, column4 V c q r :=
  congrFun (result4_sum V c) (ix2 (0 : Fin 1) q)

/-- After the region the second result holds, at column `q`, the sum of the squares of column `q` over all rows. -/
theorem colsumsq4 (c : Dev nD) (q : Fin 128) :
    ((dat4 (F := Ideal) V c).arrAt 2 cfg4.N : S1x128.Idx → EReal) (ix2 (0 : Fin 1) q)
      = ∑ r : Fin 100000, column4 V c q r * column4 V c q r :=
  congrFun (result4_sumsq V c) (ix2 (0 : Fin 1) q)

end Run

end Cert.KernelIdeal.StatsValue
-- ==== Proof.BnReluValue5.lean ====
import proofs.«161928_j20289425506400_1_alg».proof.Proof.Gen.KernelIdeal.Frame
import proofs.«161928_j20289425506400_1_alg».proof.Proof.BnReluEntry
import Idealize.ShloMosaic.Lib.Pipeline.Value

set_option maxRecDepth 16384

noncomputable section

namespace Cert.KernelIdeal.BnReluValue

open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- What region 5 leaves in its result array, index by index: `bnRelu` of the input's entry at `i` and of
    the mean, variance, gain and offset rows at `i`'s column, all as the region finds them. -/
def normalised5 (c : Dev nD) : S100000x128.Idx → EReal := fun i =>
  bnRelu ((V c main_v75 : S100000x128.Idx → EReal) i)
    ((V c main_v78 : S1x128.Idx → EReal) (ix2 (0 : Fin 1) (i 1)))
    ((V c main_v82 : S1x128.Idx → EReal) (ix2 (0 : Fin 1) (i 1)))
    ((V c main_v83 : S1x128.Idx → EReal) (ix2 (0 : Fin 1) (i 1)))
    ((V c main_v84 : S1x128.Idx → EReal) (ix2 (0 : Fin 1) (i 1)))

/-- The index maps over the grid: the input's row block moves with the result's, the four per-column rows stay at
    block (0, 0), and point `t`'s result block is row block `t`, column block 0. -/
theorem blockIndex5 : ∀ t : Fin cfg5.N,
    win5_0.index t (0 : Fin 2) = win5_5.index t (0 : Fin 2) ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of `normalised5`: rows 5000·t … 5000·t+4999, all 128 columns. -/
theorem flushed5 (c : Dev nD) (t : Fin cfg5.N) :
    (dat5 (F := Ideal) V c).flushed 5 t = ((cfg5.win 5).blk t).view.read (Elt Ideal) (normalised5 V c) := by
  show (cfg5.win 5).cut (grid5.coords t) ((dat5 (F := Ideal) V c).after 5 t) = _
  rw [after5_5]
  unfold out5_5
  rw [View.canon_unit_zero origin]
  simp only [View.ld_unit_zero (S := S5000x128) origin, View.ld_unit_zero (S := S1x128) origin]
  obtain ⟨e00, e01, e10, e11, e20, e21, e30, e31, e40, e41, e50, e51⟩ := blockIndex5 t
  funext j
  show k5_pay1 (F := Ideal) (iblk5 V c 1 t) (iblk5 V c 2 t) (iblk5 V c 3 t) (iblk5 V c 4 t) (iblk5 V c 0 t) j
      = normalised5 V c (((cfg5.win 5).blk t).view.emb j)
  refine (k5_pay1_at (iblk5 V c 1 t) (iblk5 V c 2 t) (iblk5 V c 3 t) (iblk5 V c 4 t) (iblk5 V c 0 t) j).trans ?_
  unfold normalised5
  have hj0 : (j 0).val < 5000 := (j 0).isLt
  have hj1 : (j 1).val < 128 := (j 1).isLt
  refine bnRelu_congr ?_ ?_ ?_ ?_ ?_
  · show V c main_v75 (((cfg5.win 0).blk t).view.emb j) = V c main_v75 (((cfg5.win 5).blk t).view.emb j)
    refine congrArg (V c main_v75) ?_
    funext a; apply Fin.ext
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 128 + 1 * (j 1).val = win5_5.index t (1 : Fin 2) * 128 + 1 * (j 1).val; omega
  · show V c main_v78 (((cfg5.win 1).blk t).view.emb (ix2 (0 : Fin 1) (j 1))) = V c main_v78 (ix2 (0 : Fin 1) ((((cfg5.win 5).blk t).view.emb j) 1))
    refine congrArg (V c main_v78) ?_
    funext a; apply Fin.ext
    match a with
    | ⟨0, _⟩ => show win5_1.index t (0 : Fin 2) * 1 + 1 * 0 = 0; omega
    | ⟨1, _⟩ => show win5_1.index t (1 : Fin 2) * 128 + 1 * (j 1).val = win5_5.index t (1 : Fin 2) * 128 + 1 * (j 1).val; omega
  · show V c main_v82 (((cfg5.win 2).blk t).view.emb (ix2 (0 : Fin 1) (j 1))) = V c main_v82 (ix2 (0 : Fin 1) ((((cfg5.win 5).blk t).view.emb j) 1))
    refine congrArg (V c main_v82) ?_
    funext a; apply Fin.ext
    match a with
    | ⟨0, _⟩ => show win5_2.index t (0 : Fin 2) * 1 + 1 * 0 = 0; omega
    | ⟨1, _⟩ => show win5_2.index t (1 : Fin 2) * 128 + 1 * (j 1).val = win5_5.index t (1 : Fin 2) * 128 + 1 * (j 1).val; omega
  · show V c main_v83 (((cfg5.win 3).blk t).view.emb (ix2 (0 : Fin 1) (j 1))) = V c main_v83 (ix2 (0 : Fin 1) ((((cfg5.win 5).blk t).view.emb j) 1))
    refine congrArg (V c main_v83) ?_
    funext a; apply Fin.ext
    match a with
    | ⟨0, _⟩ => show win5_3.index t (0 : Fin 2) * 1 + 1 * 0 = 0; omega
    | ⟨1, _⟩ => show win5_3.index t (1 : Fin 2) * 128 + 1 * (j 1).val = win5_5.index t (1 : Fin 2) * 128 + 1 * (j 1).val; omega
  · show V c main_v84 (((cfg5.win 4).blk t).view.emb (ix2 (0 : Fin 1) (j 1))) = V c main_v84 (ix2 (0 : Fin 1) ((((cfg5.win 5).blk t).view.emb j) 1))
    refine congrArg (V c main_v84) ?_
    funext a; apply Fin.ext
    match a with
    | ⟨0, _⟩ => show win5_4.index t (0 : Fin 2) * 1 + 1 * 0 = 0; omega
    | ⟨1, _⟩ => show win5_4.index t (1 : Fin 2) * 128 + 1 * (j 1).val = win5_5.index t (1 : Fin 2) * 128 + 1 * (j 1).val; omega

/-- An index of the result array is in point `t`'s block iff each coordinate is in the block's range on its axis. -/
theorem mem_block5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v85).slice (win5_5.rect t)).set ↔ _
  rw [View.set_slice_whole, Rect.mem_set_unit]
  exact Iff.rfl

/-- The 20 row blocks fill the result array: row `r` is in the block of point `r / 5000`. -/
theorem covered5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, -, -, -, -, -, -, e50, e51⟩ := blockIndex5 t
  refine ⟨t, flush5_5 t, ?_⟩
  rw [mem_block5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The result array after the region's 20 points is `normalised5`. -/
theorem array5 (c : Dev nD) : (dat5 (F := Ideal) V c).arrAt 5 cfg5.N = normalised5 V c :=
  (dat5 (F := Ideal) V c).arrAt_eq_of_cover 5 (normalised5 V c) (fun t _ => flushed5 V c t) covered5

/-- The same, with the five arrays the region finds passed as plain functions of their indices. -/
theorem array5_eq (c : Dev nD) :
    (dat5 (F := Ideal) V c).arrAt 5 cfg5.N
      = bnReluArr (V c main_v75) (V c main_v78) (V c main_v82) (V c main_v83) (V c main_v84) :=
  (array5 V c).trans rfl

/-- The result of region 5 at an index: the input's entry there, normalised by its column's mean, variance, gain
    and offset, then rectified (`bnReluArr_apply` writes the right-hand side out). -/
theorem value5 (c : Dev nD) (i : S100000x128.Idx) :
    (dat5 (F := Ideal) V c).arrAt 5 cfg5.N i
      = bnReluArr (V c main_v75) (V c main_v78) (V c main_v82) (V c main_v83) (V c main_v84) i := by
  rw [array5]; rfl

end Cert.KernelIdeal.BnReluValue

end
-- ==== Proof.Stages2.lean ====
/-
  The kernel's second layer, by the same steps as the first: convolution stretch, statistics kernel, statistics
  stretch, normalisation kernel, and the third product kernel (64 output features).
-/
import proofs.«161928_j20289425506400_1_alg».proof.Proof.Stages1
import proofs.«161928_j20289425506400_1_alg».proof.Proof.MatmulValue6
import proofs.«161928_j20289425506400_1_alg».proof.Proof.StatsValue4
import proofs.«161928_j20289425506400_1_alg».proof.Proof.BnReluValue5
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo Idealize.ShloMosaic.ValueIdx
open Cert.KernelIdeal Cert.KernelIdeal.Gen Cert.Finite

set_option maxHeartbeats 1000000 in
/-- The convolution stretch, from any contents at its entry: the generic graph convolution of the product buffer,
    the two index vectors, the edge normalisation and the bias it reads. -/
theorem conv2_stretch (W : Valuation τ sig (Elt Ideal)) :
    StableHlo.after hostOps4 W (Proc.devRef .tc main_v75)
      = Cert.Gcn.conv128 (W (Proc.devRef .tc main_v59)) (W (Proc.devRef .tc main_v5)) (W (Proc.devRef .tc main_v6)) (W (Proc.devRef .tc main_v31)) (W (Proc.devRef .tc main_arg6)) := by
  after_results
  rfl

/-- The statistics stretch, from any contents at its entry: the mean row, the variance row, and the scale and the
    shift reshaped to rows. -/
theorem mean2_stretch (W : Valuation τ sig (Elt Ideal)) : StableHlo.after hostOps5 W (Proc.devRef .tc main_v78) = kMean (W (Proc.devRef .tc main_v76_0)) := by
  after_results
  rfl
theorem var2_stretch (W : Valuation τ sig (Elt Ideal)) : StableHlo.after hostOps5 W (Proc.devRef .tc main_v82) = kVar (W (Proc.devRef .tc main_v76_0)) (W (Proc.devRef .tc main_v76_1)) := by
  after_results
  rfl
theorem scale2_stretch (W : Valuation τ sig (Elt Ideal)) : StableHlo.after hostOps5 W (Proc.devRef .tc main_v83) = kRow (W (Proc.devRef .tc main_arg11)) := by
  after_results
  rfl
theorem shift2_stretch (W : Valuation τ sig (Elt Ideal)) : StableHlo.after hostOps5 W (Proc.devRef .tc main_v84) = kRow (W (Proc.devRef .tc main_arg12)) := by
  after_results
  rfl

/-- The statistics kernel's two result arrays, when the array it reads is `H`: the column sums of `H` and of its squares. -/
theorem colsums2_of (V : (c : Dev nD) → (b : Ref sig .tc) → Buf (Elt Ideal) ((c : Thread nD τ).loc b)) (c : Dev nD)
    (H : S100000x128.Idx → EReal) (e : (V c main_v75 : S100000x128.Idx → EReal) = H) (j : S1x128.Idx) :
    (Cert.KernelIdeal.StatsValue.columnSums4 V c : S1x128.Idx → EReal) j = ∑ r : Fin 100000, H (ix2 r (j 1)) := by
  subst e
  rfl
theorem colsumsqs2_of (V : (c : Dev nD) → (b : Ref sig .tc) → Buf (Elt Ideal) ((c : Thread nD τ).loc b)) (c : Dev nD)
    (H : S100000x128.Idx → EReal) (e : (V c main_v75 : S100000x128.Idx → EReal) = H) (j : S1x128.Idx) :
    (Cert.KernelIdeal.StatsValue.columnSumSqs4 V c : S1x128.Idx → EReal) j = ∑ r : Fin 100000, H (ix2 r (j 1)) * H (ix2 r (j 1)) := by
  subst e
  rfl

variable (m : (ℓ : Loc nD τ sig) → Buf (Elt Ideal) ℓ) (ρ : Dev nD → PrngReg)

/-! ## Layer 2 -/

/-- Layer 2's convolution output, as a function of the arguments. -/
def conv2 (c : Dev nD) : FVec Ideal Cert.ReferenceIdeal.S100000x128 .f32 :=
  Cert.Gcn.conv128 (prod2 m c) (Cert.ReferenceIdeal.Read.val_main_v6 (F := Ideal) (m ((c : Thread nD τ).loc main_arg1))) (Cert.ReferenceIdeal.Read.val_main_v7 (F := Ideal) (m ((c : Thread nD τ).loc main_arg1))) (Cert.ReferenceIdeal.Read.val_main_v32 (F := Ideal) (m ((c : Thread nD τ).loc main_arg1)) (m ((c : Thread nD τ).loc main_arg2))) (m ((c : Thread nD τ).loc main_arg6))

/-- Layer 2's normalised, rectified activation, as a function of the arguments. -/
def act2 (c : Dev nD) : FVec Ideal Cert.ReferenceIdeal.S100000x128 .f32 :=
  Cert.Gcn.bnRelu (conv2 m c) (m ((c : Thread nD τ).loc main_arg11)) (m ((c : Thread nD τ).loc main_arg12))

/-- The dense product entering layer 3, as a function of the arguments. -/
def prod3 (c : Dev nD) : FVec Ideal Cert.ReferenceIdeal.S100000x64 .f32 :=
  Cert.Gcn.dot64 (act2 m c) (m ((c : Thread nD τ).loc main_arg7))

theorem src_at9 (c : Dev nD) : W9 m ρ c (Proc.devRef .tc main_v5) = (Cert.ReferenceIdeal.Read.val_main_v6 (F := Ideal) (m ((c : Thread nD τ).loc main_arg1))) :=
  (Cert.KernelIdeal.Keeps.keep_v5_9_4 m ρ c).trans (src_at4 m ρ c)
theorem dst_at9 (c : Dev nD) : W9 m ρ c (Proc.devRef .tc main_v6) = (Cert.ReferenceIdeal.Read.val_main_v7 (F := Ideal) (m ((c : Thread nD τ).loc main_arg1))) :=
  (Cert.KernelIdeal.Keeps.keep_v6_9_4 m ρ c).trans (dst_at4 m ρ c)
theorem norm_at9 (c : Dev nD) : W9 m ρ c (Proc.devRef .tc main_v31) = (Cert.ReferenceIdeal.Read.val_main_v32 (F := Ideal) (m ((c : Thread nD τ).loc main_arg1)) (m ((c : Thread nD τ).loc main_arg2))) :=
  (Cert.KernelIdeal.Keeps.keep_v31_9_4 m ρ c).trans (norm_at4 m ρ c)

/-- The convolution stretch leaves the layer's convolution output. -/
theorem conv2_at10 (c : Dev nD) (hr1 : AllReal (conv1 m c)) : W10 m ρ c (Proc.devRef .tc main_v75) = (conv2 m c) := by
  refine (conv2_stretch (W9 m ρ c)).trans ?_
  rw [prod2_at9 m ρ c hr1, src_at9 m ρ c, dst_at9 m ρ c, norm_at9 m ρ c, Cert.KernelIdeal.Keeps.keep_arg6_9_0 m ρ c]
  rfl

/-- The statistics kernel leaves the two column sums of the convolution output. -/
theorem sums2_at11 (c : Dev nD) (hr1 : AllReal (conv1 m c)) :
    (∀ j : S1x128.Idx, (W11 m ρ c (Proc.devRef .tc main_v76_0) : S1x128.Idx → EReal) j = ∑ r : Fin 100000, (conv2 m c) (ix2 r (j 1)))
    ∧ (∀ j : S1x128.Idx, (W11 m ρ c (Proc.devRef .tc main_v76_1) : S1x128.Idx → EReal) j = ∑ r : Fin 100000, (conv2 m c) (ix2 r (j 1)) * (conv2 m c) (ix2 r (j 1))) := by
  have e : (V10 m ρ c main_v75 : S100000x128.Idx → EReal) = (conv2 m c) := conv2_at10 m ρ c hr1
  refine ⟨fun j => ?_, fun j => ?_⟩
  · exact (congrFun ((W11_arr m ρ c 1).trans (Cert.KernelIdeal.StatsValue.result4_sum (V10 m ρ) c)) j).trans
      (colsums2_of (V10 m ρ) c _ e j)
  · exact (congrFun ((W11_arr m ρ c 2).trans (Cert.KernelIdeal.StatsValue.result4_sumsq (V10 m ρ) c)) j).trans
      (colsumsqs2_of (V10 m ρ) c _ e j)

/-- The statistics stretch: the mean row, the variance row, the scale and the shift as rows. -/
theorem mean2_at12 (c : Dev nD) : W12 m ρ c (Proc.devRef .tc main_v78) = kMean (W11 m ρ c (Proc.devRef .tc main_v76_0)) := mean2_stretch (W11 m ρ c)
theorem var2_at12 (c : Dev nD) : W12 m ρ c (Proc.devRef .tc main_v82) = kVar (W11 m ρ c (Proc.devRef .tc main_v76_0)) (W11 m ρ c (Proc.devRef .tc main_v76_1)) := var2_stretch (W11 m ρ c)
theorem scale2_at12 (c : Dev nD) : W12 m ρ c (Proc.devRef .tc main_v83) = kRow (m ((c : Thread nD τ).loc main_arg11)) :=
  (scale2_stretch (W11 m ρ c)).trans (congrArg kRow (Cert.KernelIdeal.Keeps.keep_arg11_11_0 m ρ c))
theorem shift2_at12 (c : Dev nD) : W12 m ρ c (Proc.devRef .tc main_v84) = kRow (m ((c : Thread nD τ).loc main_arg12)) :=
  (shift2_stretch (W11 m ρ c)).trans (congrArg kRow (Cert.KernelIdeal.Keeps.keep_arg12_11_0 m ρ c))

/-- The normalisation kernel leaves the reference's batch normalisation of the convolution output, when that
    output is an array of reals. -/
theorem act2_at13 (c : Dev nD) (hr1 : AllReal (conv1 m c)) (hreal : AllReal (conv2 m c)) : W13 m ρ c (Proc.devRef .tc main_v85) = (act2 m c) := by
  refine (W13_arr m ρ c 5).trans ?_
  rw [Cert.KernelIdeal.BnReluValue.array5_eq (V12 m ρ) c]
  have e48 : V12 m ρ c main_v75 = (conv2 m c) := (Cert.KernelIdeal.Keeps.keep_v75_12_10 m ρ c).trans (conv2_at10 m ρ c hr1)
  have em : V12 m ρ c main_v78 = kMean (W11 m ρ c (Proc.devRef .tc main_v76_0)) := mean2_at12 m ρ c
  have ev : V12 m ρ c main_v82 = kVar (W11 m ρ c (Proc.devRef .tc main_v76_0)) (W11 m ρ c (Proc.devRef .tc main_v76_1)) := var2_at12 m ρ c
  have eg : V12 m ρ c main_v83 = kRow (m ((c : Thread nD τ).loc main_arg11)) := scale2_at12 m ρ c
  have eb : V12 m ρ c main_v84 = kRow (m ((c : Thread nD τ).loc main_arg12)) := shift2_at12 m ρ c
  rw [e48, em, ev, eg, eb]
  exact bn_bridge (conv2 m c) hreal (m ((c : Thread nD τ).loc main_arg11)) (m ((c : Thread nD τ).loc main_arg12)) _ _ (sums2_at11 m ρ c hr1).1 (sums2_at11 m ρ c hr1).2

/-- The next layer's product kernel leaves the dense product of the activation with the layer's weights. -/
theorem prod3_at14 (c : Dev nD) (hr1 : AllReal (conv1 m c)) (hreal : AllReal (conv2 m c)) : W14 m ρ c (Proc.devRef .tc main_v86) = prod3 m c := by
  refine (W14_arr m ρ c 2).trans ?_
  rw [Cert.KernelIdeal.MatmulValue.array6 (V13 m ρ) c]
  have ea : V13 m ρ c main_v85 = (act2 m c) := act2_at13 m ρ c hr1 hreal
  have ew : V13 m ρ c main_arg7 = (m ((c : Thread nD τ).loc main_arg7)) := Cert.KernelIdeal.Keeps.keep_arg7_13_0 m ρ c
  rw [ea, ew]
  exact (Cert.Gcn.dot64_eq _ _).symm

end Cert.KernelIdeal.Stages

end
-- ==== Proof.Stages3.lean ====
/-
  The kernel's result. The last host stretch is the 64-feature graph convolution of the third product; chained
  with the two layers before it, the result array is the network of the arguments — provided the two convolution
  outputs that are normalised are arrays of reals, which finite inputs give.
-/
import proofs.«161928_j20289425506400_1_alg».proof.Proof.Stages2
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo Idealize.ShloMosaic.ValueIdx
open Cert.KernelIdeal Cert.KernelIdeal.Gen Cert.Finite

set_option maxHeartbeats 1000000 in
/-- The convolution stretch, from any contents at its entry: the generic graph convolution of the product buffer,
    the two index vectors, the edge normalisation and the bias it reads. -/
theorem result_stretch (W : Valuation τ sig (Elt Ideal)) :
    StableHlo.after hostOps7 W (Proc.devRef .tc main_v102)
      = Cert.Gcn.conv64 (W (Proc.devRef .tc main_v86)) (W (Proc.devRef .tc main_v5)) (W (Proc.devRef .tc main_v6)) (W (Proc.devRef .tc main_v31)) (W (Proc.devRef .tc main_arg8)) := by
  after_results
  rfl

variable (m : (ℓ : Loc nD τ sig) → Buf (Elt Ideal) ℓ) (ρ : Dev nD → PrngReg)

/-- The kernel's result, as a function of the arguments. -/
def result (c : Dev nD) : FVec Ideal Cert.ReferenceIdeal.S100000x64 .f32 :=
  Cert.Gcn.conv64 (prod3 m c) (Cert.ReferenceIdeal.Read.val_main_v6 (F := Ideal) (m ((c : Thread nD τ).loc main_arg1))) (Cert.ReferenceIdeal.Read.val_main_v7 (F := Ideal) (m ((c : Thread nD τ).loc main_arg1))) (Cert.ReferenceIdeal.Read.val_main_v32 (F := Ideal) (m ((c : Thread nD τ).loc main_arg1)) (m ((c : Thread nD τ).loc main_arg2))) (m ((c : Thread nD τ).loc main_arg8))

theorem src_at14 (c : Dev nD) : W14 m ρ c (Proc.devRef .tc main_v5) = (Cert.ReferenceIdeal.Read.val_main_v6 (F := Ideal) (m ((c : Thread nD τ).loc main_arg1))) :=
  (Cert.KernelIdeal.Keeps.keep_v5_14_9 m ρ c).trans (src_at9 m ρ c)
theorem dst_at14 (c : Dev nD) : W14 m ρ c (Proc.devRef .tc main_v6) = (Cert.ReferenceIdeal.Read.val_main_v7 (F := Ideal) (m ((c : Thread nD τ).loc main_arg1))) :=
  (Cert.KernelIdeal.Keeps.keep_v6_14_9 m ρ c).trans (dst_at9 m ρ c)
theorem norm_at14 (c : Dev nD) : W14 m ρ c (Proc.devRef .tc main_v31) = (Cert.ReferenceIdeal.Read.val_main_v32 (F := Ideal) (m ((c : Thread nD τ).loc main_arg1)) (m ((c : Thread nD τ).loc main_arg2))) :=
  (Cert.KernelIdeal.Keeps.keep_v31_14_9 m ρ c).trans (norm_at9 m ρ c)

/-- The last host stretch leaves the 64-feature convolution of the third product. -/
theorem result_at15 (c : Dev nD) (hr1 : AllReal (conv1 m c)) (hr2 : AllReal (conv2 m c)) :
    W15 m ρ c (Proc.devRef .tc main_v102) = result m c := by
  refine (result_stretch (W14 m ρ c)).trans ?_
  rw [prod3_at14 m ρ c hr1 hr2, src_at14 m ρ c, dst_at14 m ρ c, norm_at14 m ρ c, Cert.KernelIdeal.Keeps.keep_arg8_14_0 m ρ c]
  rfl

/-- The kernel's result is the network of the arguments, with the graph arrays built from the edge list. -/
theorem result_eq_network (c : Dev nD) :
    result m c = Cert.Gcn.network (m ((c : Thread nD τ).loc main_arg0)) (Cert.ReferenceIdeal.Read.val_main_v6 (F := Ideal) (m ((c : Thread nD τ).loc main_arg1))) (Cert.ReferenceIdeal.Read.val_main_v7 (F := Ideal) (m ((c : Thread nD τ).loc main_arg1))) (Cert.ReferenceIdeal.Read.val_main_v32 (F := Ideal) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)) (m ((c : Thread nD τ).loc main_arg12)) := rfl

end Cert.KernelIdeal.Stages

end
-- ==== Proof.RefStages.lean ====
/-
  The reference, stage by stage, IS the network of the generic layer functions: each layer's convolution output is
  `conv128` (or `conv64`) of the dense product of the layer's input, each normalised activation is `bnRelu` of the
  convolution output, and the edge index vectors and the edge normalisation, which the reference rebuilds for
  every layer by the same operations, are the same arrays each time. Every identity here is an unfolding of
  definitions: nothing is computed.
-/
import proofs.«161928_j20289425506400_1_alg».proof.Proof.Spec
import proofs.«161928_j20289425506400_1_alg».proof.Proof.Gen.ReferenceIdeal.Read

set_option maxRecDepth 16384

noncomputable section

namespace Cert.Gcn

open Idealize.ShloMosaic Cert.ReferenceIdeal Cert.ReferenceIdeal.Gen Cert.ReferenceIdeal.Read

variable (x0 : FVec Ideal S100000x128 .f32) (x1 : IVec S2x1600000 32) (x2 : FVec Ideal S1600000 .f32)
  (x3 : FVec Ideal S128x128 .f32) (x4 : FVec Ideal S128 .f32) (x5 : FVec Ideal S128x128 .f32) (x6 : FVec Ideal S128 .f32)
  (x7 : FVec Ideal S128x64 .f32) (x8 : FVec Ideal S64 .f32) (x9 x10 x11 x12 : FVec Ideal S128 .f32)

/-- The source index vector rebuilt for the second layer is the first layer's. -/
theorem src2_eq : val_main_v77 (F := Ideal) x1 = val_main_v6 (F := Ideal) x1 := rfl
theorem dst2_eq : val_main_v78 (F := Ideal) x1 = val_main_v7 (F := Ideal) x1 := rfl
theorem src3_eq : val_main_v148 (F := Ideal) x1 = val_main_v6 (F := Ideal) x1 := rfl
theorem dst3_eq : val_main_v149 (F := Ideal) x1 = val_main_v7 (F := Ideal) x1 := rfl
/-- The edge normalisation rebuilt for the second and third layers is the first layer's. -/
theorem norm2_eq : val_main_v103 (F := Ideal) x1 x2 = val_main_v32 (F := Ideal) x1 x2 := rfl
theorem norm3_eq : val_main_v174 (F := Ideal) x1 x2 = val_main_v32 (F := Ideal) x1 x2 := rfl

/-- Layer 1's convolution output. -/
theorem ref_h1 : val_main_v48 (F := Ideal) x0 x1 x2 x3 x4
    = conv128 (dot128 x0 x3) (val_main_v6 (F := Ideal) x1) (val_main_v7 (F := Ideal) x1) (val_main_v32 (F := Ideal) x1 x2) x4 := rfl

/-- Layer 1's normalised, rectified activation. -/
theorem ref_a1 : val_main_v74 (F := Ideal) x0 x1 x2 x3 x4 x9 x10 = bnRelu (val_main_v48 (F := Ideal) x0 x1 x2 x3 x4) x9 x10 := rfl

/-- Layer 2's convolution output. -/
theorem ref_h2 : val_main_v119 (F := Ideal) x0 x1 x2 x3 x4 x5 x6 x9 x10
    = conv128 (dot128 (val_main_v74 (F := Ideal) x0 x1 x2 x3 x4 x9 x10) x5) (val_main_v6 (F := Ideal) x1) (val_main_v7 (F := Ideal) x1)
        (val_main_v32 (F := Ideal) x1 x2) x6 := rfl

/-- Layer 2's normalised, rectified activation. -/
theorem ref_a2 : val_main_v145 (F := Ideal) x0 x1 x2 x3 x4 x5 x6 x9 x10 x11 x12
    = bnRelu (val_main_v119 (F := Ideal) x0 x1 x2 x3 x4 x5 x6 x9 x10) x11 x12 := rfl

/-- The reference's result. -/
theorem ref_out : val_main_v190 (F := Ideal) x0 x1 x2 x3 x4 x5 x6 x7 x8 x9 x10 x11 x12
    = conv64 (dot64 (val_main_v145 (F := Ideal) x0 x1 x2 x3 x4 x5 x6 x9 x10 x11 x12) x7) (val_main_v6 (F := Ideal) x1)
        (val_main_v7 (F := Ideal) x1) (val_main_v32 (F := Ideal) x1 x2) x8 := rfl

/-- The reference's result is the network of its arguments, with the graph arrays of the first layer. -/
theorem ref_network : val_main_v190 (F := Ideal) x0 x1 x2 x3 x4 x5 x6 x7 x8 x9 x10 x11 x12
    = network x0 (val_main_v6 (F := Ideal) x1) (val_main_v7 (F := Ideal) x1) (val_main_v32 (F := Ideal) x1 x2)
        x3 x4 x5 x6 x7 x8 x9 x10 x11 x12 := by
  rw [ref_out, ref_a2, ref_h2, ref_a1, ref_h1]; rfl

end Cert.Gcn

end
-- ==== Proof.RefReal.lean ====
/-
  The edge normalisation is an array of reals whatever the edge list, when the edge weights are reals: the
  weights with a unit per self-loop appended are reals; the degree normalisation — the inverse square root of the
  degree where the degree is positive, zero elsewhere — is a real at every node whatever the degree (of +∞ the
  inverse square root is 0; a degree that is not positive is never passed to it); and an edge's normalisation is a
  product of two gathered entries of it with the edge's weight.
-/
import proofs.«161928_j20289425506400_1_alg».proof.Proof.SpecReal
import proofs.«161928_j20289425506400_1_alg».proof.Proof.Gen.ReferenceIdeal.Read

set_option maxRecDepth 16384

noncomputable section

namespace Cert.Gcn

open Idealize.ShloMosaic Cert.ReferenceIdeal Cert.ReferenceIdeal.Gen Cert.ReferenceIdeal.Read Cert.Finite

/-- The unit literal, as a scalar array, is real. -/
theorem one_real : AllReal (constant (F := Ideal) S_ .f32 0x3F800000#32) :=
  fun _ => ⟨1, by show Ideal.ofBits .f32 0x3F800000#32 = _; rw [Cert.Consts.ofBits_one]; rfl⟩

/-- The edge weights with a unit per self-loop appended are reals. -/
theorem weights_real (x2 : FVec Ideal S1600000 .f32) (h2 : AllReal x2) : AllReal (val_main_v9 (F := Ideal) x2) := by
  unfold val_main_v9
  refine concatenate_real _ _ _ (fun p hp => ?_)
  rcases List.mem_cons.mp hp with rfl | hp
  · exact h2
  · rcases List.mem_cons.mp hp with rfl | hp
    · show AllReal (broadcastInDim S100000 ![] bcast_S_S100000 (constant (F := Ideal) S_ .f32 0x3F800000#32))
      exact broadcastInDim_real _ _ _ one_real
    · exact absurd hp (List.not_mem_nil)

/-- The degree normalisation is a real at every node. -/
theorem dinv_is_real (x1 : IVec S2x1600000 32) (x2 : FVec Ideal S1600000 .f32) : AllReal (val_main_v16 (F := Ideal) x1 x2) := by
  unfold val_main_v16 val_main_v14 val_main_v15
  exact dinv_real _ _ _ (fun _ => Ideal.ofBits_zero_f32) (broadcastInDim_real _ _ _ zero_real)

/-- Every edge's normalisation is a real. -/
theorem norm_real (x1 : IVec S2x1600000 32) (x2 : FVec Ideal S1600000 .f32) (h2 : AllReal x2) :
    AllReal (val_main_v32 (F := Ideal) x1 x2) := by
  have hd := dinv_is_real x1 x2
  have hw := weights_real x2 h2
  unfold val_main_v32 val_main_v24 val_main_v23 val_main_v31
  exact mulf_real _ _ (mulf_real _ _ (gather_real _ _ _ hd) hw) (gather_real _ _ _ hd)

end Cert.Gcn

end
-- ==== Proof.FiniteInputs.lean ====
/-
  The precondition says: for each of the twelve float arguments x, every entry satisfies |x| < +∞, and all twelve
  tests are and-ed into one bit that is 1. Read over the extended reals, |x| = max x (-x) and +∞ = ⊤, so the test
  fails at ⊤ and at ⊥ (|⊥| = max ⊥ ⊤ = ⊤) and passes exactly at the real numbers. Hence every entry of every float
  argument is a real number.
-/
import proofs.«161928_j20289425506400_1_alg».proof.Defs
import Idealize.ShloMosaic.Lib.ReduceAll

set_option maxRecDepth 16384

noncomputable section

namespace Cert.KernelIdeal.FiniteInputs

open Idealize.ShloMosaic Idealize.ShloMosaic.TcCoe Idealize.SL.Sem Cert.KernelIdeal

/-- The rank-0 shape has one index. -/
instance subsingleton_scalar_idx : Subsingleton Cert.Pre_finite_inputs.S_.Idx := ⟨fun a b => funext fun d => d.elim0⟩

/-- The pattern 0x7F800000 denotes +∞. -/
theorem inf_pattern_eq_top : Ideal.ofBits .f32 0x7F800000#32 = (⊤ : EReal) := by
  simp [Ideal.ofBits, Ideal.ieee]

/-- An extended real x with max x (-x) < +∞ (the comparison bit is 1) is a real number. -/
theorem real_of_abs_lt_inf (x : EReal)
    (h : Ideal.cmp .olt (max x (-x)) (Ideal.ofBits .f32 0x7F800000#32) = 1#1) : ∃ r : ℝ, x = (r : EReal) := by
  rw [inf_pattern_eq_top] at h
  induction x using EReal.rec with
  | bot => simp [Ideal.cmp] at h
  | coe r => exact ⟨r, rfl⟩
  | top => simp [Ideal.cmp] at h

/-- The same at an entry of an array of any shape: if the entry's bit of  |x| < broadcast(+∞)  is 1, the entry is real. -/
theorem real_of_entry_test {s : Shape} (bc : Cert.Pre_finite_inputs.S_.BroadcastsInDim s (![] : Fin 0 → Fin s.rank))
    (x : FVec Ideal s .f32) (i : s.Idx)
    (h : cmpf .olt (Host.absf x) (broadcastInDim s ![] bc (constant Cert.Pre_finite_inputs.S_ .f32 0x7F800000#32)) i = 1#1) :
    ∃ r : ℝ, x i = (r : EReal) :=
  real_of_abs_lt_inf (x i) h

/-- The one index of a rank-0 array. -/
abbrev scalarIdx : Cert.Pre_finite_inputs.S_.Idx := fun a => a.elim0

/-- The precondition, split: the and of the twelve "all entries pass" bits is 1, so each bit is 1, and an and-reduction
    over all axes that came out 1 met a 1 at every entry. For each float argument: every entry's bit of  |x| < +∞  is 1. -/
theorem entry_tests_pass [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i : S100000x128.Idx, cmpf (F := Ideal) .olt (Host.absf (F := Ideal) (s := S100000x128) (φ := .f32) (m ((c.tc : Thread Cert.KernelIdeal.nD Cert.KernelIdeal.τ).loc Cert.KernelIdeal.main_arg0))) (broadcastInDim S100000x128 ![] hP.bcast_S_S100000x128 (constant Cert.Pre_finite_inputs.S_ .f32 0x7F800000#32)) i = 1#1)
    ∧ (∀ i : S1600000.Idx, cmpf (F := Ideal) .olt (Host.absf (F := Ideal) (s := S1600000) (φ := .f32) (m ((c.tc : Thread Cert.KernelIdeal.nD Cert.KernelIdeal.τ).loc Cert.KernelIdeal.main_arg2))) (broadcastInDim S1600000 ![] hP.bcast_S_S1600000 (constant Cert.Pre_finite_inputs.S_ .f32 0x7F800000#32)) i = 1#1)
    ∧ (∀ i : S128x128.Idx, cmpf (F := Ideal) .olt (Host.absf (F := Ideal) (s := S128x128) (φ := .f32) (m ((c.tc : Thread Cert.KernelIdeal.nD Cert.KernelIdeal.τ).loc Cert.KernelIdeal.main_arg3))) (broadcastInDim S128x128 ![] hP.bcast_S_S128x128 (constant Cert.Pre_finite_inputs.S_ .f32 0x7F800000#32)) i = 1#1)
    ∧ (∀ i : S128.Idx, cmpf (F := Ideal) .olt (Host.absf (F := Ideal) (s := S128) (φ := .f32) (m ((c.tc : Thread Cert.KernelIdeal.nD Cert.KernelIdeal.τ).loc Cert.KernelIdeal.main_arg4))) (broadcastInDim S128 ![] hP.bcast_S_S128 (constant Cert.Pre_finite_inputs.S_ .f32 0x7F800000#32)) i = 1#1)
    ∧ (∀ i : S128x128.Idx, cmpf (F := Ideal) .olt (Host.absf (F := Ideal) (s := S128x128) (φ := .f32) (m ((c.tc : Thread Cert.KernelIdeal.nD Cert.KernelIdeal.τ).loc Cert.KernelIdeal.main_arg5))) (broadcastInDim S128x128 ![] hP.bcast_S_S128x128 (constant Cert.Pre_finite_inputs.S_ .f32 0x7F800000#32)) i = 1#1)
    ∧ (∀ i : S128.Idx, cmpf (F := Ideal) .olt (Host.absf (F := Ideal) (s := S128) (φ := .f32) (m ((c.tc : Thread Cert.KernelIdeal.nD Cert.KernelIdeal.τ).loc Cert.KernelIdeal.main_arg6))) (broadcastInDim S128 ![] hP.bcast_S_S128 (constant Cert.Pre_finite_inputs.S_ .f32 0x7F800000#32)) i = 1#1)
    ∧ (∀ i : S128x64.Idx, cmpf (F := Ideal) .olt (Host.absf (F := Ideal) (s := S128x64) (φ := .f32) (m ((c.tc : Thread Cert.KernelIdeal.nD Cert.KernelIdeal.τ).loc Cert.KernelIdeal.main_arg7))) (broadcastInDim S128x64 ![] hP.bcast_S_S128x64 (constant Cert.Pre_finite_inputs.S_ .f32 0x7F800000#32)) i = 1#1)
    ∧ (∀ i : S64.Idx, cmpf (F := Ideal) .olt (Host.absf (F := Ideal) (s := S64) (φ := .f32) (m ((c.tc : Thread Cert.KernelIdeal.nD Cert.KernelIdeal.τ).loc Cert.KernelIdeal.main_arg8))) (broadcastInDim S64 ![] hP.bcast_S_S64 (constant Cert.Pre_finite_inputs.S_ .f32 0x7F800000#32)) i = 1#1)
    ∧ (∀ i : S128.Idx, cmpf (F := Ideal) .olt (Host.absf (F := Ideal) (s := S128) (φ := .f32) (m ((c.tc : Thread Cert.KernelIdeal.nD Cert.KernelIdeal.τ).loc Cert.KernelIdeal.main_arg9))) (broadcastInDim S128 ![] hP.bcast_S_S128 (constant Cert.Pre_finite_inputs.S_ .f32 0x7F800000#32)) i = 1#1)
    ∧ (∀ i : S128.Idx, cmpf (F := Ideal) .olt (Host.absf (F := Ideal) (s := S128) (φ := .f32) (m ((c.tc : Thread Cert.KernelIdeal.nD Cert.KernelIdeal.τ).loc Cert.KernelIdeal.main_arg10))) (broadcastInDim S128 ![] hP.bcast_S_S128 (constant Cert.Pre_finite_inputs.S_ .f32 0x7F800000#32)) i = 1#1)
    ∧ (∀ i : S128.Idx, cmpf (F := Ideal) .olt (Host.absf (F := Ideal) (s := S128) (φ := .f32) (m ((c.tc : Thread Cert.KernelIdeal.nD Cert.KernelIdeal.τ).loc Cert.KernelIdeal.main_arg11))) (broadcastInDim S128 ![] hP.bcast_S_S128 (constant Cert.Pre_finite_inputs.S_ .f32 0x7F800000#32)) i = 1#1)
    ∧ (∀ i : S128.Idx, cmpf (F := Ideal) .olt (Host.absf (F := Ideal) (s := S128) (φ := .f32) (m ((c.tc : Thread Cert.KernelIdeal.nD Cert.KernelIdeal.τ).loc Cert.KernelIdeal.main_arg12))) (broadcastInDim S128 ![] hP.bcast_S_S128 (constant Cert.Pre_finite_inputs.S_ .f32 0x7F800000#32)) i = 1#1) := by
  have e := congrFun (h c) scalarIdx
  dsimp only [Cert.Pre_finite_inputs.fn, Cert.Pre_finite_inputs.fn_part1, Cert.Pre_finite_inputs.fn_part2, Cert.Pre_finite_inputs.fn_part3] at e
  simp only [andi, IntOp.andi_eq_one] at e
  obtain ⟨⟨⟨⟨⟨⟨⟨⟨⟨⟨⟨e0, e2⟩, e3⟩, e4⟩, e5⟩, e6⟩, e7⟩, e8⟩, e9⟩, e10⟩, e11⟩, e12⟩ := e
  exact ⟨fun i => Host.reduce_andi_all _ _ _ _ scalarIdx e0 i,
    fun i => Host.reduce_andi_all _ _ _ _ scalarIdx e2 i,
    fun i => Host.reduce_andi_all _ _ _ _ scalarIdx e3 i,
    fun i => Host.reduce_andi_all _ _ _ _ scalarIdx e4 i,
    fun i => Host.reduce_andi_all _ _ _ _ scalarIdx e5 i,
    fun i => Host.reduce_andi_all _ _ _ _ scalarIdx e6 i,
    fun i => Host.reduce_andi_all _ _ _ _ scalarIdx e7 i,
    fun i => Host.reduce_andi_all _ _ _ _ scalarIdx e8 i,
    fun i => Host.reduce_andi_all _ _ _ _ scalarIdx e9 i,
    fun i => Host.reduce_andi_all _ _ _ _ scalarIdx e10 i,
    fun i => Host.reduce_andi_all _ _ _ _ scalarIdx e11 i,
    fun i => Host.reduce_andi_all _ _ _ _ scalarIdx e12 i⟩

/-- Every entry of argument 0 is a real number. -/
theorem real_arg0 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S100000x128.Idx) :
    ∃ r : ℝ, (m ((c.tc : Thread Cert.KernelIdeal.nD Cert.KernelIdeal.τ).loc Cert.KernelIdeal.main_arg0) : S100000x128.Idx → EReal) i = (r : EReal) :=
  real_of_entry_test hP.bcast_S_S100000x128 _ i ((entry_tests_pass m h c).1 i)

/-- Every entry of argument 2 is a real number. -/
theorem real_arg2 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S1600000.Idx) :
    ∃ r : ℝ, (m ((c.tc : Thread Cert.KernelIdeal.nD Cert.KernelIdeal.τ).loc Cert.KernelIdeal.main_arg2) : S1600000.Idx → EReal) i = (r : EReal) :=
  real_of_entry_test hP.bcast_S_S1600000 _ i ((entry_tests_pass m h c).2.1 i)

/-- Every entry of argument 3 is a real number. -/
theorem real_arg3 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S128x128.Idx) :
    ∃ r : ℝ, (m ((c.tc : Thread Cert.KernelIdeal.nD Cert.KernelIdeal.τ).loc Cert.KernelIdeal.main_arg3) : S128x128.Idx → EReal) i = (r : EReal) :=
  real_of_entry_test hP.bcast_S_S128x128 _ i ((entry_tests_pass m h c).2.2.1 i)

/-- Every entry of argument 4 is a real number. -/
theorem real_arg4 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S128.Idx) :
    ∃ r : ℝ, (m ((c.tc : Thread Cert.KernelIdeal.nD Cert.KernelIdeal.τ).loc Cert.KernelIdeal.main_arg4) : S128.Idx → EReal) i = (r : EReal) :=
  real_of_entry_test hP.bcast_S_S128 _ i ((entry_tests_pass m h c).2.2.2.1 i)

/-- Every entry of argument 5 is a real number. -/
theorem real_arg5 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S128x128.Idx) :
    ∃ r : ℝ, (m ((c.tc : Thread Cert.KernelIdeal.nD Cert.KernelIdeal.τ).loc Cert.KernelIdeal.main_arg5) : S128x128.Idx → EReal) i = (r : EReal) :=
  real_of_entry_test hP.bcast_S_S128x128 _ i ((entry_tests_pass m h c).2.2.2.2.1 i)

/-- Every entry of argument 6 is a real number. -/
theorem real_arg6 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S128.Idx) :
    ∃ r : ℝ, (m ((c.tc : Thread Cert.KernelIdeal.nD Cert.KernelIdeal.τ).loc Cert.KernelIdeal.main_arg6) : S128.Idx → EReal) i = (r : EReal) :=
  real_of_entry_test hP.bcast_S_S128 _ i ((entry_tests_pass m h c).2.2.2.2.2.1 i)

/-- Every entry of argument 7 is a real number. -/
theorem real_arg7 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S128x64.Idx) :
    ∃ r : ℝ, (m ((c.tc : Thread Cert.KernelIdeal.nD Cert.KernelIdeal.τ).loc Cert.KernelIdeal.main_arg7) : S128x64.Idx → EReal) i = (r : EReal) :=
  real_of_entry_test hP.bcast_S_S128x64 _ i ((entry_tests_pass m h c).2.2.2.2.2.2.1 i)

/-- Every entry of argument 8 is a real number. -/
theorem real_arg8 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S64.Idx) :
    ∃ r : ℝ, (m ((c.tc : Thread Cert.KernelIdeal.nD Cert.KernelIdeal.τ).loc Cert.KernelIdeal.main_arg8) : S64.Idx → EReal) i = (r : EReal) :=
  real_of_entry_test hP.bcast_S_S64 _ i ((entry_tests_pass m h c).2.2.2.2.2.2.2.1 i)

/-- Every entry of argument 9 is a real number. -/
theorem real_arg9 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S128.Idx) :
    ∃ r : ℝ, (m ((c.tc : Thread Cert.KernelIdeal.nD Cert.KernelIdeal.τ).loc Cert.KernelIdeal.main_arg9) : S128.Idx → EReal) i = (r : EReal) :=
  real_of_entry_test hP.bcast_S_S128 _ i ((entry_tests_pass m h c).2.2.2.2.2.2.2.2.1 i)

/-- Every entry of argument 10 is a real number. -/
theorem real_arg10 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S128.Idx) :
    ∃ r : ℝ, (m ((c.tc : Thread Cert.KernelIdeal.nD Cert.KernelIdeal.τ).loc Cert.KernelIdeal.main_arg10) : S128.Idx → EReal) i = (r : EReal) :=
  real_of_entry_test hP.bcast_S_S128 _ i ((entry_tests_pass m h c).2.2.2.2.2.2.2.2.2.1 i)

/-- Every entry of argument 11 is a real number. -/
theorem real_arg11 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S128.Idx) :
    ∃ r : ℝ, (m ((c.tc : Thread Cert.KernelIdeal.nD Cert.KernelIdeal.τ).loc Cert.KernelIdeal.main_arg11) : S128.Idx → EReal) i = (r : EReal) :=
  real_of_entry_test hP.bcast_S_S128 _ i ((entry_tests_pass m h c).2.2.2.2.2.2.2.2.2.2.1 i)

/-- Every entry of argument 12 is a real number. -/
theorem real_arg12 [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : S128.Idx) :
    ∃ r : ℝ, (m ((c.tc : Thread Cert.KernelIdeal.nD Cert.KernelIdeal.τ).loc Cert.KernelIdeal.main_arg12) : S128.Idx → EReal) i = (r : EReal) :=
  real_of_entry_test hP.bcast_S_S128 _ i ((entry_tests_pass m h c).2.2.2.2.2.2.2.2.2.2.2 i)

end Cert.KernelIdeal.FiniteInputs

end
-- ==== Proof.lean ====
/-
  A three-layer graph convolutional encoder over 100000 nodes and 1600000 edges: X·W, gather by source, scale by
  the symmetric normalisation, scatter-add by target, bias; batch normalisation over the nodes and a rectifier after
  the first two layers. The kernel does the dense products, the column statistics and the normalisation in seven
  pallas_calls and the graph propagation on the host; the reference is plain host code.

  At the exact values the two agree. The dense products agree entry by entry (a row-blocked product into a zero
  accumulator is the whole product). The graph propagation is the same host operations on both sides. The batch
  normalisation differs in form: the reference takes the variance as the mean of the squared deviations, the kernel
  as the mean of the squares minus the squared mean, from two running column sums accumulated over twenty row
  blocks. These agree when every entry of the layer's convolution output is a real number, and they are: the
  inputs are finite by the precondition, the edge normalisation is real whatever the degrees (the inverse square
  root is taken only where the degree is positive, and of +∞ it is 0), and products, finite sums, gathers and
  scatter-adds of reals are reals; the first layer's activation is real because the variance, a mean of squares, is
  nonnegative, so that variance plus the positive epsilon has a real inverse square root. The third layer is not
  normalised, so nothing more is asked of its output.

  The three frames are the generated ones (the reference's is its generated run with the result dropped); the
  idealisation rewrote nothing, so `preserves` is trivial.
-/
import proofs.«161928_j20289425506400_1_alg».proof.Defs
import proofs.«161928_j20289425506400_1_alg».proof.Proof.Gen.Kernel
import proofs.«161928_j20289425506400_1_alg».proof.Proof.Gen.Kernel.Skeleton
import proofs.«161928_j20289425506400_1_alg».proof.Proof.Gen.Kernel.Launch
import proofs.«161928_j20289425506400_1_alg».proof.Proof.Gen.Kernel.Points
import proofs.«161928_j20289425506400_1_alg».proof.Proof.Gen.Kernel.Frame
import proofs.«161928_j20289425506400_1_alg».proof.Proof.Gen.KernelIdeal
import proofs.«161928_j20289425506400_1_alg».proof.Proof.Gen.KernelIdeal.Skeleton
import proofs.«161928_j20289425506400_1_alg».proof.Proof.Gen.KernelIdeal.Launch
import proofs.«161928_j20289425506400_1_alg».proof.Proof.Gen.KernelIdeal.Points
import proofs.«161928_j20289425506400_1_alg».proof.Proof.Gen.KernelIdeal.Frame
import proofs.«161928_j20289425506400_1_alg».proof.Proof.Gen.ReferenceIdeal
import proofs.«161928_j20289425506400_1_alg».proof.Proof.Gen.Pre_finite_inputs
import proofs.«161928_j20289425506400_1_alg».proof.Proof.Gen.ReferenceIdeal.Run
import proofs.«161928_j20289425506400_1_alg».proof.Proof.Gen.ReferenceIdeal.Read
import proofs.«161928_j20289425506400_1_alg».proof.Proof.KernelRun
import proofs.«161928_j20289425506400_1_alg».proof.Proof.Stages3
import proofs.«161928_j20289425506400_1_alg».proof.Proof.RefStages
import proofs.«161928_j20289425506400_1_alg».proof.Proof.RefReal
import proofs.«161928_j20289425506400_1_alg».proof.Proof.FiniteInputs
import Idealize.ShloMosaic.Adequacy
import Idealize.ShloMosaic.Init

noncomputable section

namespace Cert.Proof

open Idealize.ShloMosaic Idealize.SL.Sem Cert.Finite

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Finite inputs make the first layer's convolution output an array of reals. -/
theorem conv1_real (m : (ℓ : Loc Cert.KernelIdeal.nD Cert.KernelIdeal.τ Cert.KernelIdeal.sig) → Buf (Elt Ideal) ℓ)
    (h : Cert.Pre_KernelIdeal m) (c : Dev Cert.KernelIdeal.nD) : AllReal (Cert.KernelIdeal.Stages.conv1 m c) :=
  Cert.Gcn.conv128_real _ _ _ _ _
    (Cert.Gcn.dot128_real _ _ (fun i => Cert.KernelIdeal.FiniteInputs.real_arg0 m h c i) (fun i => Cert.KernelIdeal.FiniteInputs.real_arg3 m h c i))
    (Cert.Gcn.norm_real _ _ (fun i => Cert.KernelIdeal.FiniteInputs.real_arg2 m h c i)) (fun i => Cert.KernelIdeal.FiniteInputs.real_arg4 m h c i)

/-- … and then the second layer's too. -/
theorem conv2_real (m : (ℓ : Loc Cert.KernelIdeal.nD Cert.KernelIdeal.τ Cert.KernelIdeal.sig) → Buf (Elt Ideal) ℓ)
    (h : Cert.Pre_KernelIdeal m) (c : Dev Cert.KernelIdeal.nD) : AllReal (Cert.KernelIdeal.Stages.conv2 m c) :=
  Cert.Gcn.conv128_real _ _ _ _ _
    (Cert.Gcn.dot128_real _ _
      (Cert.Gcn.bnRelu_real _ _ _ (conv1_real m h c) (fun i => Cert.KernelIdeal.FiniteInputs.real_arg9 m h c i) (fun i => Cert.KernelIdeal.FiniteInputs.real_arg10 m h c i))
      (fun i => Cert.KernelIdeal.FiniteInputs.real_arg5 m h c i))
    (Cert.Gcn.norm_real _ _ (fun i => Cert.KernelIdeal.FiniteInputs.real_arg2 m h c i)) (fun i => Cert.KernelIdeal.FiniteInputs.real_arg6 m h c i)

/-- Both idealized programs end at the network of the arguments. -/
theorem algebraic : Cert.algebraic_KernelIdeal_ReferenceIdeal := by
  intro m ρ m' ρ' hpre hagree
  refine ⟨fun c => Cert.KernelIdeal.Stages.result m c, ?_, ?_⟩
  · exact (θ_run Cert.KernelIdeal.defs _ _).mono
      (fun r h c => ⟨(h c).1.trans (Cert.KernelIdeal.Stages.result_at15 m ρ c (conv1_real m hpre c) (conv2_real m hpre c)), (h c).2⟩)
      (Cert.KernelIdeal.RunResult.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v190_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.Gcn.ref_network _ _ _ _ _ _ _ _ _ _ _ _ _).trans (Cert.KernelIdeal.Stages.result_eq_network m c).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
